-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096x2 : Shape := ⟨3, ![4096, 4096, 2]⟩
abbrev S10x64 : Shape := ⟨2, ![10, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S4096x4096x2 : S_.BroadcastsInDim S4096x4096x2 (![] : Fin 0 → Fin S4096x4096x2.rank)
  reducesTo_S4096x4096x2_S_d0_1_2 : S4096x4096x2.ReducesTo [0, 1, 2] S_
  h_S_ : 0 < S_.numel
  bcast_S_S10x64 : S_.BroadcastsInDim S10x64 (![] : Fin 0 → Fin S10x64.rank)
  reducesTo_S10x64_S_d0_1 : S10x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S4096x4096x2 .f32) (main_arg1 : FVec F S10x64 .f32) (main_arg2 : FVec F S64 .f32) (main_arg3 : FVec F S64x32 .f32) (main_arg4 : FVec F S32 .f32) : IVec S_ 1 :=
  let main_v0 : FVec F S4096x4096x2 .f32 := Host.absf main_arg0
  let main_cst : FVec F S_ .f32 := constant S_ .f32 0x7F800000#32
  let main_v1 : FVec F S4096x4096x2 .f32 := broadcastInDim S4096x4096x2 ![] bcast_S_S4096x4096x2 main_cst
  let main_v2 : IVec S4096x4096x2 1 := cmpf .olt main_v0 main_v1
  let main_c : IVec S_ 1 := constantI S_ 1 1#1
  let main_v3 : IVec S_ 1 := (fun x v => Host.reduce IntOp.andi x v reducesTo_S4096x4096x2_S_d0_1_2 h_S_) main_v2 main_c
  let main_v4 : FVec F S10x64 .f32 := Host.absf main_arg1
  let main_cst_0 : FVec F S_ .f32 := constant S_ .f32 0x7F800000#32
  let main_v5 : FVec F S10x64 .f32 := broadcastInDim S10x64 ![] bcast_S_S10x64 main_cst_0
  let main_v6 : IVec S10x64 1 := cmpf .olt main_v4 main_v5
  let main_c_1 : IVec S_ 1 := constantI S_ 1 1#1
  let main_v7 : IVec S_ 1 := (fun x v => Host.reduce IntOp.andi x v reducesTo_S10x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_v13 main_v16
-- ==== Kernel.lean ====
abbrev S4096x4096x2 : Shape := ⟨3, ![4096, 4096, 2]⟩
abbrev S10x64 : Shape := ⟨2, ![10, 64]⟩
abbrev S64 : Shape := ⟨1, ![64]⟩
abbrev S64x32 : Shape := ⟨2, ![64, 32]⟩
abbrev S32 : Shape := ⟨1, ![32]⟩
abbrev S2x4096x4096 : Shape := ⟨3, ![2, 4096, 4096]⟩
abbrev S1x4096x4096 : Shape := ⟨3, ![1, 4096, 4096]⟩
abbrev S4096x4096 : Shape := ⟨2, ![4096, 4096]⟩
abbrev S4096x32 : Shape := ⟨2, ![4096, 32]⟩
abbrev S256x4096 : Shape := ⟨2, ![256, 4096]⟩
abbrev S256x32 : Shape := ⟨2, ![256, 32]⟩
abbrev S256 : Shape := ⟨1, ![256]⟩
abbrev S256x1 : Shape := ⟨2, ![256, 1]⟩
abbrev S256x10 : Shape := ⟨2, ![256, 10]⟩
abbrev S256x64 : Shape := ⟨2, ![256, 64]⟩
abbrev S1x64 : Shape := ⟨2, ![1, 64]⟩
abbrev S1x32 : Shape := ⟨2, ![1, 32]⟩

abbrev nBuf : Space → Nat
  | .hbm => 11
  | .vmem => 10
  | .smem => 0
  | _ => 0

abbrev bufTy : (tb : Table) → Fin (tcTables nBuf tb) → BufTy
  | .hbm, ⟨0, _⟩ => ⟨S4096x4096x2, .f32⟩
  | .hbm, ⟨1, _⟩ => ⟨S10x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S2x4096x4096, .f32⟩
  | .hbm, ⟨6, _⟩ => ⟨S1x4096x4096, .f32⟩
  | .hbm, ⟨7, _⟩ => ⟨S4096x4096, .f32⟩
  | .hbm, ⟨8, _⟩ => ⟨S1x4096x4096, .f32⟩
  | .hbm, ⟨9, _⟩ => ⟨S4096x4096, .f32⟩
  | .hbm, ⟨10, _⟩ => ⟨S4096x32, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S10x64, .f32⟩
  | .local _ .vmem, ⟨5, _⟩ => ⟨S64, .f32⟩
  | .local _ .vmem, ⟨6, _⟩ => ⟨S64x32, .f32⟩
  | .local _ .vmem, ⟨7, _⟩ => ⟨S32, .f32⟩
  | .local _ .vmem, ⟨8, _⟩ => ⟨S256x32, .f32⟩
  | .local _ .vmem, ⟨9, _⟩ => ⟨S256x32, .f32⟩
  | _, _ => ⟨S4096x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S4096x4096x2_S2x4096x4096_2_0_1 : S4096x4096x2.Transposes [2, 0, 1] S2x4096x4096
  slices_S2x4096x4096_S1x4096x4096_0_0_0 : S2x4096x4096.Slices ![0, 0, 0] S1x4096x4096
  shapeCasts_S1x4096x4096_S4096x4096 : S1x4096x4096.ShapeCasts S4096x4096
  slices_S2x4096x4096_S1x4096x4096_1_0_0 : S2x4096x4096.Slices ![1, 0, 0] S1x4096x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  concatenates_S256x1_S256x1_S256x1_S256x1_S256x1_S256x1_S256x1_S256x1_S256x1_S256x1_S256x10_d1 : Shape.Concatenates [S256x1, S256x1, S256x1, S256x1, S256x1, S256x1, S256x1, S256x1, S256x1, S256x1] S256x10 1
  inb_S10x64_S10x64_0_0 : ∀ a, (![0, 0] : Fin 2 → Nat) a + S10x64.size a ≤ S10x64.size a
  h_S10x64 : 0 < S10x64.numel
  inb_S64_S64_0 : ∀ a, (![0] : Fin 1 → Nat) a + S64.size a ≤ S64.size a
  h_S64 : 0 < S64.numel
  shapeCasts_S64_S1x64 : S64.ShapeCasts S1x64
  broadcasts_S1x64_S256x64 : S1x64.Broadcasts S256x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S256x32 : S1x32.Broadcasts S256x32
  inb_S256x32_S256x32_0_0 : ∀ a, (![0, 0] : Fin 2 → Nat) a + S256x32.size a ≤ S256x32.size a
  h_S256x32 : 0 < S256x32.numel
  dot_S256x10_S10x64_S256x64_1_0_0_1_n_n_wf : DotDims.WF S256x10 S10x64 S256x64 [1] [0] [0] [1] [] []
  dot_S256x64_S64x32_S256x32_1_0_0_1_n_n_wf : DotDims.WF S256x64 S64x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x64.size a ≤ S10x64.size a
  hwx0_2 : ∀ i : grid0.Coords, EltTy.bits .f32 = 32 ∨ (Rect.block (s := S10x64) S10x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x32.size a ≤ S4096x32.size a
  hwx0_6 : ∀ i : grid0.Coords, EltTy.bits .f32 = 32 ∨ (Rect.block (s := S4096x32) S256x32.size (cc0_transform_6 i) (hinb0_6 i)).WholeWords (EltTy.packing .f32)

variable [Facts₀]

def dot_S256x10_S10x64_S256x64_1_0_0_1_n_n : DotDims S256x10 S10x64 S256x64 where
  lhsContracting := [1]
  rhsContracting := [0]
  lhsNonContracting := [0]
  rhsNonContracting := [1]
  lhsBatch := []
  rhsBatch := []
  wf := dot_S256x10_S10x64_S256x64_1_0_0_1_n_n_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf

abbrev win0_0 : Pipeline.Window sig grid0 :=
  Pipeline.Window.ofSpec (Memref.whole main_v2) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S10x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x4096x2 : Shape := ⟨3, ![4096, 4096, 2]⟩
abbrev S10x64 : Shape := ⟨2, ![10, 64]⟩
abbrev S64 : Shape := ⟨1, ![64]⟩
abbrev S64x32 : Shape := ⟨2, ![64, 32]⟩
abbrev S32 : Shape := ⟨1, ![32]⟩
abbrev S_ : Shape := ⟨0, ![]⟩
abbrev S4096x2 : Shape := ⟨2, ![4096, 2]⟩
abbrev S4096x1x2 : Shape := ⟨3, ![4096, 1, 2]⟩
abbrev S4096x4096 : Shape := ⟨2, ![4096, 4096]⟩
abbrev S4096 : Shape := ⟨1, ![4096]⟩
abbrev S4096x1 : Shape := ⟨2, ![4096, 1]⟩
abbrev S4096x10 : Shape := ⟨2, ![4096, 10]⟩
abbrev S4096x64 : Shape := ⟨2, ![4096, 64]⟩
abbrev S1x64 : Shape := ⟨2, ![1, 64]⟩
abbrev S4096x32 : Shape := ⟨2, ![4096, 32]⟩
abbrev S1x32 : Shape := ⟨2, ![1, 32]⟩

abbrev nBuf : Space → Nat
  | .hbm => 96
  | .vmem => 0
  | .smem => 0
  | _ => 0

abbrev bufTy : (tb : Table) → Fin (tcTables nBuf tb) → BufTy
  | .hbm, ⟨0, _⟩ => ⟨S4096x4096x2, .f32⟩
  | .hbm, ⟨1, _⟩ => ⟨S10x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S_, .f32⟩
  | .hbm, ⟨6, _⟩ => ⟨S4096x2, .f32⟩
  | .hbm, ⟨7, _⟩ => ⟨S_, .f32⟩
  | .hbm, ⟨8, _⟩ => ⟨S4096x2, .f32⟩
  | .hbm, ⟨9, _⟩ => ⟨S4096x2, .f32⟩
  | .hbm, ⟨10, _⟩ => ⟨S_, .f32⟩
  | .hbm, ⟨11, _⟩ => ⟨S4096x2, .f32⟩
  | .hbm, ⟨12, _⟩ => ⟨S4096x2, .f32⟩
  | .hbm, ⟨13, _⟩ => ⟨S4096x2, .f32⟩
  | .hbm, ⟨14, _⟩ => ⟨S_, .f32⟩
  | .hbm, ⟨15, _⟩ => ⟨S4096x2, .f32⟩
  | .hbm, ⟨16, _⟩ => ⟨S_, .f32⟩
  | .hbm, ⟨17, _⟩ => ⟨S4096x2, .f32⟩
  | .hbm, ⟨18, _⟩ => ⟨S4096x2, .f32⟩
  | .hbm, ⟨19, _⟩ => ⟨S_, .i32⟩
  | .hbm, ⟨20, _⟩ => ⟨S_, .f32⟩
  | .hbm, ⟨21, _⟩ => ⟨S4096x2, .f32⟩
  | .hbm, ⟨22, _⟩ => ⟨S4096x1x2, .f32⟩
  | .hbm, ⟨23, _⟩ => ⟨S_, .f32⟩
  | .hbm, ⟨24, _⟩ => ⟨S4096x1x2, .f32⟩
  | .hbm, ⟨25, _⟩ => ⟨S4096x1x2, .f32⟩
  | .hbm, ⟨26, _⟩ => ⟨S4096x4096x2, .f32⟩
  | .hbm, ⟨27, _⟩ => ⟨S4096x4096x2, .f32⟩
  | .hbm, ⟨28, _⟩ => ⟨S4096x4096x2, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4096x2, .f32⟩
  | .hbm, ⟨34, _⟩ => ⟨S4096x2, .f32⟩
  | .hbm, ⟨35, _⟩ => ⟨S4096x2, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S4096x2, .f32⟩
  | .hbm, ⟨41, _⟩ => ⟨S4096x2, .f32⟩
  | .hbm, ⟨42, _⟩ => ⟨S4096x2, .f32⟩
  | .hbm, ⟨43, _⟩ => ⟨S4096x1x2, .f32⟩
  | .hbm, ⟨44, _⟩ => ⟨S4096x4096x2, .f32⟩
  | .hbm, ⟨45, _⟩ => ⟨S4096x4096x2, .f32⟩
  | .hbm, ⟨46, _⟩ => ⟨S4096x4096x2, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S_, .i32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S4096, .f32⟩
  | .hbm, ⟨72, _⟩ => ⟨S_, .f32⟩
  | .hbm, ⟨73, _⟩ => ⟨S_, .i1⟩
  | .hbm, ⟨74, _⟩ => ⟨S_, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S4096, .f32⟩
  | .hbm, ⟨79, _⟩ => ⟨S4096x1, .f32⟩
  | .hbm, ⟨80, _⟩ => ⟨S4096x1, .f32⟩
  | .hbm, ⟨81, _⟩ => ⟨S4096x10, .f32⟩
  | .hbm, ⟨82, _⟩ => ⟨S4096x64, .f32⟩
  | .hbm, ⟨83, _⟩ => ⟨S1x64, .f32⟩
  | .hbm, ⟨84, _⟩ => ⟨S4096x64, .f32⟩
  | .hbm, ⟨85, _⟩ => ⟨S4096x64, .f32⟩
  | .hbm, ⟨86, _⟩ => ⟨S_, .f32⟩
  | .hbm, ⟨87, _⟩ => ⟨S4096x64, .f32⟩
  | .hbm, ⟨88, _⟩ => ⟨S4096x64, .f32⟩
  | .hbm, ⟨89, _⟩ => ⟨S4096x32, .f32⟩
  | .hbm, ⟨90, _⟩ => ⟨S1x32, .f32⟩
  | .hbm, ⟨91, _⟩ => ⟨S4096x32, .f32⟩
  | .hbm, ⟨92, _⟩ => ⟨S4096x32, .f32⟩
  | .hbm, ⟨93, _⟩ => ⟨S_, .f32⟩
  | .hbm, ⟨94, _⟩ => ⟨S4096x32, .f32⟩
  | .hbm, ⟨95, _⟩ => ⟨S4096x32, .f32⟩
  | _, _ => ⟨S4096x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_cst_0 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_cst_1 : Ref sig .tc := ⟨.hbm, 30, rfl⟩
abbrev main_call0_call0_v8 : Ref sig .tc := ⟨.hbm, 31, rfl⟩
abbrev main_call0_call0_cst_2 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_call0_cst_3 : Ref sig .tc := ⟨.hbm, 36, rfl⟩
abbrev main_call0_call0_v12 : Ref sig .tc := ⟨.hbm, 37, rfl⟩
abbrev main_call0_call0_cst_4 : Ref sig .tc := ⟨.hbm, 38, rfl⟩
abbrev main_call0_call0_call0_v0 : Ref sig .tc := ⟨.hbm, 39, rfl⟩
abbrev main_call0_call0_call0_v1 : Ref sig .tc := ⟨.hbm, 40, rfl⟩
abbrev main_call0_v0 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_call1_v0 : Ref sig .tc := ⟨.hbm, 46, rfl⟩
abbrev main_call1_cst : Ref sig .tc := ⟨.hbm, 47, rfl⟩
abbrev main_call1_v1 : Ref sig .tc := ⟨.hbm, 48, rfl⟩
abbrev main_v13 : Ref sig .tc := ⟨.hbm, 49, rfl⟩
abbrev main_cst_4 : Ref sig .tc := ⟨.hbm, 50, rfl⟩
abbrev main_v14 : Ref sig .tc := ⟨.hbm, 51, rfl⟩
abbrev main_cst_5 : Ref sig .tc := ⟨.hbm, 52, rfl⟩
abbrev main_v15 : Ref sig .tc := ⟨.hbm, 53, rfl⟩
abbrev main_v16 : Ref sig .tc := ⟨.hbm, 54, rfl⟩
abbrev main_c_6 : Ref sig .tc := ⟨.hbm, 55, rfl⟩
abbrev main_call2_call0_cst : Ref sig .tc := ⟨.hbm, 56, rfl⟩
abbrev main_call2_call0_v0 : Ref sig .tc := ⟨.hbm, 57, rfl⟩
abbrev main_call2_call0_v1 : Ref sig .tc := ⟨.hbm, 58, rfl⟩
abbrev main_call2_call0_cst_0 : Ref sig .tc := ⟨.hbm, 59, rfl⟩
abbrev main_call2_call0_v2 : Ref sig .tc := ⟨.hbm, 60, rfl⟩
abbrev main_call2_call0_v3 : Ref sig .tc := ⟨.hbm, 61, rfl⟩
abbrev main_call2_call0_v4 : Ref sig .tc := ⟨.hbm, 62, rfl⟩
abbrev main_call2_call0_v5 : Ref sig .tc := ⟨.hbm, 63, rfl⟩
abbrev main_call2_call0_v6 : Ref sig .tc := ⟨.hbm, 64, rfl⟩
abbrev main_call2_call0_v7 : Ref sig .tc := ⟨.hbm, 65, rfl⟩
abbrev main_call2_call0_cst_1 : Ref sig .tc := ⟨.hbm, 66, rfl⟩
abbrev main_call2_call0_v8 : Ref sig .tc := ⟨.hbm, 67, rfl⟩
abbrev main_call2_call0_cst_2 : Ref sig .tc := ⟨.hbm, 68, rfl⟩
abbrev main_call2_call0_v9 : Ref sig .tc := ⟨.hbm, 69, rfl⟩
abbrev main_call2_call0_v10 : Ref sig .tc := ⟨.hbm, 70, rfl⟩
abbrev main_call2_call0_v11 : Ref sig .tc := ⟨.hbm, 71, rfl⟩
abbrev main_call2_call0_cst_3 : Ref sig .tc := ⟨.hbm, 72, rfl⟩
abbrev main_call2_call0_v12 : Ref sig .tc := ⟨.hbm, 73, rfl⟩
abbrev main_call2_call0_cst_4 : Ref sig .tc := ⟨.hbm, 74, rfl⟩
abbrev main_call2_call0_call0_v0 : Ref sig .tc := ⟨.hbm, 75, rfl⟩
abbrev main_call2_call0_call0_v1 : Ref sig .tc := ⟨.hbm, 76, rfl⟩
abbrev main_call2_v0 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_call3_cst : Ref sig .tc := ⟨.hbm, 86, rfl⟩
abbrev main_call3_v0 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_call4_cst : Ref sig .tc := ⟨.hbm, 93, rfl⟩
abbrev main_call4_v0 : Ref sig .tc := ⟨.hbm, 94, rfl⟩
abbrev main_v30 : Ref sig .tc := ⟨.hbm, 95, rfl⟩

abbrev nD : Nat := 1
abbrev τ : Topo := Topo.v7x

variable {F : FTy → Type} [FloatOps F]

class Facts₀ : Prop where
  reducesTo_S4096x4096x2_S4096x2_d1 : S4096x4096x2.ReducesTo [1] S4096x2
  h_S_ : 0 < S_.numel
  bcast_S_S4096x2 : S_.BroadcastsInDim S4096x2 (![] : Fin 0 → Fin S4096x2.rank)
  bcast_S4096x2_S4096x1x2_0_2 : S4096x2.BroadcastsInDim S4096x1x2 (![0, 2] : Fin 2 → Fin S4096x1x2.rank)
  bcast_S_S4096x1x2 : S_.BroadcastsInDim S4096x1x2 (![] : Fin 0 → Fin S4096x1x2.rank)
  bcast_S4096x1x2_S4096x4096x2_0_1_2 : S4096x1x2.BroadcastsInDim S4096x4096x2 (![0, 1, 2] : Fin 3 → Fin S4096x4096x2.rank)
  reducesTo_S4096x4096x2_S4096x4096_d2 : S4096x4096x2.ReducesTo [2] S4096x4096
  reducesTo_S4096x4096_S4096_d1 : S4096x4096.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  concatenates_S4096x2_S4096x2_S4096x2_S4096x2_S4096x1_S4096x1_S4096x10_d1 : Shape.Concatenates [S4096x2, S4096x2, S4096x2, S4096x2, S4096x1, S4096x1] S4096x10 1
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  dot_S4096x10_S10x64_S4096x64_1_0_0_1_n_n_wf : DotDims.WF S4096x10 S10x64 S4096x64 [1] [0] [0] [1] [] []
  dot_S4096x64_S64x32_S4096x32_1_0_0_1_n_n_wf : DotDims.WF S4096x64 S64x32 S4096x32 [1] [0] [0] [1] [] []

variable [Facts₀]

def dot_S4096x10_S10x64_S4096x64_1_0_0_1_n_n : DotDims S4096x10 S10x64 S4096x64 where
  lhsContracting := [1]
  rhsContracting := [0]
  lhsNonContracting := [0]
  rhsNonContracting := [1]
  lhsBatch := []
  rhsBatch := []
  wf := dot_S4096x10_S10x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf

class Facts : Prop extends Facts₀ where

variable [Facts]
-- ==== Proof.Spec.lean ====
/-
  What the two programs compute, row by row.

  A row is 4096 points of the plane, given as its abscissas `x` and ordinates `y` (extended reals). Ten numbers
  are taken of it: the centre and the size of its bounding box on each axis (from the row's minimum and maximum),
  its centroid on each axis (the mean), the standard deviation on each axis, and the mean and the standard deviation
  of the points' distances to the centroid. The ten go through two dense layers, each followed by the maximum with 0.

  A standard deviation is the square root of a variance, and the variance has two spellings: the mean of the squares
  less the square of the mean, kept above 0 (`varOnePass`), and the mean of the squared deviations from the mean
  (`varTwoPass`). For real entries they are one number. Means are products with the real 1/4096 read as an extended
  real. Minima and maxima are folds from the words of plus and minus infinity, which are never evaluated.
-/
import Idealize.ShloMosaic.PureOps.Ideal
import Mathlib.Data.Finset.Fold

noncomputable section

namespace Cert.GeoSpec

open Idealize.ShloMosaic

/-- The reciprocal of the number of points of a row. -/
def scale : EReal := ((1 / 4096 : ℝ) : EReal)

/-- One half, as the word both programs spell. -/
def half : EReal := Ideal.ofBits .f32 0x3F000000#32

/-- The least entry of a row: the fold of `min` from the word of plus infinity. -/
def rowMin (x : Fin 4096 → EReal) : EReal :=
  (Finset.univ : Finset (Fin 4096)).fold min (Ideal.ofBits .f32 0x7F800000#32) x

/-- The greatest entry of a row: the fold of `max` from the word of minus infinity. -/
def rowMax (x : Fin 4096 → EReal) : EReal :=
  (Finset.univ : Finset (Fin 4096)).fold max (Ideal.ofBits .f32 0xFF800000#32) x

/-- The mean of a row. -/
def mean (x : Fin 4096 → EReal) : EReal := (∑ k, x k) * scale

/-- The squared distance of point `k` of the row to the row's centroid. -/
def dist2 (x y : Fin 4096 → EReal) (k : Fin 4096) : EReal :=
  (x k - mean x) * (x k - mean x) + (y k - mean y) * (y k - mean y)

/-- The distance of point `k` of the row to the row's centroid. -/
def dist (x y : Fin 4096 → EReal) (k : Fin 4096) : EReal := Ideal.sqrt (dist2 x y k)

/-- The variance in one pass: the mean of the squares less the square of the mean, kept above 0. -/
def varOnePass (x : Fin 4096 → EReal) : EReal := max ((∑ k, x k * x k) * scale - mean x * mean x) 0

/-- The variance in two passes: the mean of the squared deviations from the mean. -/
def varTwoPass (x : Fin 4096 → EReal) : EReal := (∑ k, (x k - mean x) * (x k - mean x)) * scale

/-- The ten numbers of a row, variances in one pass; the distances' variance from the squared distances' sum. -/
def featOnePass (x y : Fin 4096 → EReal) : Fin 10 → EReal :=
  ![(rowMin x + rowMax x) * half, (rowMin y + rowMax y) * half, rowMax x - rowMin x, rowMax y - rowMin y,
    mean x, mean y, Ideal.sqrt (varOnePass x), Ideal.sqrt (varOnePass y), mean (dist x y),
    Ideal.sqrt (max ((∑ k, dist2 x y k) * scale - mean (dist x y) * mean (dist x y)) 0)]

/-- The ten numbers of a row, variances in two passes. -/
def featTwoPass (x y : Fin 4096 → EReal) : Fin 10 → EReal :=
  ![(rowMin x + rowMax x) * half, (rowMin y + rowMax y) * half, rowMax x - rowMin x, rowMax y - rowMin y,
    mean x, mean y, Ideal.sqrt (varTwoPass x), Ideal.sqrt (varTwoPass y), mean (dist x y),
    Ideal.sqrt (varTwoPass (dist x y))]

/-- Zero, as the word both programs spell in their dense layers (never evaluated there). -/
def zeroW : EReal := Ideal.ofBits .f32 0x00000000#32

/-- The first dense layer at hidden unit `k`: the ten numbers against column `k` of the weights, plus the bias,
    kept above 0. -/
def hidden (g : Fin 10 → EReal) (w1 : Fin 10 → Fin 64 → EReal) (b1 : Fin 64 → EReal) (k : Fin 64) : EReal :=
  max ((∑ j : Fin 10, g j * w1 j k) + b1 k) zeroW

/-- The second dense layer at output unit `q`. -/
def head (g : Fin 10 → EReal) (w1 : Fin 10 → Fin 64 → EReal) (b1 : Fin 64 → EReal)
    (w2 : Fin 64 → Fin 32 → EReal) (b2 : Fin 32 → EReal) (q : Fin 32) : EReal :=
  max ((∑ k : Fin 64, hidden g w1 b1 k * w2 k q) + b2 q) zeroW

end Cert.GeoSpec

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.LibRowMin.lean ====
/-
  Row minima of a matrix, read at an index.

  A kernel's reduction of an `[m, n]` array over its second axis with the minimum leaves one value per row. Read at
  row `p`, the source indices that reduce to it are `(p, k)` for `k : Fin n`, so at the ideal values the row minimum is
  the fold of `min` from the accumulator's value over `k ↦ x (p, k)`: the companion, for the minimum, of the row
  maximum and the row sum in the file on row reductions, which this file imports for the index of a lifted row.
-/
import proofs.«118876_j5540507811898_2_alg».proof.Proof.LibRowReduce
import Idealize.ShloMosaic.PureOps.Reduce

noncomputable section

namespace Idealize.ShloMosaic.RowMin

open Idealize.ShloMosaic Idealize.ShloMosaic.ValueIdx

/-- A kernel's row minimum at row `p`: the fold of `min` from the accumulator's value over the row's entries. -/
theorem multiReduction_minimumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.minimumf.neutral φ hφ)
    (p : Fin m) :
    multiReduction .minimumf [1] ⟨1, ![m]⟩ x acc h hφ hacc (ix1 p)
      = (Finset.univ : Finset (Fin n)).fold min (Ideal.ofBits φ acc) (fun k => x (ix2 p k)) := by
  refine (multiReduction_minimumf_eq_fold x acc h hφ hacc (ix1 p)).trans ?_
  refine (h.fold_filter_drop_single _ _ x (ix1 p)).trans ?_
  exact congrArg (fun f => (Finset.univ : Finset (Fin n)).fold min (Ideal.ofBits φ acc) f)
    (funext fun k => congrArg x (RowReduce.lift_row h p k))

end Idealize.ShloMosaic.RowMin

end
-- ==== Proof.KerRows.lean ====
/-
  The kernel's per-row statistics at the ideal values.

  A block is 256 rows of 4096 abscissas and 256 rows of 4096 ordinates. Each statistic is taken along a row and kept
  as a column: the row's least and greatest entry (folds of min and max from the words of plus and minus infinity),
  the mean (the row sum times the word of 2⁻¹², which denotes the real 1/4096), the standard deviation from the
  one-pass variance, and the sum of the least and the greatest entry. Read at row `r`, each is the specification's
  number for the row `k ↦ v (r, k)`.
-/
import proofs.«118876_j5540507811898_2_alg».proof.Proof.Gen.KernelIdeal.Skeleton
import proofs.«118876_j5540507811898_2_alg».proof.Proof.Spec
import proofs.«118876_j5540507811898_2_alg».proof.Proof.LibRowReduce
import proofs.«118876_j5540507811898_2_alg».proof.Proof.LibRowMin
import Idealize.ShloMosaic.PureOps.Ideal.Laws
import Idealize.ShloMosaic.Lib.ValueIdx
import Idealize.ShloMosaic.Lib.Pipeline.Value

noncomputable section

namespace Cert.KernelIdeal.KerRows

open Cert.KernelIdeal Cert.KernelIdeal.Gen Idealize.ShloMosaic Idealize.ShloMosaic.ValueIdx Cert.GeoSpec

/-- The word 0x39800000 is 2⁻¹², the real 1/4096. -/
theorem scale_word : Ideal.ofBits .f32 0x39800000#32 = scale := by
  unfold scale
  simp [Ideal.ofBits, Ideal.ieee, -EReal.coe_mul]; norm_num

variable (v : Vec Ideal S256x4096 .f32) (r : Fin 256) (z : Fin 1)

/-- A cast of a block to its own shape is the block. -/
theorem pay2_eq : k0_pay2 v = v := shapeCast_self v _

theorem pay3_eq : k0_pay3 v = v := shapeCast_self v _

/-- The least entry of row `r`. -/
theorem pay4_apply : k0_pay4 v (ix2 r z) = rowMin (fun k => v (ix2 r k)) := by
  show shapeCast S256x1 (multiReduction .minimumf [1] S256 (k0_pay2 v) 0x7F800000#32 reduces_S256x4096_S256 (.inl rfl) rfl)
      shapeCasts_S256_S256x1 (ix2 r z) = _
  rw [pay2_eq]
  refine (RowReduce.shapeCast_a_a1_apply _ shapeCasts_S256_S256x1 r z).trans ?_
  exact RowMin.multiReduction_minimumf_row v _ reduces_S256x4096_S256 (.inl rfl) rfl r

/-- The greatest entry of row `r`. -/
theorem pay5_apply : k0_pay5 v (ix2 r z) = rowMax (fun k => v (ix2 r k)) := by
  show shapeCast S256x1 (multiReduction .maximumf [1] S256 (k0_pay2 v) 0xFF800000#32 reduces_S256x4096_S256 (.inl rfl) rfl)
      shapeCasts_S256_S256x1 (ix2 r z) = _
  rw [pay2_eq]
  refine (RowReduce.shapeCast_a_a1_apply _ shapeCasts_S256_S256x1 r z).trans ?_
  exact RowReduce.multiReduction_maximumf_row v _ reduces_S256x4096_S256 (.inl rfl) rfl r

theorem pay6_apply : k0_pay6 v (ix2 r z) = rowMin (fun k => v (ix2 r k)) := by
  show shapeCast S256x1 (multiReduction .minimumf [1] S256 (k0_pay3 v) 0x7F800000#32 reduces_S256x4096_S256 (.inl rfl) rfl)
      shapeCasts_S256_S256x1 (ix2 r z) = _
  rw [pay3_eq]
  refine (RowReduce.shapeCast_a_a1_apply _ shapeCasts_S256_S256x1 r z).trans ?_
  exact RowMin.multiReduction_minimumf_row v _ reduces_S256x4096_S256 (.inl rfl) rfl r

theorem pay7_apply : k0_pay7 v (ix2 r z) = rowMax (fun k => v (ix2 r k)) := by
  show shapeCast S256x1 (multiReduction .maximumf [1] S256 (k0_pay3 v) 0xFF800000#32 reduces_S256x4096_S256 (.inl rfl) rfl)
      shapeCasts_S256_S256x1 (ix2 r z) = _
  rw [pay3_eq]
  refine (RowReduce.shapeCast_a_a1_apply _ shapeCasts_S256_S256x1 r z).trans ?_
  exact RowReduce.multiReduction_maximumf_row v _ reduces_S256x4096_S256 (.inl rfl) rfl r

/-- The sum of a block's row, kept as a column. -/
theorem rowSum_apply (w : FVec Ideal S256x4096 .f32) :
    shapeCast S256x1 (multiReduction .add [1] S256 w 0x00000000#32 reduces_S256x4096_S256 (.inl rfl) rfl)
      shapeCasts_S256_S256x1 (ix2 r z) = ∑ k : Fin 4096, w (ix2 r k) := by
  refine (RowReduce.shapeCast_a_a1_apply _ shapeCasts_S256_S256x1 r z).trans ?_
  exact RowReduce.multiReduction_add_row w _ reduces_S256x4096_S256 (.inl rfl) rfl r

/-- The mean of row `r`. -/
theorem pay8_apply : k0_pay8 v (ix2 r z) = mean (fun k => v (ix2 r k)) := by
  show shapeCast S256x1 (multiReduction .add [1] S256 (k0_pay2 v) 0x00000000#32 reduces_S256x4096_S256 (.inl rfl) rfl)
      shapeCasts_S256_S256x1 (ix2 r z) * Ideal.ofBits .f32 0x39800000#32 = _
  rw [pay2_eq, rowSum_apply, scale_word]
  rfl

theorem pay9_apply : k0_pay9 v (ix2 r z) = mean (fun k => v (ix2 r k)) := by
  show shapeCast S256x1 (multiReduction .add [1] S256 (k0_pay3 v) 0x00000000#32 reduces_S256x4096_S256 (.inl rfl) rfl)
      shapeCasts_S256_S256x1 (ix2 r z) * Ideal.ofBits .f32 0x39800000#32 = _
  rw [pay3_eq, rowSum_apply, scale_word]
  rfl

/-- The standard deviation of row `r`, from the one-pass variance. -/
theorem pay10_apply : k0_pay10 v (ix2 r z) = Ideal.sqrt (varOnePass (fun k => v (ix2 r k))) := by
  show Ideal.sqrt (max (shapeCast S256x1 (multiReduction .add [1] S256 (mulf (k0_pay2 v) (k0_pay2 v)) 0x00000000#32
        reduces_S256x4096_S256 (.inl rfl) rfl) shapeCasts_S256_S256x1 (ix2 r z) * Ideal.ofBits .f32 0x39800000#32
      - k0_pay8 v (ix2 r z) * k0_pay8 v (ix2 r z)) (Ideal.ofBits .f32 0x00000000#32)) = _
  rw [pay2_eq, rowSum_apply, scale_word, pay8_apply, Ideal.ofBits_zero_f32]
  rfl

theorem pay11_apply : k0_pay11 v (ix2 r z) = Ideal.sqrt (varOnePass (fun k => v (ix2 r k))) := by
  show Ideal.sqrt (max (shapeCast S256x1 (multiReduction .add [1] S256 (mulf (k0_pay3 v) (k0_pay3 v)) 0x00000000#32
        reduces_S256x4096_S256 (.inl rfl) rfl) shapeCasts_S256_S256x1 (ix2 r z) * Ideal.ofBits .f32 0x39800000#32
      - k0_pay9 v (ix2 r z) * k0_pay9 v (ix2 r z)) (Ideal.ofBits .f32 0x00000000#32)) = _
  rw [pay3_eq, rowSum_apply, scale_word, pay9_apply, Ideal.ofBits_zero_f32]
  rfl

/-- The column of sums is the entrywise sum of the two columns. -/
theorem pay12_eq : k0_pay12 v = addf (k0_pay4 v) (k0_pay5 v) := rfl

/-- The least plus the greatest entry of row `r`. -/
theorem pay12_apply : k0_pay12 v (ix2 r z) = rowMin (fun k => v (ix2 r k)) + rowMax (fun k => v (ix2 r k)) := by
  rw [pay12_eq, addf_apply, pay4_apply, pay5_apply]

end Cert.KernelIdeal.KerRows

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.KerBlock.lean ====
/-
  One block of the kernel's result at the ideal values.

  The body's value splits in two. First the ten columns: the bounding box's centre and size on each axis, the two
  means, the two standard deviations, and the mean and standard deviation of the distances to the centroid, where the
  distance of point `k` is the square root of `(x k - mean x)² + (y k - mean y)²` and its variance is taken in one pass
  from the sum of the squared distances. Side by side they are the row's ten numbers. Then two dense layers: a product
  with the weights as a sum over the contracted axis, the bias added along the row, the maximum with the zero word.
-/
import proofs.«118876_j5540507811898_2_alg».proof.Proof.Gen.KernelIdeal.Frame
import proofs.«118876_j5540507811898_2_alg».proof.Proof.KerRows
import proofs.«118876_j5540507811898_2_alg».proof.Proof.LibColumns
import proofs.«118876_j5540507811898_2_alg».proof.Proof.LibPlainDot
import proofs.«118876_j5540507811898_2_alg».proof.Proof.LibDense

noncomputable section

namespace Cert.KernelIdeal.KerBlock

open Cert.KernelIdeal Cert.KernelIdeal.Gen Idealize.ShloMosaic Idealize.ShloMosaic.ValueIdx Cert.GeoSpec

/-! ## The ten columns -/

/-- The squared distances to the centroid, point by point. -/
def sqDist (v1 v3 : FVec Ideal S256x4096 .f32) (v23 v25 : FVec Ideal S256x1 .f32) : FVec Ideal S256x4096 .f32 :=
  addf (mulf (subf v1 (broadcastTo S256x4096 v23 broadcasts_S256x1_S256x4096)) (subf v1 (broadcastTo S256x4096 v23 broadcasts_S256x1_S256x4096)))
    (mulf (subf v3 (broadcastTo S256x4096 v25 broadcasts_S256x1_S256x4096)) (subf v3 (broadcastTo S256x4096 v25 broadcasts_S256x1_S256x4096)))

/-- The mean distance to the centroid, as a column. -/
def distMean (v1 v3 : FVec Ideal S256x4096 .f32) (v23 v25 : FVec Ideal S256x1 .f32) : FVec Ideal S256x1 .f32 :=
  mulf (shapeCast S256x1 (multiReduction .add [1] S256 (sqrt (sqDist v1 v3 v23 v25)) 0x00000000#32 reduces_S256x4096_S256 (.inl rfl) rfl) shapeCasts_S256_S256x1)
    (broadcast S256x1 (Scalar.ofBits .f32 0x39800000#32))

/-- The standard deviation of the distances, as a column. -/
def distStd (v1 v3 : FVec Ideal S256x4096 .f32) (v23 v25 : FVec Ideal S256x1 .f32) : FVec Ideal S256x1 .f32 :=
  sqrt (maximumf
    (subf (mulf (shapeCast S256x1 (multiReduction .add [1] S256 (sqDist v1 v3 v23 v25) 0x00000000#32 reduces_S256x4096_S256 (.inl rfl) rfl) shapeCasts_S256_S256x1)
        (broadcast S256x1 (Scalar.ofBits .f32 0x39800000#32)))
      (mulf (distMean v1 v3 v23 v25) (distMean v1 v3 v23 v25)))
    (broadcast S256x1 (Scalar.ofBits .f32 0x00000000#32)))

/-- The ten columns side by side. -/
def geoK (v1 v3 : FVec Ideal S256x4096 .f32) (v5 v7 v9 v11 v23 v25 v38 v39 v40 : FVec Ideal S256x1 .f32) : FVec Ideal S256x10 .f32 :=
  concatenate S256x10 1 [⟨S256x1, mulf v40 (broadcast S256x1 (Scalar.ofBits .f32 0x3F000000#32))⟩,
    ⟨S256x1, mulf (addf v9 v11) (broadcast S256x1 (Scalar.ofBits .f32 0x3F000000#32))⟩,
    ⟨S256x1, subf v7 v5⟩, ⟨S256x1, subf v11 v9⟩, ⟨S256x1, v23⟩, ⟨S256x1, v25⟩, ⟨S256x1, v38⟩, ⟨S256x1, v39⟩,
    ⟨S256x1, distMean v1 v3 v23 v25⟩, ⟨S256x1, distStd v1 v3 v23 v25⟩]
    concatenates_S256x1_S256x1_S256x1_S256x1_S256x1_S256x1_S256x1_S256x1_S256x1_S256x1_S256x10_d1

/-- The two dense layers, before the last maximum. -/
def denseK (g : FVec Ideal S256x10 .f32) (v70 : FVec Ideal S10x64 .f32) (v72 : FVec Ideal S64 .f32) (v78 : FVec Ideal S64x32 .f32)
    (v80 : FVec Ideal S32 .f32) : FVec Ideal S256x32 .f32 :=
  addf (matmul dot_S256x64_S64x32_S256x32_1_0_0_1_n_n none
      (maximumf (addf (matmul dot_S256x10_S10x64_S256x64_1_0_0_1_n_n none g v70 (constant S256x64 .f32 0x00000000#32))
          (broadcastTo S256x64 (shapeCast S1x64 v72 shapeCasts_S64_S1x64) broadcasts_S1x64_S256x64))
        (broadcast S256x64 (Scalar.ofBits .f32 0x00000000#32)))
      v78 (constant S256x32 .f32 0x00000000#32))
    (broadcastTo S256x32 (shapeCast S1x32 v80 shapeCasts_S32_S1x32) broadcasts_S1x32_S256x32)

/-- The body's value before the last maximum is the dense layers of the ten columns. -/
theorem pay13_split (v1 v3 : FVec Ideal S256x4096 .f32) (v5 v7 v9 v11 v23 v25 v38 v39 v40 : FVec Ideal S256x1 .f32)
    (v70 : FVec Ideal S10x64 .f32) (v72 : FVec Ideal S64 .f32) (v78 : FVec Ideal S64x32 .f32) (v80 : FVec Ideal S32 .f32) :
    k0_pay13 v1 v3 v5 v7 v9 v11 v23 v25 v38 v39 v40 v70 v72 v78 v80
      = denseK (geoK v1 v3 v5 v7 v9 v11 v23 v25 v38 v39 v40) v70 v72 v78 v80 := rfl

/-- Ten unit columns side by side, read at (r, j): column `j` at row `r`. -/
theorem columns_apply (c0 c1 c2 c3 c4 c5 c6 c7 c8 c9 : FVec Ideal S256x1 .f32) (r : Fin 256) (j : Fin 10) :
    concatenate S256x10 1 [⟨S256x1, c0⟩, ⟨S256x1, c1⟩, ⟨S256x1, c2⟩, ⟨S256x1, c3⟩, ⟨S256x1, c4⟩, ⟨S256x1, c5⟩, ⟨S256x1, c6⟩, ⟨S256x1, c7⟩, ⟨S256x1, c8⟩, ⟨S256x1, c9⟩]
        concatenates_S256x1_S256x1_S256x1_S256x1_S256x1_S256x1_S256x1_S256x1_S256x1_S256x1_S256x10_d1 (ix2 r j)
      = (![c0, c1, c2, c3, c4, c5, c6, c7, c8, c9] j) (ix2 r (0 : Fin 1)) := by
  have off : ∀ (i : Fin 10) (b : Fin S256x1.rank), b.cast (rfl : S256x1.rank = S256x10.rank) ≠ (1 : Fin 2) →
      ((ix2 r (0 : Fin 1) : S256x1.Idx) b).val = ((ix2 r i : S256x10.Idx) (b.cast rfl)).val := fun i b hb => by
    match b with
    | ⟨0, _⟩ => rfl
    | ⟨1, _⟩ => exact absurd rfl hb
  match j with
  | ⟨0, _⟩ => exact concatenate_apply_piece (α := EReal) (t := S256x10) (1 : Fin 2) [⟨S256x1, c0⟩, ⟨S256x1, c1⟩, ⟨S256x1, c2⟩, ⟨S256x1, c3⟩, ⟨S256x1, c4⟩, ⟨S256x1, c5⟩, ⟨S256x1, c6⟩, ⟨S256x1, c7⟩, ⟨S256x1, c8⟩, ⟨S256x1, c9⟩] concatenates_S256x1_S256x1_S256x1_S256x1_S256x1_S256x1_S256x1_S256x1_S256x1_S256x1_S256x10_d1 _ 0 (by show 0 < 10; omega) S256x1 c0 rfl rfl 0 (rfl) (ix2 r (0 : Fin 1)) (off _) rfl
  | ⟨1, _⟩ => exact concatenate_apply_piece (α := EReal) (t := S256x10) (1 : Fin 2) [⟨S256x1, c0⟩, ⟨S256x1, c1⟩, ⟨S256x1, c2⟩, ⟨S256x1, c3⟩, ⟨S256x1, c4⟩, ⟨S256x1, c5⟩, ⟨S256x1, c6⟩, ⟨S256x1, c7⟩, ⟨S256x1, c8⟩, ⟨S256x1, c9⟩] concatenates_S256x1_S256x1_S256x1_S256x1_S256x1_S256x1_S256x1_S256x1_S256x1_S256x1_S256x10_d1 _ 1 (by show 1 < 10; omega) S256x1 c1 rfl rfl 1 (rfl) (ix2 r (0 : Fin 1)) (off _) rfl
  | ⟨2, _⟩ => exact concatenate_apply_piece (α := EReal) (t := S256x10) (1 : Fin 2) [⟨S256x1, c0⟩, ⟨S256x1, c1⟩, ⟨S256x1, c2⟩, ⟨S256x1, c3⟩, ⟨S256x1, c4⟩, ⟨S256x1, c5⟩, ⟨S256x1, c6⟩, ⟨S256x1, c7⟩, ⟨S256x1, c8⟩, ⟨S256x1, c9⟩] concatenates_S256x1_S256x1_S256x1_S256x1_S256x1_S256x1_S256x1_S256x1_S256x1_S256x1_S256x10_d1 _ 2 (by show 2 < 10; omega) S256x1 c2 rfl rfl 2 (rfl) (ix2 r (0 : Fin 1)) (off _) rfl
  | ⟨3, _⟩ => exact concatenate_apply_piece (α := EReal) (t := S256x10) (1 : Fin 2) [⟨S256x1, c0⟩, ⟨S256x1, c1⟩, ⟨S256x1, c2⟩, ⟨S256x1, c3⟩, ⟨S256x1, c4⟩, ⟨S256x1, c5⟩, ⟨S256x1, c6⟩, ⟨S256x1, c7⟩, ⟨S256x1, c8⟩, ⟨S256x1, c9⟩] concatenates_S256x1_S256x1_S256x1_S256x1_S256x1_S256x1_S256x1_S256x1_S256x1_S256x1_S256x10_d1 _ 3 (by show 3 < 10; omega) S256x1 c3 rfl rfl 3 (rfl) (ix2 r (0 : Fin 1)) (off _) rfl
  | ⟨4, _⟩ => exact concatenate_apply_piece (α := EReal) (t := S256x10) (1 : Fin 2) [⟨S256x1, c0⟩, ⟨S256x1, c1⟩, ⟨S256x1, c2⟩, ⟨S256x1, c3⟩, ⟨S256x1, c4⟩, ⟨S256x1, c5⟩, ⟨S256x1, c6⟩, ⟨S256x1, c7⟩, ⟨S256x1, c8⟩, ⟨S256x1, c9⟩] concatenates_S256x1_S256x1_S256x1_S256x1_S256x1_S256x1_S256x1_S256x1_S256x1_S256x1_S256x10_d1 _ 4 (by show 4 < 10; omega) S256x1 c4 rfl rfl 4 (rfl) (ix2 r (0 : Fin 1)) (off _) rfl
  | ⟨5, _⟩ => exact concatenate_apply_piece (α := EReal) (t := S256x10) (1 : Fin 2) [⟨S256x1, c0⟩, ⟨S256x1, c1⟩, ⟨S256x1, c2⟩, ⟨S256x1, c3⟩, ⟨S256x1, c4⟩, ⟨S256x1, c5⟩, ⟨S256x1, c6⟩, ⟨S256x1, c7⟩, ⟨S256x1, c8⟩, ⟨S256x1, c9⟩] concatenates_S256x1_S256x1_S256x1_S256x1_S256x1_S256x1_S256x1_S256x1_S256x1_S256x1_S256x10_d1 _ 5 (by show 5 < 10; omega) S256x1 c5 rfl rfl 5 (rfl) (ix2 r (0 : Fin 1)) (off _) rfl
  | ⟨6, _⟩ => exact concatenate_apply_piece (α := EReal) (t := S256x10) (1 : Fin 2) [⟨S256x1, c0⟩, ⟨S256x1, c1⟩, ⟨S256x1, c2⟩, ⟨S256x1, c3⟩, ⟨S256x1, c4⟩, ⟨S256x1, c5⟩, ⟨S256x1, c6⟩, ⟨S256x1, c7⟩, ⟨S256x1, c8⟩, ⟨S256x1, c9⟩] concatenates_S256x1_S256x1_S256x1_S256x1_S256x1_S256x1_S256x1_S256x1_S256x1_S256x1_S256x10_d1 _ 6 (by show 6 < 10; omega) S256x1 c6 rfl rfl 6 (rfl) (ix2 r (0 : Fin 1)) (off _) rfl
  | ⟨7, _⟩ => exact concatenate_apply_piece (α := EReal) (t := S256x10) (1 : Fin 2) [⟨S256x1, c0⟩, ⟨S256x1, c1⟩, ⟨S256x1, c2⟩, ⟨S256x1, c3⟩, ⟨S256x1, c4⟩, ⟨S256x1, c5⟩, ⟨S256x1, c6⟩, ⟨S256x1, c7⟩, ⟨S256x1, c8⟩, ⟨S256x1, c9⟩] concatenates_S256x1_S256x1_S256x1_S256x1_S256x1_S256x1_S256x1_S256x1_S256x1_S256x1_S256x10_d1 _ 7 (by show 7 < 10; omega) S256x1 c7 rfl rfl 7 (rfl) (ix2 r (0 : Fin 1)) (off _) rfl
  | ⟨8, _⟩ => exact concatenate_apply_piece (α := EReal) (t := S256x10) (1 : Fin 2) [⟨S256x1, c0⟩, ⟨S256x1, c1⟩, ⟨S256x1, c2⟩, ⟨S256x1, c3⟩, ⟨S256x1, c4⟩, ⟨S256x1, c5⟩, ⟨S256x1, c6⟩, ⟨S256x1, c7⟩, ⟨S256x1, c8⟩, ⟨S256x1, c9⟩] concatenates_S256x1_S256x1_S256x1_S256x1_S256x1_S256x1_S256x1_S256x1_S256x1_S256x1_S256x10_d1 _ 8 (by show 8 < 10; omega) S256x1 c8 rfl rfl 8 (rfl) (ix2 r (0 : Fin 1)) (off _) rfl
  | ⟨9, _⟩ => exact concatenate_apply_piece (α := EReal) (t := S256x10) (1 : Fin 2) [⟨S256x1, c0⟩, ⟨S256x1, c1⟩, ⟨S256x1, c2⟩, ⟨S256x1, c3⟩, ⟨S256x1, c4⟩, ⟨S256x1, c5⟩, ⟨S256x1, c6⟩, ⟨S256x1, c7⟩, ⟨S256x1, c8⟩, ⟨S256x1, c9⟩] concatenates_S256x1_S256x1_S256x1_S256x1_S256x1_S256x1_S256x1_S256x1_S256x1_S256x1_S256x10_d1 _ 9 (by show 9 < 10; omega) S256x1 c9 rfl rfl 9 (rfl) (ix2 r (0 : Fin 1)) (off _) rfl

section Columns

variable (v1 v3 : FVec Ideal S256x4096 .f32) (v23 v25 : FVec Ideal S256x1 .f32) (r : Fin 256)
  (x y : Fin 4096 → EReal) (hx : ∀ k, v1 (ix2 r k) = x k) (hy : ∀ k, v3 (ix2 r k) = y k)
  (h23 : v23 (ix2 r (0 : Fin 1)) = mean x) (h25 : v25 (ix2 r (0 : Fin 1)) = mean y)

include hx hy h23 h25 in
/-- The squared distance of point `k` of row `r`. -/
theorem sqDist_apply (k : Fin 4096) : sqDist v1 v3 v23 v25 (ix2 r k) = dist2 x y k := by
  show (v1 (ix2 r k) - broadcastTo S256x4096 v23 broadcasts_S256x1_S256x4096 (ix2 r k))
        * (v1 (ix2 r k) - broadcastTo S256x4096 v23 broadcasts_S256x1_S256x4096 (ix2 r k))
      + (v3 (ix2 r k) - broadcastTo S256x4096 v25 broadcasts_S256x1_S256x4096 (ix2 r k))
        * (v3 (ix2 r k) - broadcastTo S256x4096 v25 broadcasts_S256x1_S256x4096 (ix2 r k)) = _
  rw [ValueIdx.broadcastTo_a1_ab_apply, ValueIdx.broadcastTo_a1_ab_apply, hx, hy, h23, h25]
  rfl

include hx hy h23 h25 in
/-- The mean distance of row `r`. -/
theorem distMean_apply : distMean v1 v3 v23 v25 (ix2 r (0 : Fin 1)) = mean (dist x y) := by
  show shapeCast S256x1 (multiReduction .add [1] S256 (sqrt (sqDist v1 v3 v23 v25)) 0x00000000#32 reduces_S256x4096_S256 (.inl rfl) rfl)
      shapeCasts_S256_S256x1 (ix2 r (0 : Fin 1)) * Ideal.ofBits .f32 0x39800000#32 = _
  rw [KerRows.rowSum_apply, KerRows.scale_word]
  refine congrArg (· * scale) (Finset.sum_congr rfl fun k _ => ?_)
  show Ideal.sqrt (sqDist v1 v3 v23 v25 (ix2 r k)) = _
  rw [sqDist_apply v1 v3 v23 v25 r x y hx hy h23 h25 k]
  rfl

include hx hy h23 h25 in
/-- The standard deviation of the distances of row `r`, in one pass. -/
theorem distStd_apply : distStd v1 v3 v23 v25 (ix2 r (0 : Fin 1))
    = Ideal.sqrt (max ((∑ k, dist2 x y k) * scale - mean (dist x y) * mean (dist x y)) 0) := by
  show Ideal.sqrt (max (shapeCast S256x1 (multiReduction .add [1] S256 (sqDist v1 v3 v23 v25) 0x00000000#32 reduces_S256x4096_S256 (.inl rfl) rfl)
        shapeCasts_S256_S256x1 (ix2 r (0 : Fin 1)) * Ideal.ofBits .f32 0x39800000#32
      - distMean v1 v3 v23 v25 (ix2 r (0 : Fin 1)) * distMean v1 v3 v23 v25 (ix2 r (0 : Fin 1)))
      (Ideal.ofBits .f32 0x00000000#32)) = _
  rw [KerRows.rowSum_apply, KerRows.scale_word, distMean_apply v1 v3 v23 v25 r x y hx hy h23 h25, Ideal.ofBits_zero_f32,
    Finset.sum_congr rfl fun k _ => sqDist_apply v1 v3 v23 v25 r x y hx hy h23 h25 k]

end Columns

/-- The ten columns at row `r` are the row's ten numbers. -/
theorem geoK_apply (v1 v3 : FVec Ideal S256x4096 .f32) (v5 v7 v9 v11 v23 v25 v38 v39 v40 : FVec Ideal S256x1 .f32) (r : Fin 256)
    (x y : Fin 4096 → EReal) (hx : ∀ k, v1 (ix2 r k) = x k) (hy : ∀ k, v3 (ix2 r k) = y k)
    (h5 : v5 (ix2 r (0 : Fin 1)) = rowMin x) (h7 : v7 (ix2 r (0 : Fin 1)) = rowMax x)
    (h9 : v9 (ix2 r (0 : Fin 1)) = rowMin y) (h11 : v11 (ix2 r (0 : Fin 1)) = rowMax y)
    (h23 : v23 (ix2 r (0 : Fin 1)) = mean x) (h25 : v25 (ix2 r (0 : Fin 1)) = mean y)
    (h38 : v38 (ix2 r (0 : Fin 1)) = Ideal.sqrt (varOnePass x)) (h39 : v39 (ix2 r (0 : Fin 1)) = Ideal.sqrt (varOnePass y))
    (h40 : v40 (ix2 r (0 : Fin 1)) = rowMin x + rowMax x) (j : Fin 10) :
    geoK v1 v3 v5 v7 v9 v11 v23 v25 v38 v39 v40 (ix2 r j) = featOnePass x y j := by
  unfold geoK
  rw [columns_apply]
  have e8 := distMean_apply v1 v3 v23 v25 r x y hx hy h23 h25
  have e9 := distStd_apply v1 v3 v23 v25 r x y hx hy h23 h25
  match j with
  | ⟨0, _⟩ => show v40 (ix2 r (0 : Fin 1)) * Ideal.ofBits .f32 0x3F000000#32 = (rowMin x + rowMax x) * half; rw [h40]; rfl
  | ⟨1, _⟩ => show (v9 (ix2 r (0 : Fin 1)) + v11 (ix2 r (0 : Fin 1))) * Ideal.ofBits .f32 0x3F000000#32 = (rowMin y + rowMax y) * half; rw [h9, h11]; rfl
  | ⟨2, _⟩ => show v7 (ix2 r (0 : Fin 1)) - v5 (ix2 r (0 : Fin 1)) = rowMax x - rowMin x; rw [h7, h5]
  | ⟨3, _⟩ => show v11 (ix2 r (0 : Fin 1)) - v9 (ix2 r (0 : Fin 1)) = rowMax y - rowMin y; rw [h11, h9]
  | ⟨4, _⟩ => exact h23
  | ⟨5, _⟩ => exact h25
  | ⟨6, _⟩ => exact h38
  | ⟨7, _⟩ => exact h39
  | ⟨8, _⟩ => exact e8
  | ⟨9, _⟩ => exact e9

/-! ## The dense layers -/

/-- The two dense layers at (r, q), before the last maximum. -/
theorem denseK_apply (g : FVec Ideal S256x10 .f32) (v70 : FVec Ideal S10x64 .f32) (v72 : FVec Ideal S64 .f32)
    (v78 : FVec Ideal S64x32 .f32) (v80 : FVec Ideal S32 .f32) (r : Fin 256) (q : Fin 32) :
    denseK g v70 v72 v78 v80 (ix2 r q)
      = (∑ k : Fin 64, hidden (fun j => g (ix2 r j)) (fun j k => v70 (ix2 j k)) (fun k => v72 (ix1 k)) k * v78 (ix2 k q))
        + v80 (ix1 q) := by
  show matmul dot_S256x64_S64x32_S256x32_1_0_0_1_n_n none
        (maximumf (addf (matmul dot_S256x10_S10x64_S256x64_1_0_0_1_n_n none g v70 (constant S256x64 .f32 0x00000000#32))
            (broadcastTo S256x64 (shapeCast S1x64 v72 shapeCasts_S64_S1x64) broadcasts_S1x64_S256x64))
          (broadcast S256x64 (Scalar.ofBits .f32 0x00000000#32)))
        v78 (constant S256x32 .f32 0x00000000#32) (ix2 r q)
      + broadcastTo S256x32 (shapeCast S1x32 v80 shapeCasts_S32_S1x32) broadcasts_S1x32_S256x32 (ix2 r q) = _
  rw [DenseLayer.castRow_apply]
  refine congrArg (· + v80 (ix1 q)) ?_
  refine (PlainDot.matmul_zero_apply dot_S256x64_S64x32_S256x32_1_0_0_1_n_n rfl none _ v78 r q).trans ?_
  refine Finset.sum_congr rfl fun k _ => congrArg (· * v78 (ix2 k q)) ?_
  show max (matmul dot_S256x10_S10x64_S256x64_1_0_0_1_n_n none g v70 (constant S256x64 .f32 0x00000000#32) (ix2 r k)
      + broadcastTo S256x64 (shapeCast S1x64 v72 shapeCasts_S64_S1x64) broadcasts_S1x64_S256x64 (ix2 r k))
      (Ideal.ofBits .f32 0x00000000#32) = _
  rw [DenseLayer.castRow_apply]
  exact congrArg (fun s => max (s + v72 (ix1 k)) (Ideal.ofBits .f32 0x00000000#32))
    (PlainDot.matmul_zero_apply dot_S256x10_S10x64_S256x64_1_0_0_1_n_n rfl none g v70 r k)

/-! ## One block of the result -/

theorem zero_offsets2 : (![0, 0] : Fin 2 → Nat) = fun _ => 0 := funext fun a => by fin_cases a <;> rfl

theorem zero_offsets1 : (![0] : Fin 1 → Nat) = fun _ => 0 := funext fun a => by fin_cases a; rfl

/-- The last step of the body is the maximum with the splat of a scalar. -/
theorem pay1_eq (w : FVec Ideal S256x32 .f32) (s : Ideal .f32) : k0_pay1 w s = maximumf w (broadcast S256x32 s) := rfl

/-- What the body leaves in the output block, read at (r, q): the two dense layers of row `r`'s ten numbers, the
    variances in one pass. -/
theorem out_apply (x0 x1 : Vec Ideal S256x4096 .f32) (x2 : Vec Ideal S10x64 .f32) (x3 : Vec Ideal S64 .f32)
    (x4 : Vec Ideal S64x32 .f32) (x5 : Vec Ideal S32 .f32) (r : Fin 256) (q : Fin 32) :
    out0_6 x0 x1 x2 x3 x4 x5 (ix2 r q)
      = head (featOnePass (fun k => x0 (ix2 r k)) (fun k => x1 (ix2 r k))) (fun j k => x2 (ix2 j k)) (fun k => x3 (ix1 k))
          (fun k u => x4 (ix2 k u)) (fun u => x5 (ix1 u)) q := by
  unfold out0_6
  rw [View.canon_unit_zero zero_offsets2]
  simp only [View.ld_unit_zero (S := S256x4096) zero_offsets2, View.ld_unit_zero (S := S10x64) zero_offsets2,
    View.ld_unit_zero (S := S64) zero_offsets1, View.ld_unit_zero (S := S64x32) zero_offsets2,
    View.ld_unit_zero (S := S32) zero_offsets1]
  rw [pay1_eq, maximumf_apply, pay13_split, denseK_apply]
  have hg : (fun j => geoK (k0_pay2 x0) (k0_pay3 x1) (k0_pay4 x0) (k0_pay5 x0) (k0_pay6 x1) (k0_pay7 x1) (k0_pay8 x0)
        (k0_pay9 x1) (k0_pay10 x0) (k0_pay11 x1) (k0_pay12 x0) (ix2 r j))
      = featOnePass (fun k => x0 (ix2 r k)) (fun k => x1 (ix2 r k)) :=
    funext fun j => geoK_apply _ _ _ _ _ _ _ _ _ _ _ r _ _
      (fun k => by rw [KerRows.pay2_eq]) (fun k => by rw [KerRows.pay3_eq])
      (KerRows.pay4_apply x0 r 0) (KerRows.pay5_apply x0 r 0) (KerRows.pay6_apply x1 r 0) (KerRows.pay7_apply x1 r 0)
      (KerRows.pay8_apply x0 r 0) (KerRows.pay9_apply x1 r 0) (KerRows.pay10_apply x0 r 0) (KerRows.pay11_apply x1 r 0)
      (KerRows.pay12_apply x0 r 0) j
  rw [hg]
  rfl

/-- The same at any index of the block. -/
theorem out_apply' (x0 x1 : Vec Ideal S256x4096 .f32) (x2 : Vec Ideal S10x64 .f32) (x3 : Vec Ideal S64 .f32)
    (x4 : Vec Ideal S64x32 .f32) (x5 : Vec Ideal S32 .f32) (j : S256x32.Idx) :
    out0_6 x0 x1 x2 x3 x4 x5 j
      = head (featOnePass (fun k => x0 (ix2 (j 0) k)) (fun k => x1 (ix2 (j 0) k))) (fun a b => x2 (ix2 a b)) (fun k => x3 (ix1 k))
          (fun k u => x4 (ix2 k u)) (fun u => x5 (ix1 u)) (j 1) := by
  obtain ⟨r, q, rfl⟩ : ∃ (r : Fin 256) (q : Fin 32), j = ix2 r q := ⟨j 0, j 1, eq_ix2 j⟩
  exact out_apply x0 x1 x2 x3 x4 x5 r q

end Cert.KernelIdeal.KerBlock

end
-- ==== Proof.KerHost.lean ====
/-
  The two coordinate planes the kernel's region is handed.

  Before the region the program re-lays the points `[sample, point, coordinate]` as `[coordinate, sample, point]`,
  takes the slab of coordinate 0 and the slab of coordinate 1, and drops the slab's unit axis. So the abscissa plane
  at (sample p, point k) is the points array at (p, k, 0), and the ordinate plane there is the points array at (p, k, 1).
-/
import proofs.«118876_j5540507811898_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.KerHost

open Cert.KernelIdeal Cert.KernelIdeal.Gen Idealize.ShloMosaic Idealize.ShloMosaic.ValueIdx Idealize.ShloMosaic.TcCoe
  Idealize.SL.Sem

variable {α : Type}

/-- The slab of coordinate `e` of the re-laid points, without its unit axis, read at (p, k): the points at (p, k, e). -/
theorem plane_apply (P : S4096x4096x2.Idx → α) (e : Fin 2) (off : Fin 3 → ℕ) (h0 : off 0 = e.val) (h1 : off 1 = 0)
    (h2 : off 2 = 0) (hs : S2x4096x4096.Slices off S1x4096x4096) (p k : Fin 4096) :
    shapeCast S4096x4096
        (extractStridedSlice S1x4096x4096 off
          (transpose S2x4096x4096 [2, 0, 1] P transposes_S4096x4096x2_S2x4096x4096_2_0_1) hs)
        shapeCasts_S1x4096x4096_S4096x4096 (ix2 p k)
      = P (ix3 p k e) := by
  refine (shapeCast_apply _ shapeCasts_S1x4096x4096_S4096x4096 (ix2 p k) (ix3 (0 : Fin 1) p k) ?_).trans ?_
  · rw [Shape.rowMajor_val_three, Shape.rowMajor_val_two]
    show ((0 : ℕ) * 4096 + p.val) * 4096 + k.val = p.val * 4096 + k.val
    omega
  refine (extractStridedSlice_apply off _ hs (ix3 (0 : Fin 1) p k) (ix3 e p k) ?_).trans ?_
  · intro a
    match a with
    | ⟨0, _⟩ => show e.val = off 0 + 0; omega
    | ⟨1, _⟩ => show p.val = off 1 + p.val; omega
    | ⟨2, _⟩ => show k.val = off 2 + k.val; omega
  refine transpose_apply [2, 0, 1] P transposes_S4096x4096x2_S2x4096x4096_2_0_1 (ix3 e p k) (ix3 p k e) ?_
  intro b
  match b with
  | ⟨0, _⟩ => rfl
  | ⟨1, _⟩ => rfl
  | ⟨2, _⟩ => rfl

variable (m : (ℓ : Loc nD τ sig) → Buf (Elt Ideal) ℓ)

/-- The abscissa plane as the region finds it. -/
theorem V_x (c : Dev nD) (p k : Fin 4096) :
    (V m c main_v2 : S4096x4096.Idx → EReal) (ix2 p k) = (m ((c : Thread nD τ).loc main_arg0) : S4096x4096x2.Idx → EReal) (ix3 p k 0) := by
  have e : (V m c main_v2 : S4096x4096.Idx → EReal)
      = shapeCast S4096x4096
        (extractStridedSlice S1x4096x4096 ![0, 0, 0]
          (transpose S2x4096x4096 [2, 0, 1] (m ((c : Thread nD τ).loc main_arg0)) transposes_S4096x4096x2_S2x4096x4096_2_0_1)
          slices_S2x4096x4096_S1x4096x4096_0_0_0)
        shapeCasts_S1x4096x4096_S4096x4096 := by
    dsimp only [Gen.V, Gen.hostOps0]; after_results; rfl
  rw [e]
  exact plane_apply _ 0 _ rfl rfl rfl _ p k

/-- The ordinate plane as the region finds it. -/
theorem V_y (c : Dev nD) (p k : Fin 4096) :
    (V m c main_v4 : S4096x4096.Idx → EReal) (ix2 p k) = (m ((c : Thread nD τ).loc main_arg0) : S4096x4096x2.Idx → EReal) (ix3 p k 1) := by
  have e : (V m c main_v4 : S4096x4096.Idx → EReal)
      = shapeCast S4096x4096
        (extractStridedSlice S1x4096x4096 ![1, 0, 0]
          (transpose S2x4096x4096 [2, 0, 1] (m ((c : Thread nD τ).loc main_arg0)) transposes_S4096x4096x2_S2x4096x4096_2_0_1)
          slices_S2x4096x4096_S1x4096x4096_1_0_0)
        shapeCasts_S1x4096x4096_S4096x4096 := by
    dsimp only [Gen.V, Gen.hostOps0]; after_results; rfl
  rw [e]
  exact plane_apply _ 1 _ rfl rfl rfl _ p k

end Cert.KernelIdeal.KerHost

end
-- ==== Proof.KerFinal.lean ====
/-
  From blocks to the whole result array.

  The grid has 16 points; point `t` handles rows `256 t … 256 t + 255`: it is handed those rows of the two coordinate
  planes and the whole weight and bias arrays, and writes those rows of the result. What it writes at row `r` of its
  block depends on row `256 t + r` of the planes only, so every block is the restriction of ONE function of the
  arrays, and the blocks tile the result: the result array after the run is that function. Read through the planes'
  definition it is a function of the points array.
-/
import proofs.«118876_j5540507811898_2_alg».proof.Proof.Gen.KernelIdeal.Value
import proofs.«118876_j5540507811898_2_alg».proof.Proof.KerBlock
import proofs.«118876_j5540507811898_2_alg».proof.Proof.KerHost

noncomputable section

namespace Cert.KernelIdeal.KerFinal

open Cert.KernelIdeal Cert.KernelIdeal.Gen Idealize.ShloMosaic Idealize.ShloMosaic.ValueIdx Idealize.ShloMosaic.TcCoe
  Idealize.SL.Sem Cert.GeoSpec
open Idealize.ShloMosaic.Pipeline (Dat)

/-- The result at (sample p, unit q) from the two coordinate planes and the weights. -/
def rowsOut (X Y : S4096x4096.Idx → EReal) (W1 : S10x64.Idx → EReal) (B1 : S64.Idx → EReal) (W2 : S64x32.Idx → EReal)
    (B2 : S32.Idx → EReal) (p : Fin 4096) (q : Fin 32) : EReal :=
  head (featOnePass (fun k => X (ix2 p k)) (fun k => Y (ix2 p k))) (fun j k => W1 (ix2 j k)) (fun k => B1 (ix1 k))
    (fun k u => W2 (ix2 k u)) (fun u => B2 (ix1 u)) q

/-- The same as a whole array. -/
def planesOut (X Y : S4096x4096.Idx → EReal) (W1 : S10x64.Idx → EReal) (B1 : S64.Idx → EReal) (W2 : S64x32.Idx → EReal)
    (B2 : S32.Idx → EReal) : S4096x32.Idx → EReal := fun i => rowsOut X Y W1 B1 W2 B2 (i 0) (i 1)

/-- The result as a whole array from the points array and the weights. -/
def kerOut (P : S4096x4096x2.Idx → EReal) (W1 : S10x64.Idx → EReal) (B1 : S64.Idx → EReal) (W2 : S64x32.Idx → EReal)
    (B2 : S32.Idx → EReal) : S4096x32.Idx → EReal := fun i =>
  head (featOnePass (fun k => P (ix3 (i 0) k 0)) (fun k => P (ix3 (i 0) k 1))) (fun j k => W1 (ix2 j k)) (fun k => B1 (ix1 k))
    (fun k u => W2 (ix2 k u)) (fun u => B2 (ix1 u)) (i 1)

variable (m : (ℓ : Loc nD τ sig) → Buf (Elt Ideal) ℓ) (ρ : Dev nD → PrngReg)

/-- The index maps over the grid: the two planes' blocks move with the result's block along the rows and stay at
    column block 0; the weights' and biases' blocks stay at 0; the result's column block is 0. -/
theorem idx_facts : ∀ t : Fin cfg0.N, win0_0.index t (0 : Fin 2) = win0_6.index t (0 : Fin 2)
    ∧ win0_0.index t (1 : Fin 2) = 0
    ∧ win0_1.index t (0 : Fin 2) = win0_6.index t (0 : Fin 2)
    ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (1 : Fin 2) = 0 ∧ win0_6.index t (0 : Fin 2) ≤ 15 :=
  (by decide +kernel : ∀ t : Fin grid0.N, _)

/-- Every row block of the result is some point's. -/
theorem idx_onto : ∀ q0 : Fin 16, ∃ t : Fin cfg0.N, win0_6.index t = ![q0.val, 0] :=
  (by decide +kernel : ∀ q0 : Fin 16, ∃ t : Fin grid0.N, win0_6.index t = ![q0.val, 0])

/-- What point `t` writes back is block `t` of the one function of the arrays as the region finds them. -/
theorem flushed_eq (c : Dev nD) (t : Fin cfg0.N) :
    (dats m 0 c).flushed 6 t = ((cfg0.win 6).blk t).view.read (Elt Ideal)
      (planesOut (V m c main_v2) (V m c main_v4) (V m c main_arg1) (V m c main_arg2) (V m c main_arg3) (V m c main_arg4)) := by
  rw [Value.flushed6]
  obtain ⟨e00, e01, e10, e11, e20, e21, e30, e40, e41, e50, e61, -⟩ := idx_facts t
  funext j
  show out0_6 (iblk m c 0 t) (iblk m c 1 t) (iblk m c 2 t) (iblk m c 3 t) (iblk m c 4 t) (iblk m c 5 t) j
      = planesOut (V m c main_v2) (V m c main_v4) (V m c main_arg1) (V m c main_arg2) (V m c main_arg3) (V m c main_arg4)
          (((cfg0.win 6).blk t).view.emb j)
  refine (KerBlock.out_apply' (iblk m c 0 t) (iblk m c 1 t) (iblk m c 2 t) (iblk m c 3 t) (iblk m c 4 t) (iblk m c 5 t) j).trans ?_
  have hj0 : (j 0).val < 256 := (j 0).isLt
  have hj1 : (j 1).val < 32 := (j 1).isLt
  have h0 : (fun k : Fin 4096 => iblk m c 0 t (ix2 (j 0) k))
      = fun k => V m c main_v2 (ix2 ((((cfg0.win 6).blk t).view.emb j) 0) k) := funext fun k => by
    show V m c main_v2 (((cfg0.win 0).blk t).view.emb (ix2 (j 0) k)) = _
    refine congrArg (V m c main_v2) (funext fun a => Fin.ext ?_)
    match a with
    | ⟨0, _⟩ => show win0_0.index t (0 : Fin 2) * 256 + 1 * (j 0).val = win0_6.index t (0 : Fin 2) * 256 + 1 * (j 0).val; omega
    | ⟨1, _⟩ => show win0_0.index t (1 : Fin 2) * 4096 + 1 * k.val = k.val; omega
  have h1 : (fun k : Fin 4096 => iblk m c 1 t (ix2 (j 0) k))
      = fun k => V m c main_v4 (ix2 ((((cfg0.win 6).blk t).view.emb j) 0) k) := funext fun k => by
    show V m c main_v4 (((cfg0.win 1).blk t).view.emb (ix2 (j 0) k)) = _
    refine congrArg (V m c main_v4) (funext fun a => Fin.ext ?_)
    match a with
    | ⟨0, _⟩ => show win0_1.index t (0 : Fin 2) * 256 + 1 * (j 0).val = win0_6.index t (0 : Fin 2) * 256 + 1 * (j 0).val; omega
    | ⟨1, _⟩ => show win0_1.index t (1 : Fin 2) * 4096 + 1 * k.val = k.val; omega
  have h2 : (fun (a : Fin 10) (b : Fin 64) => iblk m c 2 t (ix2 a b)) = fun a b => V m c main_arg1 (ix2 a b) :=
    funext fun a => funext fun b => by
      show V m c main_arg1 (((cfg0.win 2).blk t).view.emb (ix2 a b)) = _
      refine congrArg (V m c main_arg1) (funext fun d => Fin.ext ?_)
      match d with
      | ⟨0, _⟩ => show win0_2.index t (0 : Fin 2) * 10 + 1 * a.val = a.val; omega
      | ⟨1, _⟩ => show win0_2.index t (1 : Fin 2) * 64 + 1 * b.val = b.val; omega
  have h3 : (fun k : Fin 64 => iblk m c 3 t (ix1 k)) = fun k => V m c main_arg2 (ix1 k) := funext fun k => by
    show V m c main_arg2 (((cfg0.win 3).blk t).view.emb (ix1 k)) = _
    refine congrArg (V m c main_arg2) (funext fun d => Fin.ext ?_)
    match d with
    | ⟨0, _⟩ => show win0_3.index t (0 : Fin 1) * 64 + 1 * k.val = k.val; omega
  have h4 : (fun (k : Fin 64) (u : Fin 32) => iblk m c 4 t (ix2 k u)) = fun k u => V m c main_arg3 (ix2 k u) :=
    funext fun k => funext fun u => by
      show V m c main_arg3 (((cfg0.win 4).blk t).view.emb (ix2 k u)) = _
      refine congrArg (V m c main_arg3) (funext fun d => Fin.ext ?_)
      match d with
      | ⟨0, _⟩ => show win0_4.index t (0 : Fin 2) * 64 + 1 * k.val = k.val; omega
      | ⟨1, _⟩ => show win0_4.index t (1 : Fin 2) * 32 + 1 * u.val = u.val; omega
  have h5 : (fun u : Fin 32 => iblk m c 5 t (ix1 u)) = fun u => V m c main_arg4 (ix1 u) := funext fun u => by
    show V m c main_arg4 (((cfg0.win 5).blk t).view.emb (ix1 u)) = _
    refine congrArg (V m c main_arg4) (funext fun d => Fin.ext ?_)
    match d with
    | ⟨0, _⟩ => show win0_5.index t (0 : Fin 1) * 32 + 1 * u.val = u.val; omega
  have hq : (j 1 : Fin 32) = (((cfg0.win 6).blk t).view.emb j) 1 := Fin.ext (by
    show (j 1).val = win0_6.index t (1 : Fin 2) * 32 + 1 * (j 1).val; omega)
  rw [h0, h1, h2, h3, h4, h5, hq]
  rfl

/-- An index of the result is in point `t`'s block iff each coordinate is in the block's range on its axis. -/
theorem mem_blk (t : Fin cfg0.N) (i : S4096x32.Idx) :
    i ∈ ((cfg0.win 6).blk t).view.set ↔ ∀ a : Fin 2, win0_6.index t a * S256x32.size a ≤ (i a).val
      ∧ (i a).val < win0_6.index t a * S256x32.size a + S256x32.size a := by
  show i ∈ ((View.whole main_v5).slice (win0_6.rect t)).set ↔ _
  rw [View.set_slice_whole, Rect.mem_set_unit]
  exact Iff.rfl

/-- Every index of the result is in the block of the point that handles its row. -/
theorem cover (i : S4096x32.Idx) : ∃ t : Fin cfg0.N, (cfg0.win 6).flush t = true ∧ i ∈ ((cfg0.win 6).blk t).view.set := by
  have hi0 : (i 0).val < 4096 := (i 0).isLt
  have hi1 : (i 1).val < 32 := (i 1).isLt
  obtain ⟨t, ht⟩ := idx_onto ⟨(i 0).val / 256, by omega⟩
  have q0 : win0_6.index t (0 : Fin 2) = (i 0).val / 256 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 32 ≤ (i 1).val ∧ (i 1).val < win0_6.index t (1 : Fin 2) * 32 + 32; omega

/-- The result array after the run, from the arrays as the region finds them. -/
theorem final (c : Dev nD) : (dats m 0 c).arrAt 6 cfg0.N
    = planesOut (V m c main_v2) (V m c main_v4) (V m c main_arg1) (V m c main_arg2) (V m c main_arg3) (V m c main_arg4) :=
  (dats m 0 c).arrAt_eq_of_cover 6 _ (fun t _ => flushed_eq m c t) cover

/-- If the two planes are the two coordinates of a points array, the result from the planes is the result from the
    points. -/
theorem planesOut_congr (X Y : S4096x4096.Idx → EReal) (P : S4096x4096x2.Idx → EReal)
    (W1 W1' : S10x64.Idx → EReal) (B1 B1' : S64.Idx → EReal) (W2 W2' : S64x32.Idx → EReal) (B2 B2' : S32.Idx → EReal)
    (hX : ∀ p k : Fin 4096, X (ix2 p k) = P (ix3 p k 0)) (hY : ∀ p k : Fin 4096, Y (ix2 p k) = P (ix3 p k 1))
    (h1 : W1 = W1') (h2 : B1 = B1') (h3 : W2 = W2') (h4 : B2 = B2') :
    planesOut X Y W1 B1 W2 B2 = kerOut P W1' B1' W2' B2' := by
  subst h1 h2 h3 h4
  funext i
  have hx : (fun k : Fin 4096 => X (ix2 (i 0) k)) = fun k => P (ix3 (i 0) k 0) := funext fun k => hX (i 0) k
  have hy : (fun k : Fin 4096 => Y (ix2 (i 0) k)) = fun k => P (ix3 (i 0) k 1) := funext fun k => hY (i 0) k
  unfold planesOut rowsOut kerOut
  rw [hx, hy]

/-- Read through the planes' definition, it is a function of the argument arrays. -/
theorem planesOut_eq (c : Dev nD) :
    planesOut (V m c main_v2) (V m c main_v4) (V m c main_arg1) (V m c main_arg2) (V m c main_arg3) (V m c main_arg4)
      = kerOut (m ((c : Thread nD τ).loc main_arg0)) (m ((c : Thread nD τ).loc main_arg1)) (m ((c : Thread nD τ).loc main_arg2))
          (m ((c : Thread nD τ).loc main_arg3)) (m ((c : Thread nD τ).loc main_arg4)) :=
  planesOut_congr _ _ _ _ _ _ _ _ _ _ _ (KerHost.V_x m c) (KerHost.V_y m c) (V_main_arg1 m c) (V_main_arg2 m c)
    (V_main_arg3 m c) (V_main_arg4 m c)

/-- The kernel's run: the result array ends at `kerOut` of the argument arrays, which end unchanged. -/
theorem run : θ_run defs (onTc (τ := τ) (main (F := Ideal))) ⟨m, fun _ => 0, ρ⟩ fun r => ∀ c : Dev nD,
      r.2.mem ((c : Thread nD τ).loc main_v5)
          = kerOut (m ((c : Thread nD τ).loc main_arg0)) (m ((c : Thread nD τ).loc main_arg1)) (m ((c : Thread nD τ).loc main_arg2))
              (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (planesOut_eq m c)), (h c).2⟩)
    (Value.run_blocks m ρ)

end Cert.KernelIdeal.KerFinal

end
-- ==== Proof.RefVal.lean ====
/-
  The reference's result as a function of its five argument arrays, stage by stage.

  Each definition is one value of the reference program, written with the program's own operations: the bounding
  box's centre and size, the centroid, the standard deviation on each axis (the variance routine divides the sum of
  squared deviations by "the count less the degrees of freedom", here 4096 - 0, and keeps the quotient where that
  divisor is positive), the distances to the centroid with their mean and standard deviation, the ten columns side by
  side, and the two dense layers.
-/
import proofs.«118876_j5540507811898_2_alg».proof.Proof.Gen.ReferenceIdeal

noncomputable section

namespace Cert.ReferenceIdeal.RefVal

open Cert.ReferenceIdeal Cert.ReferenceIdeal.Gen Idealize.ShloMosaic

variable {F : FTy → Type} [FloatOps F]

/-- The least value over the points, per sample and coordinate. -/
def vMin (P : FVec F S4096x4096x2 .f32) : FVec F S4096x2 .f32 :=
  Host.reduce FloatOps.minimumf P (constant S_ .f32 0x7F800000#32) reducesTo_S4096x4096x2_S4096x2_d1 h_S_

/-- The greatest value over the points, per sample and coordinate. -/
def vMax (P : FVec F S4096x4096x2 .f32) : FVec F S4096x2 .f32 :=
  Host.reduce FloatOps.maximumf P (constant S_ .f32 0xFF800000#32) reducesTo_S4096x4096x2_S4096x2_d1 h_S_

/-- The bounding box's centre. -/
def vCenter (P : FVec F S4096x4096x2 .f32) : FVec F S4096x2 .f32 :=
  mulf (addf (vMin P) (vMax P)) (broadcastInDim S4096x2 ![] bcast_S_S4096x2 (constant S_ .f32 0x3F000000#32))

/-- The bounding box's size. -/
def vSize (P : FVec F S4096x4096x2 .f32) : FVec F S4096x2 .f32 := subf (vMax P) (vMin P)

/-- The sum over the points, per sample and coordinate. -/
def vSum (P : FVec F S4096x4096x2 .f32) : FVec F S4096x2 .f32 :=
  Host.reduceAdd P (constant S_ .f32 0x00000000#32) reducesTo_S4096x4096x2_S4096x2_d1 h_S_

/-- The centroid. -/
def vMean (P : FVec F S4096x4096x2 .f32) : FVec F S4096x2 .f32 :=
  Host.divf (vSum P) (broadcastInDim S4096x2 ![] bcast_S_S4096x2 (constant S_ .f32 0x45800000#32))

/-- The variance routine's divisor: the count less the degrees of freedom. -/
def vCount : FVec F S_ .f32 := subf (constant S_ .f32 0x45800000#32) (sitofp .f32 (constantI S_ 32 0#32))

/-- Whether that divisor is positive. -/
def vCountPos : IVec S_ 1 := cmpf .ogt (vCount (F := F)) (constant S_ .f32 0x00000000#32)

/-- The deviations from the mean the variance routine computes for itself, per point and coordinate. -/
def vDev (P : FVec F S4096x4096x2 .f32) : FVec F S4096x4096x2 .f32 :=
  subf P (broadcastInDim S4096x4096x2 ![0, 1, 2] bcast_S4096x1x2_S4096x4096x2_0_1_2
    (Host.divf (broadcastInDim S4096x1x2 ![0, 2] bcast_S4096x2_S4096x1x2_0_2 (vSum P))
      (broadcastInDim S4096x1x2 ![] bcast_S_S4096x1x2 (constant S_ .f32 0x45800000#32))))

/-- The variance per sample and coordinate. -/
def vVar (P : FVec F S4096x4096x2 .f32) : FVec F S4096x2 .f32 :=
  select (broadcastInDim S4096x2 ![] bcast_S_S4096x2 (vCountPos (F := F)))
    (Host.divf (Host.reduceAdd (mulf (vDev P) (vDev P)) (constant S_ .f32 0x00000000#32) reducesTo_S4096x4096x2_S4096x2_d1 h_S_)
      (broadcastInDim S4096x2 ![] bcast_S_S4096x2 vCount))
    (broadcastInDim S4096x2 ![] bcast_S_S4096x2 (id (constant S_ .f32 0x7FC00000#32)))

/-- The standard deviation per sample and coordinate. -/
def vStd (P : FVec F S4096x4096x2 .f32) : FVec F S4096x2 .f32 := Host.sqrt (vVar P)

/-- Each point less its sample's centroid. -/
def vDiff (P : FVec F S4096x4096x2 .f32) : FVec F S4096x4096x2 .f32 :=
  subf P (broadcastInDim S4096x4096x2 ![0, 1, 2] bcast_S4096x1x2_S4096x4096x2_0_1_2
    (broadcastInDim S4096x1x2 ![0, 2] bcast_S4096x2_S4096x1x2_0_2 (vMean P)))

/-- Each point's distance to its sample's centroid. -/
def vDist (P : FVec F S4096x4096x2 .f32) : FVec F S4096x4096 .f32 :=
  Host.sqrt (Host.reduceAdd (mulf (vDiff P) (vDiff P)) (constant S_ .f32 0x00000000#32) reducesTo_S4096x4096x2_S4096x4096_d2 h_S_)

/-- The row sums of a square array. -/
def rSum (D : FVec F S4096x4096 .f32) : FVec F S4096 .f32 :=
  Host.reduceAdd D (constant S_ .f32 0x00000000#32) reducesTo_S4096x4096_S4096_d1 h_S_

/-- The row means of a square array. -/
def rMean (D : FVec F S4096x4096 .f32) : FVec F S4096 .f32 :=
  Host.divf (rSum D) (broadcastInDim S4096 ![] bcast_S_S4096 (constant S_ .f32 0x45800000#32))

/-- The deviations from the row mean the variance routine computes for itself. -/
def rDev (D : FVec F S4096x4096 .f32) : FVec F S4096x4096 .f32 :=
  subf D (broadcastInDim S4096x4096 ![0, 1] bcast_S4096x1_S4096x4096_0_1
    (Host.divf (broadcastInDim S4096x1 ![0] bcast_S4096_S4096x1_0 (rSum D))
      (broadcastInDim S4096x1 ![] bcast_S_S4096x1 (constant S_ .f32 0x45800000#32))))

/-- The row variances of a square array. -/
def rVar (D : FVec F S4096x4096 .f32) : FVec F S4096 .f32 :=
  select (broadcastInDim S4096 ![] bcast_S_S4096 (vCountPos (F := F)))
    (Host.divf (Host.reduceAdd (mulf (rDev D) (rDev D)) (constant S_ .f32 0x00000000#32) reducesTo_S4096x4096_S4096_d1 h_S_)
      (broadcastInDim S4096 ![] bcast_S_S4096 vCount))
    (broadcastInDim S4096 ![] bcast_S_S4096 (id (constant S_ .f32 0x7FC00000#32)))

/-- The ten numbers of every sample, side by side. -/
def vGeo (P : FVec F S4096x4096x2 .f32) : FVec F S4096x10 .f32 :=
  concatenate S4096x10 1 [⟨S4096x2, vCenter P⟩, ⟨S4096x2, vSize P⟩, ⟨S4096x2, vMean P⟩, ⟨S4096x2, vStd P⟩,
    ⟨S4096x1, broadcastInDim S4096x1 ![0] bcast_S4096_S4096x1_0 (rMean (vDist P))⟩,
    ⟨S4096x1, broadcastInDim S4096x1 ![0] bcast_S4096_S4096x1_0 (Host.sqrt (rVar (vDist P)))⟩]
    concatenates_S4096x2_S4096x2_S4096x2_S4096x2_S4096x1_S4096x1_S4096x10_d1

/-- The first dense layer over all samples. -/
def vHidden (G : FVec F S4096x10 .f32) (W1 : FVec F S10x64 .f32) (B1 : FVec F S64 .f32) : FVec F S4096x64 .f32 :=
  maximumf (addf (Host.dotGeneral dot_S4096x10_S10x64_S4096x64_1_0_0_1_n_n none G W1)
      (broadcastInDim S4096x64 ![0, 1] bcast_S1x64_S4096x64_0_1 (broadcastInDim S1x64 ![1] bcast_S64_S1x64_1 B1)))
    (broadcastInDim S4096x64 ![] bcast_S_S4096x64 (constant S_ .f32 0x00000000#32))

/-- The second dense layer over all samples. -/
def vHead (H : FVec F S4096x64 .f32) (W2 : FVec F S64x32 .f32) (B2 : FVec F S32 .f32) : FVec F S4096x32 .f32 :=
  maximumf (addf (Host.dotGeneral dot_S4096x64_S64x32_S4096x32_1_0_0_1_n_n none H W2)
      (broadcastInDim S4096x32 ![0, 1] bcast_S1x32_S4096x32_0_1 (broadcastInDim S1x32 ![1] bcast_S32_S1x32_1 B2)))
    (broadcastInDim S4096x32 ![] bcast_S_S4096x32 (constant S_ .f32 0x00000000#32))

/-- The reference's result. -/
def vOut (P : FVec F S4096x4096x2 .f32) (W1 : FVec F S10x64 .f32) (B1 : FVec F S64 .f32) (W2 : FVec F S64x32 .f32)
    (B2 : FVec F S32 .f32) : FVec F S4096x32 .f32 :=
  vHead (vHidden (vGeo P) W1 B1) W2 B2

end Cert.ReferenceIdeal.RefVal

end
-- ==== Proof.RefRunOps.lean ====
/-
  The reference program as one straight line of host operations, and what it leaves in memory.

  The reference's entry function calls six helper functions (a standard deviation, which calls a variance, which calls a
  selection; a Euclidean norm; the same three over a square array; two rectifiers). A call means the callee's body run on
  the call's own buffers, so with every call replaced by its body the program is a line of ninety-one host operations
  (`ops`, in program order: fifteen of the entry function, the twenty-three of the first standard deviation, three more,
  the four of the norm, six more, the twenty-three of the second standard deviation, seven more, the three of the first
  rectifier, four more, the three of the second rectifier). `main_eq` says the program is that line: both sides are the
  same chain of steps once the helper functions are unfolded at their calls and the sequencing is reassociated.
-/
import proofs.«118876_j5540507811898_2_alg».proof.Proof.RefVal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's ninety-one operations in order, every call replaced by the callee's operations over that call's buffers. -/
abbrev ops : List (HloOp τ sig (Elt F)) :=
  [ StableHlo.nullary main_cst (constant S_ .f32 0x7F800000#32),
    StableHlo.binary main_arg0 main_cst main_v0 ((fun x v => Host.reduce FloatOps.minimumf x v reducesTo_S4096x4096x2_S4096x2_d1 h_S_) : (⟨S4096x4096x2, .f32⟩ : BufTy).Contents (Elt F) → (⟨S_, .f32⟩ : BufTy).Contents (Elt F) → (⟨S4096x2, .f32⟩ : BufTy).Contents (Elt F)),
    StableHlo.nullary main_cst_0 (constant S_ .f32 0xFF800000#32),
    StableHlo.binary main_arg0 main_cst_0 main_v1 ((fun x v => Host.reduce FloatOps.maximumf x v reducesTo_S4096x4096x2_S4096x2_d1 h_S_) : (⟨S4096x4096x2, .f32⟩ : BufTy).Contents (Elt F) → (⟨S_, .f32⟩ : BufTy).Contents (Elt F) → (⟨S4096x2, .f32⟩ : BufTy).Contents (Elt F)),
    StableHlo.binary main_v0 main_v1 main_v2 (addf : (⟨S4096x2, .f32⟩ : BufTy).Contents (Elt F) → (⟨S4096x2, .f32⟩ : BufTy).Contents (Elt F) → (⟨S4096x2, .f32⟩ : BufTy).Contents (Elt F)),
    StableHlo.nullary main_cst_1 (constant S_ .f32 0x3F000000#32),
    StableHlo.unary main_cst_1 main_v3 (broadcastInDim S4096x2 ![] bcast_S_S4096x2 : (⟨S_, .f32⟩ : BufTy).Contents (Elt F) → (⟨S4096x2, .f32⟩ : BufTy).Contents (Elt F)),
    StableHlo.binary main_v2 main_v3 main_v4 (mulf : (⟨S4096x2, .f32⟩ : BufTy).Contents (Elt F) → (⟨S4096x2, .f32⟩ : BufTy).Contents (Elt F) → (⟨S4096x2, .f32⟩ : BufTy).Contents (Elt F)),
    StableHlo.binary main_v1 main_v0 main_v5 (subf : (⟨S4096x2, .f32⟩ : BufTy).Contents (Elt F) → (⟨S4096x2, .f32⟩ : BufTy).Contents (Elt F) → (⟨S4096x2, .f32⟩ : BufTy).Contents (Elt F)),
    StableHlo.nullary main_cst_2 (constant S_ .f32 0x00000000#32),
    StableHlo.binary main_arg0 main_cst_2 main_v6 ((fun x v => Host.reduceAdd x v reducesTo_S4096x4096x2_S4096x2_d1 h_S_) : (⟨S4096x4096x2, .f32⟩ : BufTy).Contents (Elt F) → (⟨S_, .f32⟩ : BufTy).Contents (Elt F) → (⟨S4096x2, .f32⟩ : BufTy).Contents (Elt F)),
    StableHlo.nullary main_cst_3 (constant S_ .f32 0x45800000#32),
    StableHlo.unary main_cst_3 main_v7 (broadcastInDim S4096x2 ![] bcast_S_S4096x2 : (⟨S_, .f32⟩ : BufTy).Contents (Elt F) → (⟨S4096x2, .f32⟩ : BufTy).Contents (Elt F)),
    StableHlo.binary main_v6 main_v7 main_v8 (Host.divf : (⟨S4096x2, .f32⟩ : BufTy).Contents (Elt F) → (⟨S4096x2, .f32⟩ : BufTy).Contents (Elt F) → (⟨S4096x2, .f32⟩ : BufTy).Contents (Elt F)),
    StableHlo.nullary main_c (constantI S_ 32 0#32),
    StableHlo.TRef.nullary main_call0.call0.cst (constant S_ .f32 0x00000000#32),
    StableHlo.TRef.binary (StableHlo.TRef.of main_arg0 : StableHlo.TRef sig ⟨S4096x4096x2, .f32⟩) main_call0.call0.cst main_call0.call0.v0 (fun x v => Host.reduceAdd x v reducesTo_S4096x4096x2_S4096x2_d1 h_S_),
    StableHlo.TRef.unary main_call0.call0.v0 main_call0.call0.v1 (broadcastInDim S4096x1x2 ![0, 2] bcast_S4096x2_S4096x1x2_0_2),
    StableHlo.TRef.nullary main_call0.call0.cst_0 (constant S_ .f32 0x45800000#32),
    StableHlo.TRef.unary main_call0.call0.cst_0 main_call0.call0.v2 (broadcastInDim S4096x1x2 ![] bcast_S_S4096x1x2),
    StableHlo.TRef.binary main_call0.call0.v1 main_call0.call0.v2 main_call0.call0.v3 Host.divf,
    StableHlo.TRef.unary main_call0.call0.v3 main_call0.call0.v4 (broadcastInDim S4096x4096x2 ![0, 1, 2] bcast_S4096x1x2_S4096x4096x2_0_1_2),
    StableHlo.TRef.binary (StableHlo.TRef.of main_arg0 : StableHlo.TRef sig ⟨S4096x4096x2, .f32⟩) main_call0.call0.v4 main_call0.call0.v5 subf,
    StableHlo.TRef.binary main_call0.call0.v5 main_call0.call0.v5 main_call0.call0.v6 mulf,
    StableHlo.TRef.unary (StableHlo.TRef.of main_c : StableHlo.TRef sig ⟨S_, .i32⟩) main_call0.call0.v7 (sitofp .f32),
    StableHlo.TRef.nullary main_call0.call0.cst_1 (constant S_ .f32 0x45800000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S4096x4096x2_S4096x2_d1 h_S_),
    StableHlo.TRef.unary main_call0.call0.v8 main_call0.call0.v10 (broadcastInDim S4096x2 ![] bcast_S_S4096x2),
    StableHlo.TRef.binary main_call0.call0.v9 main_call0.call0.v10 main_call0.call0.v11 Host.divf,
    StableHlo.TRef.nullary main_call0.call0.cst_3 (constant S_ .f32 0x00000000#32),
    StableHlo.TRef.binary main_call0.call0.v8 main_call0.call0.cst_3 main_call0.call0.v12 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S4096x2 ![] bcast_S_S4096x2),
    StableHlo.TRef.ternary main_call0.call0.v12 main_call0.call0.v11 main_call0.call0.call0.v1 main_call0.call0.call0.v2 (fun p a b => select (broadcastInDim S4096x2 ![] bcast_S_S4096x2 p) a b),
    StableHlo.TRef.unary main_call0.call0.call0.v2 main_call0.v1 Host.sqrt,
    StableHlo.unary main_v8 main_v10 (broadcastInDim S4096x1x2 ![0, 2] bcast_S4096x2_S4096x1x2_0_2 : (⟨S4096x2, .f32⟩ : BufTy).Contents (Elt F) → (⟨S4096x1x2, .f32⟩ : BufTy).Contents (Elt F)),
    StableHlo.unary main_v10 main_v11 (broadcastInDim S4096x4096x2 ![0, 1, 2] bcast_S4096x1x2_S4096x4096x2_0_1_2 : (⟨S4096x1x2, .f32⟩ : BufTy).Contents (Elt F) → (⟨S4096x4096x2, .f32⟩ : BufTy).Contents (Elt F)),
    StableHlo.binary main_arg0 main_v11 main_v12 (subf : (⟨S4096x4096x2, .f32⟩ : BufTy).Contents (Elt F) → (⟨S4096x4096x2, .f32⟩ : BufTy).Contents (Elt F) → (⟨S4096x4096x2, .f32⟩ : BufTy).Contents (Elt F)),
    StableHlo.TRef.binary (StableHlo.TRef.of main_v12 : StableHlo.TRef sig ⟨S4096x4096x2, .f32⟩) (StableHlo.TRef.of main_v12 : StableHlo.TRef sig ⟨S4096x4096x2, .f32⟩) main_call1.v0 mulf,
    StableHlo.TRef.nullary main_call1.cst (constant S_ .f32 0x00000000#32),
    StableHlo.TRef.binary main_call1.v0 main_call1.cst main_call1.v1 (fun x v => Host.reduceAdd x v reducesTo_S4096x4096x2_S4096x4096_d2 h_S_),
    StableHlo.TRef.unary main_call1.v1 main_call1.v2 Host.sqrt,
    StableHlo.nullary main_cst_4 (constant S_ .f32 0x00000000#32),
    StableHlo.binary main_v13 main_cst_4 main_v14 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.nullary main_cst_5 (constant S_ .f32 0x45800000#32),
    StableHlo.unary main_cst_5 main_v15 (broadcastInDim S4096 ![] bcast_S_S4096 : (⟨S_, .f32⟩ : BufTy).Contents (Elt F) → (⟨S4096, .f32⟩ : BufTy).Contents (Elt F)),
    StableHlo.binary main_v14 main_v15 main_v16 (Host.divf : (⟨S4096, .f32⟩ : BufTy).Contents (Elt F) → (⟨S4096, .f32⟩ : BufTy).Contents (Elt F) → (⟨S4096, .f32⟩ : BufTy).Contents (Elt F)),
    StableHlo.nullary main_c_6 (constantI S_ 32 0#32),
    StableHlo.TRef.nullary main_call2.call0.cst (constant S_ .f32 0x00000000#32),
    StableHlo.TRef.binary (StableHlo.TRef.of main_v13 : StableHlo.TRef sig ⟨S4096x4096, .f32⟩) main_call2.call0.cst main_call2.call0.v0 (fun x v => Host.reduceAdd x v reducesTo_S4096x4096_S4096_d1 h_S_),
    StableHlo.TRef.unary main_call2.call0.v0 main_call2.call0.v1 (broadcastInDim S4096x1 ![0] bcast_S4096_S4096x1_0),
    StableHlo.TRef.nullary main_call2.call0.cst_0 (constant S_ .f32 0x45800000#32),
    StableHlo.TRef.unary main_call2.call0.cst_0 main_call2.call0.v2 (broadcastInDim S4096x1 ![] bcast_S_S4096x1),
    StableHlo.TRef.binary main_call2.call0.v1 main_call2.call0.v2 main_call2.call0.v3 Host.divf,
    StableHlo.TRef.unary main_call2.call0.v3 main_call2.call0.v4 (broadcastInDim S4096x4096 ![0, 1] bcast_S4096x1_S4096x4096_0_1),
    StableHlo.TRef.binary (StableHlo.TRef.of main_v13 : StableHlo.TRef sig ⟨S4096x4096, .f32⟩) main_call2.call0.v4 main_call2.call0.v5 subf,
    StableHlo.TRef.binary main_call2.call0.v5 main_call2.call0.v5 main_call2.call0.v6 mulf,
    StableHlo.TRef.unary (StableHlo.TRef.of main_c_6 : StableHlo.TRef sig ⟨S_, .i32⟩) main_call2.call0.v7 (sitofp .f32),
    StableHlo.TRef.nullary main_call2.call0.cst_1 (constant S_ .f32 0x45800000#32),
    StableHlo.TRef.binary main_call2.call0.cst_1 main_call2.call0.v7 main_call2.call0.v8 subf,
    StableHlo.TRef.nullary main_call2.call0.cst_2 (constant S_ .f32 0x00000000#32),
    StableHlo.TRef.binary main_call2.call0.v6 main_call2.call0.cst_2 main_call2.call0.v9 (fun x v => Host.reduceAdd x v reducesTo_S4096x4096_S4096_d1 h_S_),
    StableHlo.TRef.unary main_call2.call0.v8 main_call2.call0.v10 (broadcastInDim S4096 ![] bcast_S_S4096),
    StableHlo.TRef.binary main_call2.call0.v9 main_call2.call0.v10 main_call2.call0.v11 Host.divf,
    StableHlo.TRef.nullary main_call2.call0.cst_3 (constant S_ .f32 0x00000000#32),
    StableHlo.TRef.binary main_call2.call0.v8 main_call2.call0.cst_3 main_call2.call0.v12 (cmpf .ogt),
    StableHlo.TRef.nullary main_call2.call0.cst_4 (constant S_ .f32 0x7FC00000#32),
    StableHlo.TRef.unary main_call2.call0.cst_4 main_call2.call0.call0.v0 id,
    StableHlo.TRef.unary main_call2.call0.call0.v0 main_call2.call0.call0.v1 (broadcastInDim S4096 ![] bcast_S_S4096),
    StableHlo.TRef.ternary main_call2.call0.v12 main_call2.call0.v11 main_call2.call0.call0.v1 main_call2.call0.call0.v2 (fun p a b => select (broadcastInDim S4096 ![] bcast_S_S4096 p) a b),
    StableHlo.TRef.unary main_call2.call0.call0.v2 main_call2.v1 Host.sqrt,
    StableHlo.unary main_v16 main_v18 (broadcastInDim S4096x1 ![0] bcast_S4096_S4096x1_0 : (⟨S4096, .f32⟩ : BufTy).Contents (Elt F) → (⟨S4096x1, .f32⟩ : BufTy).Contents (Elt F)),
    StableHlo.unary main_v17 main_v19 (broadcastInDim S4096x1 ![0] bcast_S4096_S4096x1_0 : (⟨S4096, .f32⟩ : BufTy).Contents (Elt F) → (⟨S4096x1, .f32⟩ : BufTy).Contents (Elt F)),
    StableHlo.nary ![main_v4, main_v5, main_v8, main_v9, main_v18, main_v19] main_v20 (fun u => concatenate S4096x10 1 [⟨S4096x2, u 0⟩, ⟨S4096x2, u 1⟩, ⟨S4096x2, u 2⟩, ⟨S4096x2, u 3⟩, ⟨S4096x1, u 4⟩, ⟨S4096x1, u 5⟩] concatenates_S4096x2_S4096x2_S4096x2_S4096x2_S4096x1_S4096x1_S4096x10_d1),
    StableHlo.binary main_v20 main_arg1 main_v21 ((fun l r => Host.dotGeneral dot_S4096x10_S10x64_S4096x64_1_0_0_1_n_n none l r) : (⟨S4096x10, .f32⟩ : BufTy).Contents (Elt F) → (⟨S10x64, .f32⟩ : BufTy).Contents (Elt F) → (⟨S4096x64, .f32⟩ : BufTy).Contents (Elt F)),
    StableHlo.unary main_arg2 main_v22 (broadcastInDim S1x64 ![1] bcast_S64_S1x64_1 : (⟨S64, .f32⟩ : BufTy).Contents (Elt F) → (⟨S1x64, .f32⟩ : BufTy).Contents (Elt F)),
    StableHlo.unary main_v22 main_v23 (broadcastInDim S4096x64 ![0, 1] bcast_S1x64_S4096x64_0_1 : (⟨S1x64, .f32⟩ : BufTy).Contents (Elt F) → (⟨S4096x64, .f32⟩ : BufTy).Contents (Elt F)),
    StableHlo.binary main_v21 main_v23 main_v24 (addf : (⟨S4096x64, .f32⟩ : BufTy).Contents (Elt F) → (⟨S4096x64, .f32⟩ : BufTy).Contents (Elt F) → (⟨S4096x64, .f32⟩ : BufTy).Contents (Elt F)),
    StableHlo.TRef.nullary main_call3.cst (constant S_ .f32 0x00000000#32),
    StableHlo.TRef.unary main_call3.cst main_call3.v0 (broadcastInDim S4096x64 ![] bcast_S_S4096x64),
    StableHlo.TRef.binary (StableHlo.TRef.of main_v24 : StableHlo.TRef sig ⟨S4096x64, .f32⟩) main_call3.v0 main_call3.v1 maximumf,
    StableHlo.binary main_v25 main_arg3 main_v26 ((fun l r => Host.dotGeneral dot_S4096x64_S64x32_S4096x32_1_0_0_1_n_n none l r) : (⟨S4096x64, .f32⟩ : BufTy).Contents (Elt F) → (⟨S64x32, .f32⟩ : BufTy).Contents (Elt F) → (⟨S4096x32, .f32⟩ : BufTy).Contents (Elt F)),
    StableHlo.unary main_arg4 main_v27 (broadcastInDim S1x32 ![1] bcast_S32_S1x32_1 : (⟨S32, .f32⟩ : BufTy).Contents (Elt F) → (⟨S1x32, .f32⟩ : BufTy).Contents (Elt F)),
    StableHlo.unary main_v27 main_v28 (broadcastInDim S4096x32 ![0, 1] bcast_S1x32_S4096x32_0_1 : (⟨S1x32, .f32⟩ : BufTy).Contents (Elt F) → (⟨S4096x32, .f32⟩ : BufTy).Contents (Elt F)),
    StableHlo.binary main_v26 main_v28 main_v29 (addf : (⟨S4096x32, .f32⟩ : BufTy).Contents (Elt F) → (⟨S4096x32, .f32⟩ : BufTy).Contents (Elt F) → (⟨S4096x32, .f32⟩ : BufTy).Contents (Elt F)),
    StableHlo.TRef.nullary main_call4.cst (constant S_ .f32 0x00000000#32),
    StableHlo.TRef.unary main_call4.cst main_call4.v0 (broadcastInDim S4096x32 ![] bcast_S_S4096x32),
    StableHlo.TRef.binary (StableHlo.TRef.of main_v29 : StableHlo.TRef sig ⟨S4096x32, .f32⟩) main_call4.v0 main_call4.v1 maximumf ]

-- ninety-one steps re-associated: the rewriting under the chain recurses once per step, and revisits the tail each time
set_option maxRecDepth 4096 in
set_option maxHeartbeats 1200000 in
/-- The program is that line of operations. -/
theorem main_eq (c : Dev nD) : main (F := F) c = seq ops := by
  simp only [main, fn_std.body, fn_var.body, fn_where.body, fn_norm.body, fn_std_0.body, fn_var_1.body, fn_where_2.body,
    fn_relu.body, fn_relu_3.body, seq, bind_assoc, pure_bind]

end Cert.ReferenceIdeal.RefRun

end
-- ==== Proof.LibStretchRead.lean ====
/-
  Reading one buffer after a long straight line of host operations, through the one stretch that writes it.

  `StableHlo.after ops V` folds every operation of `ops` over the buffer contents `V`. When the line is long, a buffer
  written early is read back through all the later operations one by one. If `Wr` lists, operation by operation, the
  one reference each operation may write (`WritesOnly ops Wr`), then:

  * a reference not in `Wr` is never written: `after ops V` still holds `V` there (`after_of_not_mem_writesOnly`);
  * a reference that none of the operations after position `a + n` writes is read off the stretch of `n` operations
    from position `a`, run from the contents the first `a` operations leave (`after_read_stretch`);
  * the first `a` operations leave every reference they do not write as it was (`after_take_of_not_mem`), and already
    leave in a reference no later operation writes what the whole line leaves (`after_take_eq`).

  Membership in `Wr` (a list of references) is decided in one pass, so each buffer of a program of hundreds of operations
  costs one short stretch instead of the whole fold.
-/
import Idealize.ShloMosaic.Lib.StableHlo.Run
import Mathlib.Data.List.Forall2

noncomputable section

namespace Idealize.ShloMosaic.StableHlo

variable {τ : Topo} {sig : RefSig} {Val : EltTy → Type}

/-- Two lines run one after the other: the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `Wr` names, operation by operation, the one reference each operation of `ops` may write. -/
def WritesOnly (ops : List (HloOp τ sig Val)) (Wr : List (Ref sig .tc)) : Prop :=
  List.Forall₂ (fun op r => op.writes ⊆ ({Proc.devRef (τ := τ) .tc r} : Finset (DevRef τ sig))) ops Wr

/-- A reference none of the operations may write keeps its contents. -/
theorem after_of_not_mem_writesOnly {ops : List (HloOp τ sig Val)} {Wr : List (Ref sig .tc)} (h : WritesOnly ops Wr)
    (V : Valuation τ sig Val) (r : Ref sig .tc) (hr : r ∉ Wr) :
    after ops V (Proc.devRef .tc r) = V (Proc.devRef .tc r) := by
  refine after_of_forall_not_mem ops V ?_
  unfold WritesOnly at h
  induction h with
  | nil => intro op hop; exact absurd hop List.not_mem_nil
  | @cons op r₀ l W hop _ ih =>
    intro op' hop'
    rcases List.mem_cons.mp hop' with rfl | hmem
    · intro hb
      have := Finset.mem_singleton.mp (hop hb)
      exact hr (by rw [Proc.devRef_injective _ this]; exact List.mem_cons_self)
    · exact ih (fun hm => hr (List.mem_cons_of_mem _ hm)) op' hmem

/-- The first `a` operations leave a reference they may not write as it was. -/
theorem after_take_of_not_mem {ops : List (HloOp τ sig Val)} {Wr : List (Ref sig .tc)} (h : WritesOnly ops Wr) (a : Nat)
    (V : Valuation τ sig Val) (r : Ref sig .tc) (hr : r ∉ Wr.take a) :
    after (ops.take a) V (Proc.devRef .tc r) = V (Proc.devRef .tc r) :=
  after_of_not_mem_writesOnly (List.forall₂_take a h) V r hr

/-- A reference that no operation after position `a + n` may write is read, after the whole line, off the stretch of
    `n` operations from position `a`, run from what the first `a` operations leave. -/
theorem after_read_stretch {ops : List (HloOp τ sig Val)} {Wr : List (Ref sig .tc)} (h : WritesOnly ops Wr) (a n : Nat)
    (V : Valuation τ sig Val) (r : Ref sig .tc) (hr : r ∉ (Wr.drop a).drop n) :
    after ops V (Proc.devRef .tc r) = after ((ops.drop a).take n) (after (ops.take a) V) (Proc.devRef .tc r) := by
  have e : ops = ops.take a ++ ((ops.drop a).take n ++ (ops.drop a).drop n) := by
    rw [List.take_append_drop, List.take_append_drop]
  conv_lhs => rw [e]
  rw [after_append, after_append]
  exact after_of_not_mem_writesOnly (List.forall₂_drop n (List.forall₂_drop a h)) _ r hr

/-- The first `p` operations already leave, in a reference no later operation may write, what the whole line leaves. -/
theorem after_take_eq {ops : List (HloOp τ sig Val)} {Wr : List (Ref sig .tc)} (h : WritesOnly ops Wr) (p : Nat)
    (V : Valuation τ sig Val) (r : Ref sig .tc) (hr : r ∉ Wr.drop p) :
    after (ops.take p) V (Proc.devRef .tc r) = after ops V (Proc.devRef .tc r) := by
  conv_rhs => rw [← List.take_append_drop p ops]
  rw [after_append]
  exact (after_of_not_mem_writesOnly (List.forall₂_drop p h) _ r hr).symm

end Idealize.ShloMosaic.StableHlo

end
-- ==== Proof.RefRunRead.lean ====
/-
  What each buffer holds once the reference's line of operations has run, one equation per operation.

  Every operation of the line writes a buffer no other operation writes, and reads only buffers written before it (or
  never written: the five arguments). So the contents the whole line leaves satisfy each operation's own equation: the
  buffer it writes holds its function of what the line leaves in the buffers it reads. The general statements come first
  (for any line with a list naming what each operation may write): the line is split at the operation, the operations
  after it write neither its result nor, from the operation on, its operands. Then the line's ninety-one equations
  (`e1` … `e91`, in program order) over `fin V r`, the contents of buffer `r` after the line run from contents `V`,
  and that the five arguments are left as they were.
-/
import proofs.«118876_j5540507811898_2_alg».proof.Proof.RefRunOps
import proofs.«118876_j5540507811898_2_alg».proof.Proof.LibStretchRead

noncomputable section

namespace Cert.ReferenceIdeal.RefRun

open Idealize.ShloMosaic Idealize.ShloMosaic.StableHlo

section General

variable {τ : Topo} {sig : RefSig} {Val : EltTy → Type}

/-- After the whole line, a buffer no operation past position `p` may write holds what operation `p` leaves there,
    run from what the first `p` operations leave. -/
theorem after_at {ops : List (HloOp τ sig Val)} {Wr : List (Ref sig .tc)} (h : WritesOnly ops Wr) (p : Nat)
    (op : HloOp τ sig Val) (hop : ops[p]? = some op) (V : Valuation τ sig Val) (r : Ref sig .tc) (hr : r ∉ Wr.drop (p + 1)) :
    after ops V (Proc.devRef .tc r) = op.result (after (ops.take p) V) (Proc.devRef .tc r) := by
  obtain ⟨hp, rfl⟩ := List.getElem?_eq_some_iff.mp hop
  have e : ops = ops.take p ++ ops[p] :: ops.drop (p + 1) := by
    rw [← List.drop_eq_getElem_cons hp, List.take_append_drop]
  conv_lhs => rw [e]
  rw [after_append, after_cons]
  exact after_of_not_mem_writesOnly (List.forall₂_drop (p + 1) h) _ r hr

section Builders

variable {ops : List (HloOp τ sig Val)} {Wr : List (Ref sig .tc)} (h : WritesOnly ops Wr) (p : Nat)
include h

theorem read_nullary (y : Ref sig .tc) (v : y.ty.Contents Val) (hy) (hop : ops[p]? = some (nullary (τ := τ) y v hy))
    (V : Valuation τ sig Val) (hy' : y ∉ Wr.drop (p + 1)) :
    after ops V (Proc.devRef .tc y) = v := by
  rw [after_at h p _ hop V y hy', nullary_result]

theorem read_unary (x y : Ref sig .tc) (f : x.ty.Contents Val → y.ty.Contents Val) (hx hy)
    (hop : ops[p]? = some (unary (τ := τ) x y f hx hy)) (V : Valuation τ sig Val) (hy' : y ∉ Wr.drop (p + 1)) (hx' : x ∉ Wr.drop p) :
    after ops V (Proc.devRef .tc y) = f (after ops V (Proc.devRef .tc x)) := by
  rw [after_at h p _ hop V y hy', unary_result, after_take_eq h p V x hx']

theorem read_binary (a b y : Ref sig .tc) (f : a.ty.Contents Val → b.ty.Contents Val → y.ty.Contents Val) (ha hb hy)
    (hop : ops[p]? = some (binary (τ := τ) a b y f ha hb hy)) (V : Valuation τ sig Val) (hy' : y ∉ Wr.drop (p + 1))
    (ha' : a ∉ Wr.drop p) (hb' : b ∉ Wr.drop p) :
    after ops V (Proc.devRef .tc y) = f (after ops V (Proc.devRef .tc a)) (after ops V (Proc.devRef .tc b)) := by
  rw [after_at h p _ hop V y hy', binary_result, after_take_eq h p V a ha', after_take_eq h p V b hb']

theorem read_ternary (c a b y : Ref sig .tc) (f : c.ty.Contents Val → a.ty.Contents Val → b.ty.Contents Val → y.ty.Contents Val)
    (hc ha hb hy) (hop : ops[p]? = some (ternary (τ := τ) c a b y f hc ha hb hy)) (V : Valuation τ sig Val)
    (hy' : y ∉ Wr.drop (p + 1)) (hc' : c ∉ Wr.drop p) (ha' : a ∉ Wr.drop p) (hb' : b ∉ Wr.drop p) :
    after ops V (Proc.devRef .tc y)
      = f (after ops V (Proc.devRef .tc c)) (after ops V (Proc.devRef .tc a)) (after ops V (Proc.devRef .tc b)) := by
  rw [after_at h p _ hop V y hy', ternary_result, after_take_eq h p V c hc', after_take_eq h p V a ha', after_take_eq h p V b hb']

theorem read_nary {n : Nat} (xs : Fin n → Ref sig .tc) (y : Ref sig .tc)
    (f : ((k : Fin n) → (xs k).ty.Contents Val) → y.ty.Contents Val) (hxs hy)
    (hop : ops[p]? = some (nary (τ := τ) xs y f hxs hy)) (V : Valuation τ sig Val) (hy' : y ∉ Wr.drop (p + 1))
    (hxs' : ∀ k, xs k ∉ Wr.drop p) :
    after ops V (Proc.devRef .tc y) = f (fun k => after ops V (Proc.devRef .tc (xs k))) := by
  rw [after_at h p _ hop V y hy', nary_result]
  exact congrArg f (funext fun k => after_take_eq h p V (xs k) (hxs' k))

end Builders

/-! ### The same for an operation of a called function

Such an operation is stated over buffers that carry the type of the value they hold, and its function is moved to each
buffer's own content type along the evidence that the two types agree. The equations below undo that transport once and
for all: each takes the buffers' final contents *at the carried types* (any values equal to them up to that change of
type), so that no later step has to look through the transport. -/

section Typed

variable {T Tx Ta Tb Tc Ty : BufTy}

/-- Contents moved to a buffer's own content type are the same contents. -/
theorem toBuf_heq (y : TRef sig T) (v : T.Contents Val) : HEq (y.toBuf v) v := cast_heq _ v

/-- Contents moved back from a buffer's own content type are the same contents. -/
theorem ofBuf_heq (x : TRef sig T) (w : x.ref.ty.Contents Val) : HEq (x.ofBuf w) w := cast_heq _ w

variable {ops : List (HloOp τ sig Val)} {Wr : List (Ref sig .tc)} (h : WritesOnly ops Wr) (p : Nat)
include h

theorem read_nullaryT (y : TRef sig Ty) (v : Ty.Contents Val) (hop : ops[p]? = some (TRef.nullary (τ := τ) y v))
    (V : Valuation τ sig Val) (hy' : y.ref ∉ Wr.drop (p + 1))
    (wy : Ty.Contents Val) (hy : HEq (after ops V (Proc.devRef .tc y.ref)) wy) : wy = v := by
  have h0 := read_nullary h p y.ref (y.toBuf v) y.dev hop V hy'
  exact eq_of_heq (hy.symm.trans ((heq_of_eq h0).trans (toBuf_heq y _)))

theorem read_unaryT (x : TRef sig Tx) (y : TRef sig Ty) (f : Tx.Contents Val → Ty.Contents Val)
    (hop : ops[p]? = some (TRef.unary (τ := τ) x y f)) (V : Valuation τ sig Val) (hy' : y.ref ∉ Wr.drop (p + 1)) (hx' : x.ref ∉ Wr.drop p)
    (wy : Ty.Contents Val) (wx : Tx.Contents Val)
    (hy : HEq (after ops V (Proc.devRef .tc y.ref)) wy) (hx : HEq (after ops V (Proc.devRef .tc x.ref)) wx) : wy = f wx := by
  have h0 := read_unary h p x.ref y.ref (fun u => y.toBuf (f (x.ofBuf u))) x.dev y.dev hop V hy' hx'
  have e1 : x.ofBuf (after ops V (Proc.devRef .tc x.ref)) = wx := eq_of_heq ((ofBuf_heq x _).trans hx)
  have e2 : wy = f (x.ofBuf (after ops V (Proc.devRef .tc x.ref))) :=
    eq_of_heq (hy.symm.trans ((heq_of_eq h0).trans (toBuf_heq y _)))
  rw [e2, e1]

theorem read_binaryT (a : TRef sig Ta) (b : TRef sig Tb) (y : TRef sig Ty) (f : Ta.Contents Val → Tb.Contents Val → Ty.Contents Val)
    (hop : ops[p]? = some (TRef.binary (τ := τ) a b y f)) (V : Valuation τ sig Val) (hy' : y.ref ∉ Wr.drop (p + 1))
    (ha' : a.ref ∉ Wr.drop p) (hb' : b.ref ∉ Wr.drop p)
    (wy : Ty.Contents Val) (wa : Ta.Contents Val) (wb : Tb.Contents Val)
    (hy : HEq (after ops V (Proc.devRef .tc y.ref)) wy) (ha : HEq (after ops V (Proc.devRef .tc a.ref)) wa)
    (hb : HEq (after ops V (Proc.devRef .tc b.ref)) wb) : wy = f wa wb := by
  have h0 := read_binary h p a.ref b.ref y.ref (fun u v => y.toBuf (f (a.ofBuf u) (b.ofBuf v))) a.dev b.dev y.dev hop V hy' ha' hb'
  have ea : a.ofBuf (after ops V (Proc.devRef .tc a.ref)) = wa := eq_of_heq ((ofBuf_heq a _).trans ha)
  have eb : b.ofBuf (after ops V (Proc.devRef .tc b.ref)) = wb := eq_of_heq ((ofBuf_heq b _).trans hb)
  have e2 : wy = f (a.ofBuf (after ops V (Proc.devRef .tc a.ref))) (b.ofBuf (after ops V (Proc.devRef .tc b.ref))) :=
    eq_of_heq (hy.symm.trans ((heq_of_eq h0).trans (toBuf_heq y _)))
  rw [e2, ea, eb]

theorem read_ternaryT (c : TRef sig Tc) (a : TRef sig Ta) (b : TRef sig Tb) (y : TRef sig Ty)
    (f : Tc.Contents Val → Ta.Contents Val → Tb.Contents Val → Ty.Contents Val)
    (hop : ops[p]? = some (TRef.ternary (τ := τ) c a b y f)) (V : Valuation τ sig Val) (hy' : y.ref ∉ Wr.drop (p + 1))
    (hc' : c.ref ∉ Wr.drop p) (ha' : a.ref ∉ Wr.drop p) (hb' : b.ref ∉ Wr.drop p)
    (wy : Ty.Contents Val) (wc : Tc.Contents Val) (wa : Ta.Contents Val) (wb : Tb.Contents Val)
    (hy : HEq (after ops V (Proc.devRef .tc y.ref)) wy) (hc : HEq (after ops V (Proc.devRef .tc c.ref)) wc)
    (ha : HEq (after ops V (Proc.devRef .tc a.ref)) wa) (hb : HEq (after ops V (Proc.devRef .tc b.ref)) wb) : wy = f wc wa wb := by
  have h0 := read_ternary h p c.ref a.ref b.ref y.ref (fun w u v => y.toBuf (f (c.ofBuf w) (a.ofBuf u) (b.ofBuf v)))
    c.dev a.dev b.dev y.dev hop V hy' hc' ha' hb'
  have ec : c.ofBuf (after ops V (Proc.devRef .tc c.ref)) = wc := eq_of_heq ((ofBuf_heq c _).trans hc)
  have ea : a.ofBuf (after ops V (Proc.devRef .tc a.ref)) = wa := eq_of_heq ((ofBuf_heq a _).trans ha)
  have eb : b.ofBuf (after ops V (Proc.devRef .tc b.ref)) = wb := eq_of_heq ((ofBuf_heq b _).trans hb)
  have e2 : wy = f (c.ofBuf (after ops V (Proc.devRef .tc c.ref))) (a.ofBuf (after ops V (Proc.devRef .tc a.ref)))
      (b.ofBuf (after ops V (Proc.devRef .tc b.ref))) :=
    eq_of_heq (hy.symm.trans ((heq_of_eq h0).trans (toBuf_heq y _)))
  rw [e2, ec, ea, eb]

end Typed

end General

open Cert.ReferenceIdeal Cert.ReferenceIdeal.Gen Idealize.ShloMosaic Idealize.ShloMosaic.TcCoe Idealize.SL.Sem Idealize.ShloMosaic.StableHlo

variable {F : FTy → Type} [FloatOps F]

/-- The buffer each operation writes, in program order. -/
abbrev wr : List (Ref sig .tc) :=
  [ main_cst, main_v0, main_cst_0, main_v1, main_v2, main_cst_1, main_v3, main_v4, main_v5, main_cst_2, main_v6, main_cst_3, main_v7, main_v8, main_c, main_call0_call0_cst, main_call0_call0_v0, main_call0_call0_v1, main_call0_call0_cst_0, main_call0_call0_v2, main_call0_call0_v3, main_call0_call0_v4, main_call0_call0_v5, main_call0_call0_v6, main_call0_call0_v7, main_call0_call0_cst_1, main_call0_call0_v8, main_call0_call0_cst_2, main_call0_call0_v9, main_call0_call0_v10, main_call0_call0_v11, main_call0_call0_cst_3, main_call0_call0_v12, main_call0_call0_cst_4, main_call0_call0_call0_v0, main_call0_call0_call0_v1, main_call0_v0, main_v9, main_v10, main_v11, main_v12, main_call1_v0, main_call1_cst, main_call1_v1, main_v13, main_cst_4, main_v14, main_cst_5, main_v15, main_v16, main_c_6, main_call2_call0_cst, main_call2_call0_v0, main_call2_call0_v1, main_call2_call0_cst_0, main_call2_call0_v2, main_call2_call0_v3, main_call2_call0_v4, main_call2_call0_v5, main_call2_call0_v6, main_call2_call0_v7, main_call2_call0_cst_1, main_call2_call0_v8, main_call2_call0_cst_2, main_call2_call0_v9, main_call2_call0_v10, main_call2_call0_v11, main_call2_call0_cst_3, main_call2_call0_v12, main_call2_call0_cst_4, main_call2_call0_call0_v0, main_call2_call0_call0_v1, main_call2_v0, main_v17, main_v18, main_v19, main_v20, main_v21, main_v22, main_v23, main_v24, main_call3_cst, main_call3_v0, main_v25, main_v26, main_v27, main_v28, main_v29, main_call4_cst, main_call4_v0, main_v30 ]

set_option maxRecDepth 8192 in
/-- Operation by operation, that is the one buffer it writes. -/
theorem ops_writes : WritesOnly (ops (F := F)) wr :=
  List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.cons (Finset.Subset.refl _) (List.Forall₂.nil)))))))))))))))))))))))))))))))))))))))))))))))))))))))))))))))))))))))))))))))))))))))))))

-- the equations below never need the fold opened: each is read off the split of the line at one operation
/-- What buffer `r` holds after the line, run from contents `V`. -/
def fin (V : Valuation τ sig (Elt F)) (r : Ref sig .tc) : (Proc.devRef (τ := τ) .tc r : DevRef τ sig).ty.Contents (Elt F) :=
  after ops V (Proc.devRef .tc r)

theorem e1 (V : Valuation τ sig (Elt F)) : fin V main_cst = ((constant S_ .f32 0x7F800000#32) : (⟨S_, .f32⟩ : BufTy).Contents (Elt F)) :=
  read_nullary ops_writes 0 _ _ _ rfl V (by decide)
theorem e2 (V : Valuation τ sig (Elt F)) : fin V main_v0 = ((fun x v => Host.reduce FloatOps.minimumf x v reducesTo_S4096x4096x2_S4096x2_d1 h_S_) : (⟨S4096x4096x2, .f32⟩ : BufTy).Contents (Elt F) → (⟨S_, .f32⟩ : BufTy).Contents (Elt F) → (⟨S4096x2, .f32⟩ : BufTy).Contents (Elt F)) (fin V main_arg0 : (⟨S4096x4096x2, .f32⟩ : BufTy).Contents (Elt F)) (fin V main_cst : (⟨S_, .f32⟩ : BufTy).Contents (Elt F)) :=
  read_binary ops_writes 1 _ _ _ _ _ _ _ rfl V (by decide) (by decide) (by decide)
theorem e3 (V : Valuation τ sig (Elt F)) : fin V main_cst_0 = ((constant S_ .f32 0xFF800000#32) : (⟨S_, .f32⟩ : BufTy).Contents (Elt F)) :=
  read_nullary ops_writes 2 _ _ _ rfl V (by decide)
theorem e4 (V : Valuation τ sig (Elt F)) : fin V main_v1 = ((fun x v => Host.reduce FloatOps.maximumf x v reducesTo_S4096x4096x2_S4096x2_d1 h_S_) : (⟨S4096x4096x2, .f32⟩ : BufTy).Contents (Elt F) → (⟨S_, .f32⟩ : BufTy).Contents (Elt F) → (⟨S4096x2, .f32⟩ : BufTy).Contents (Elt F)) (fin V main_arg0 : (⟨S4096x4096x2, .f32⟩ : BufTy).Contents (Elt F)) (fin V main_cst_0 : (⟨S_, .f32⟩ : BufTy).Contents (Elt F)) :=
  read_binary ops_writes 3 _ _ _ _ _ _ _ rfl V (by decide) (by decide) (by decide)
theorem e5 (V : Valuation τ sig (Elt F)) : fin V main_v2 = (addf : (⟨S4096x2, .f32⟩ : BufTy).Contents (Elt F) → (⟨S4096x2, .f32⟩ : BufTy).Contents (Elt F) → (⟨S4096x2, .f32⟩ : BufTy).Contents (Elt F)) (fin V main_v0 : (⟨S4096x2, .f32⟩ : BufTy).Contents (Elt F)) (fin V main_v1 : (⟨S4096x2, .f32⟩ : BufTy).Contents (Elt F)) :=
  read_binary ops_writes 4 _ _ _ _ _ _ _ rfl V (by decide) (by decide) (by decide)
theorem e6 (V : Valuation τ sig (Elt F)) : fin V main_cst_1 = ((constant S_ .f32 0x3F000000#32) : (⟨S_, .f32⟩ : BufTy).Contents (Elt F)) :=
  read_nullary ops_writes 5 _ _ _ rfl V (by decide)
theorem e7 (V : Valuation τ sig (Elt F)) : fin V main_v3 = (broadcastInDim S4096x2 ![] bcast_S_S4096x2 : (⟨S_, .f32⟩ : BufTy).Contents (Elt F) → (⟨S4096x2, .f32⟩ : BufTy).Contents (Elt F)) (fin V main_cst_1 : (⟨S_, .f32⟩ : BufTy).Contents (Elt F)) :=
  read_unary ops_writes 6 _ _ _ _ _ rfl V (by decide) (by decide)
theorem e8 (V : Valuation τ sig (Elt F)) : fin V main_v4 = (mulf : (⟨S4096x2, .f32⟩ : BufTy).Contents (Elt F) → (⟨S4096x2, .f32⟩ : BufTy).Contents (Elt F) → (⟨S4096x2, .f32⟩ : BufTy).Contents (Elt F)) (fin V main_v2 : (⟨S4096x2, .f32⟩ : BufTy).Contents (Elt F)) (fin V main_v3 : (⟨S4096x2, .f32⟩ : BufTy).Contents (Elt F)) :=
  read_binary ops_writes 7 _ _ _ _ _ _ _ rfl V (by decide) (by decide) (by decide)
theorem e9 (V : Valuation τ sig (Elt F)) : fin V main_v5 = (subf : (⟨S4096x2, .f32⟩ : BufTy).Contents (Elt F) → (⟨S4096x2, .f32⟩ : BufTy).Contents (Elt F) → (⟨S4096x2, .f32⟩ : BufTy).Contents (Elt F)) (fin V main_v1 : (⟨S4096x2, .f32⟩ : BufTy).Contents (Elt F)) (fin V main_v0 : (⟨S4096x2, .f32⟩ : BufTy).Contents (Elt F)) :=
  read_binary ops_writes 8 _ _ _ _ _ _ _ rfl V (by decide) (by decide) (by decide)
theorem e10 (V : Valuation τ sig (Elt F)) : fin V main_cst_2 = ((constant S_ .f32 0x00000000#32) : (⟨S_, .f32⟩ : BufTy).Contents (Elt F)) :=
  read_nullary ops_writes 9 _ _ _ rfl V (by decide)
theorem e11 (V : Valuation τ sig (Elt F)) : fin V main_v6 = ((fun x v => Host.reduceAdd x v reducesTo_S4096x4096x2_S4096x2_d1 h_S_) : (⟨S4096x4096x2, .f32⟩ : BufTy).Contents (Elt F) → (⟨S_, .f32⟩ : BufTy).Contents (Elt F) → (⟨S4096x2, .f32⟩ : BufTy).Contents (Elt F)) (fin V main_arg0 : (⟨S4096x4096x2, .f32⟩ : BufTy).Contents (Elt F)) (fin V main_cst_2 : (⟨S_, .f32⟩ : BufTy).Contents (Elt F)) :=
  read_binary ops_writes 10 _ _ _ _ _ _ _ rfl V (by decide) (by decide) (by decide)
theorem e12 (V : Valuation τ sig (Elt F)) : fin V main_cst_3 = ((constant S_ .f32 0x45800000#32) : (⟨S_, .f32⟩ : BufTy).Contents (Elt F)) :=
  read_nullary ops_writes 11 _ _ _ rfl V (by decide)
theorem e13 (V : Valuation τ sig (Elt F)) : fin V main_v7 = (broadcastInDim S4096x2 ![] bcast_S_S4096x2 : (⟨S_, .f32⟩ : BufTy).Contents (Elt F) → (⟨S4096x2, .f32⟩ : BufTy).Contents (Elt F)) (fin V main_cst_3 : (⟨S_, .f32⟩ : BufTy).Contents (Elt F)) :=
  read_unary ops_writes 12 _ _ _ _ _ rfl V (by decide) (by decide)
theorem e14 (V : Valuation τ sig (Elt F)) : fin V main_v8 = (Host.divf : (⟨S4096x2, .f32⟩ : BufTy).Contents (Elt F) → (⟨S4096x2, .f32⟩ : BufTy).Contents (Elt F) → (⟨S4096x2, .f32⟩ : BufTy).Contents (Elt F)) (fin V main_v6 : (⟨S4096x2, .f32⟩ : BufTy).Contents (Elt F)) (fin V main_v7 : (⟨S4096x2, .f32⟩ : BufTy).Contents (Elt F)) :=
  read_binary ops_writes 13 _ _ _ _ _ _ _ rfl V (by decide) (by decide) (by decide)
theorem e15 (V : Valuation τ sig (Elt F)) : fin V main_c = ((constantI S_ 32 0#32) : (⟨S_, .i32⟩ : BufTy).Contents (Elt F)) :=
  read_nullary ops_writes 14 _ _ _ rfl V (by decide)
theorem e16 (V : Valuation τ sig (Elt F)) : fin V main_call0_call0_cst = ((constant S_ .f32 0x00000000#32) : (⟨S_, .f32⟩ : BufTy).Contents (Elt F)) :=
  read_nullaryT ops_writes 15 _ _ rfl V (by decide) (fin V main_call0_call0_cst) HEq.rfl
theorem e17 (V : Valuation τ sig (Elt F)) : fin V main_call0_call0_v0 = ((fun x v => Host.reduceAdd x v reducesTo_S4096x4096x2_S4096x2_d1 h_S_) : (⟨S4096x4096x2, .f32⟩ : BufTy).Contents (Elt F) → (⟨S_, .f32⟩ : BufTy).Contents (Elt F) → (⟨S4096x2, .f32⟩ : BufTy).Contents (Elt F)) (fin V main_arg0 : (⟨S4096x4096x2, .f32⟩ : BufTy).Contents (Elt F)) (fin V main_call0_call0_cst : (⟨S_, .f32⟩ : BufTy).Contents (Elt F)) :=
  read_binaryT ops_writes 16 _ _ _ _ rfl V (by decide) (by decide) (by decide) (fin V main_call0_call0_v0) (fin V main_arg0) (fin V main_call0_call0_cst) HEq.rfl HEq.rfl HEq.rfl
theorem e18 (V : Valuation τ sig (Elt F)) : fin V main_call0_call0_v1 = ((broadcastInDim S4096x1x2 ![0, 2] bcast_S4096x2_S4096x1x2_0_2) : (⟨S4096x2, .f32⟩ : BufTy).Contents (Elt F) → (⟨S4096x1x2, .f32⟩ : BufTy).Contents (Elt F)) (fin V main_call0_call0_v0 : (⟨S4096x2, .f32⟩ : BufTy).Contents (Elt F)) :=
  read_unaryT ops_writes 17 _ _ _ rfl V (by decide) (by decide) (fin V main_call0_call0_v1) (fin V main_call0_call0_v0) HEq.rfl HEq.rfl
theorem e19 (V : Valuation τ sig (Elt F)) : fin V main_call0_call0_cst_0 = ((constant S_ .f32 0x45800000#32) : (⟨S_, .f32⟩ : BufTy).Contents (Elt F)) :=
  read_nullaryT ops_writes 18 _ _ rfl V (by decide) (fin V main_call0_call0_cst_0) HEq.rfl
theorem e20 (V : Valuation τ sig (Elt F)) : fin V main_call0_call0_v2 = ((broadcastInDim S4096x1x2 ![] bcast_S_S4096x1x2) : (⟨S_, .f32⟩ : BufTy).Contents (Elt F) → (⟨S4096x1x2, .f32⟩ : BufTy).Contents (Elt F)) (fin V main_call0_call0_cst_0 : (⟨S_, .f32⟩ : BufTy).Contents (Elt F)) :=
  read_unaryT ops_writes 19 _ _ _ rfl V (by decide) (by decide) (fin V main_call0_call0_v2) (fin V main_call0_call0_cst_0) HEq.rfl HEq.rfl
theorem e21 (V : Valuation τ sig (Elt F)) : fin V main_call0_call0_v3 = (Host.divf : (⟨S4096x1x2, .f32⟩ : BufTy).Contents (Elt F) → (⟨S4096x1x2, .f32⟩ : BufTy).Contents (Elt F) → (⟨S4096x1x2, .f32⟩ : BufTy).Contents (Elt F)) (fin V main_call0_call0_v1 : (⟨S4096x1x2, .f32⟩ : BufTy).Contents (Elt F)) (fin V main_call0_call0_v2 : (⟨S4096x1x2, .f32⟩ : BufTy).Contents (Elt F)) :=
  read_binaryT ops_writes 20 _ _ _ _ rfl V (by decide) (by decide) (by decide) (fin V main_call0_call0_v3) (fin V main_call0_call0_v1) (fin V main_call0_call0_v2) HEq.rfl HEq.rfl HEq.rfl
theorem e22 (V : Valuation τ sig (Elt F)) : fin V main_call0_call0_v4 = ((broadcastInDim S4096x4096x2 ![0, 1, 2] bcast_S4096x1x2_S4096x4096x2_0_1_2) : (⟨S4096x1x2, .f32⟩ : BufTy).Contents (Elt F) → (⟨S4096x4096x2, .f32⟩ : BufTy).Contents (Elt F)) (fin V main_call0_call0_v3 : (⟨S4096x1x2, .f32⟩ : BufTy).Contents (Elt F)) :=
  read_unaryT ops_writes 21 _ _ _ rfl V (by decide) (by decide) (fin V main_call0_call0_v4) (fin V main_call0_call0_v3) HEq.rfl HEq.rfl
theorem e23 (V : Valuation τ sig (Elt F)) : fin V main_call0_call0_v5 = (subf : (⟨S4096x4096x2, .f32⟩ : BufTy).Contents (Elt F) → (⟨S4096x4096x2, .f32⟩ : BufTy).Contents (Elt F) → (⟨S4096x4096x2, .f32⟩ : BufTy).Contents (Elt F)) (fin V main_arg0 : (⟨S4096x4096x2, .f32⟩ : BufTy).Contents (Elt F)) (fin V main_call0_call0_v4 : (⟨S4096x4096x2, .f32⟩ : BufTy).Contents (Elt F)) :=
  read_binaryT ops_writes 22 _ _ _ _ rfl V (by decide) (by decide) (by decide) (fin V main_call0_call0_v5) (fin V main_arg0) (fin V main_call0_call0_v4) HEq.rfl HEq.rfl HEq.rfl
theorem e24 (V : Valuation τ sig (Elt F)) : fin V main_call0_call0_v6 = (mulf : (⟨S4096x4096x2, .f32⟩ : BufTy).Contents (Elt F) → (⟨S4096x4096x2, .f32⟩ : BufTy).Contents (Elt F) → (⟨S4096x4096x2, .f32⟩ : BufTy).Contents (Elt F)) (fin V main_call0_call0_v5 : (⟨S4096x4096x2, .f32⟩ : BufTy).Contents (Elt F)) (fin V main_call0_call0_v5 : (⟨S4096x4096x2, .f32⟩ : BufTy).Contents (Elt F)) :=
  read_binaryT ops_writes 23 _ _ _ _ rfl V (by decide) (by decide) (by decide) (fin V main_call0_call0_v6) (fin V main_call0_call0_v5) (fin V main_call0_call0_v5) HEq.rfl HEq.rfl HEq.rfl
theorem e25 (V : Valuation τ sig (Elt F)) : fin V main_call0_call0_v7 = ((sitofp .f32) : (⟨S_, .i32⟩ : BufTy).Contents (Elt F) → (⟨S_, .f32⟩ : BufTy).Contents (Elt F)) (fin V main_c : (⟨S_, .i32⟩ : BufTy).Contents (Elt F)) :=
  read_unaryT ops_writes 24 _ _ _ rfl V (by decide) (by decide) (fin V main_call0_call0_v7) (fin V main_c) HEq.rfl HEq.rfl
theorem e26 (V : Valuation τ sig (Elt F)) : fin V main_call0_call0_cst_1 = ((constant S_ .f32 0x45800000#32) : (⟨S_, .f32⟩ : BufTy).Contents (Elt F)) :=
  read_nullaryT ops_writes 25 _ _ rfl V (by decide) (fin V main_call0_call0_cst_1) HEq.rfl
theorem e27 (V : Valuation τ sig (Elt F)) : fin V main_call0_call0_v8 = (subf : (⟨S_, .f32⟩ : BufTy).Contents (Elt F) → (⟨S_, .f32⟩ : BufTy).Contents (Elt F) → (⟨S_, .f32⟩ : BufTy).Contents (Elt F)) (fin V main_call0_call0_cst_1 : (⟨S_, .f32⟩ : BufTy).Contents (Elt F)) (fin V main_call0_call0_v7 : (⟨S_, .f32⟩ : BufTy).Contents (Elt F)) :=
  read_binaryT ops_writes 26 _ _ _ _ rfl V (by decide) (by decide) (by decide) (fin V main_call0_call0_v8) (fin V main_call0_call0_cst_1) (fin V main_call0_call0_v7) HEq.rfl HEq.rfl HEq.rfl
theorem e28 (V : Valuation τ sig (Elt F)) : fin V main_call0_call0_cst_2 = ((constant S_ .f32 0x00000000#32) : (⟨S_, .f32⟩ : BufTy).Contents (Elt F)) :=
  read_nullaryT ops_writes 27 _ _ rfl V (by decide) (fin V main_call0_call0_cst_2) HEq.rfl
theorem e29 (V : Valuation τ sig (Elt F)) : fin V main_call0_call0_v9 = ((fun x v => Host.reduceAdd x v reducesTo_S4096x4096x2_S4096x2_d1 h_S_) : (⟨S4096x4096x2, .f32⟩ : BufTy).Contents (Elt F) → (⟨S_, .f32⟩ : BufTy).Contents (Elt F) → (⟨S4096x2, .f32⟩ : BufTy).Contents (Elt F)) (fin V main_call0_call0_v6 : (⟨S4096x4096x2, .f32⟩ : BufTy).Contents (Elt F)) (fin V main_call0_call0_cst_2 : (⟨S_, .f32⟩ : BufTy).Contents (Elt F)) :=
  read_binaryT ops_writes 28 _ _ _ _ rfl V (by decide) (by decide) (by decide) (fin V main_call0_call0_v9) (fin V main_call0_call0_v6) (fin V main_call0_call0_cst_2) HEq.rfl HEq.rfl HEq.rfl
theorem e30 (V : Valuation τ sig (Elt F)) : fin V main_call0_call0_v10 = ((broadcastInDim S4096x2 ![] bcast_S_S4096x2) : (⟨S_, .f32⟩ : BufTy).Contents (Elt F) → (⟨S4096x2, .f32⟩ : BufTy).Contents (Elt F)) (fin V main_call0_call0_v8 : (⟨S_, .f32⟩ : BufTy).Contents (Elt F)) :=
  read_unaryT ops_writes 29 _ _ _ rfl V (by decide) (by decide) (fin V main_call0_call0_v10) (fin V main_call0_call0_v8) HEq.rfl HEq.rfl
theorem e31 (V : Valuation τ sig (Elt F)) : fin V main_call0_call0_v11 = (Host.divf : (⟨S4096x2, .f32⟩ : BufTy).Contents (Elt F) → (⟨S4096x2, .f32⟩ : BufTy).Contents (Elt F) → (⟨S4096x2, .f32⟩ : BufTy).Contents (Elt F)) (fin V main_call0_call0_v9 : (⟨S4096x2, .f32⟩ : BufTy).Contents (Elt F)) (fin V main_call0_call0_v10 : (⟨S4096x2, .f32⟩ : BufTy).Contents (Elt F)) :=
  read_binaryT ops_writes 30 _ _ _ _ rfl V (by decide) (by decide) (by decide) (fin V main_call0_call0_v11) (fin V main_call0_call0_v9) (fin V main_call0_call0_v10) HEq.rfl HEq.rfl HEq.rfl
theorem e32 (V : Valuation τ sig (Elt F)) : fin V main_call0_call0_cst_3 = ((constant S_ .f32 0x00000000#32) : (⟨S_, .f32⟩ : BufTy).Contents (Elt F)) :=
  read_nullaryT ops_writes 31 _ _ rfl V (by decide) (fin V main_call0_call0_cst_3) HEq.rfl
theorem e33 (V : Valuation τ sig (Elt F)) : fin V main_call0_call0_v12 = ((cmpf .ogt) : (⟨S_, .f32⟩ : BufTy).Contents (Elt F) → (⟨S_, .f32⟩ : BufTy).Contents (Elt F) → (⟨S_, .i1⟩ : BufTy).Contents (Elt F)) (fin V main_call0_call0_v8 : (⟨S_, .f32⟩ : BufTy).Contents (Elt F)) (fin V main_call0_call0_cst_3 : (⟨S_, .f32⟩ : BufTy).Contents (Elt F)) :=
  read_binaryT ops_writes 32 _ _ _ _ rfl V (by decide) (by decide) (by decide) (fin V main_call0_call0_v12) (fin V main_call0_call0_v8) (fin V main_call0_call0_cst_3) HEq.rfl HEq.rfl HEq.rfl
theorem e34 (V : Valuation τ sig (Elt F)) : fin V main_call0_call0_cst_4 = ((constant S_ .f32 0x7FC00000#32) : (⟨S_, .f32⟩ : BufTy).Contents (Elt F)) :=
  read_nullaryT ops_writes 33 _ _ rfl V (by decide) (fin V main_call0_call0_cst_4) HEq.rfl
theorem e35 (V : Valuation τ sig (Elt F)) : fin V main_call0_call0_call0_v0 = (id : (⟨S_, .f32⟩ : BufTy).Contents (Elt F) → (⟨S_, .f32⟩ : BufTy).Contents (Elt F)) (fin V main_call0_call0_cst_4 : (⟨S_, .f32⟩ : BufTy).Contents (Elt F)) :=
  read_unaryT ops_writes 34 _ _ _ rfl V (by decide) (by decide) (fin V main_call0_call0_call0_v0) (fin V main_call0_call0_cst_4) HEq.rfl HEq.rfl
theorem e36 (V : Valuation τ sig (Elt F)) : fin V main_call0_call0_call0_v1 = ((broadcastInDim S4096x2 ![] bcast_S_S4096x2) : (⟨S_, .f32⟩ : BufTy).Contents (Elt F) → (⟨S4096x2, .f32⟩ : BufTy).Contents (Elt F)) (fin V main_call0_call0_call0_v0 : (⟨S_, .f32⟩ : BufTy).Contents (Elt F)) :=
  read_unaryT ops_writes 35 _ _ _ rfl V (by decide) (by decide) (fin V main_call0_call0_call0_v1) (fin V main_call0_call0_call0_v0) HEq.rfl HEq.rfl
theorem e37 (V : Valuation τ sig (Elt F)) : fin V main_call0_v0 = ((fun p a b => select (broadcastInDim S4096x2 ![] bcast_S_S4096x2 p) a b) : (⟨S_, .i1⟩ : BufTy).Contents (Elt F) → (⟨S4096x2, .f32⟩ : BufTy).Contents (Elt F) → (⟨S4096x2, .f32⟩ : BufTy).Contents (Elt F) → (⟨S4096x2, .f32⟩ : BufTy).Contents (Elt F)) (fin V main_call0_call0_v12 : (⟨S_, .i1⟩ : BufTy).Contents (Elt F)) (fin V main_call0_call0_v11 : (⟨S4096x2, .f32⟩ : BufTy).Contents (Elt F)) (fin V main_call0_call0_call0_v1 : (⟨S4096x2, .f32⟩ : BufTy).Contents (Elt F)) :=
  read_ternaryT ops_writes 36 _ _ _ _ _ rfl V (by decide) (by decide) (by decide) (by decide) (fin V main_call0_v0) (fin V main_call0_call0_v12) (fin V main_call0_call0_v11) (fin V main_call0_call0_call0_v1) HEq.rfl HEq.rfl HEq.rfl HEq.rfl
theorem e38 (V : Valuation τ sig (Elt F)) : fin V main_v9 = (Host.sqrt : (⟨S4096x2, .f32⟩ : BufTy).Contents (Elt F) → (⟨S4096x2, .f32⟩ : BufTy).Contents (Elt F)) (fin V main_call0_v0 : (⟨S4096x2, .f32⟩ : BufTy).Contents (Elt F)) :=
  read_unaryT ops_writes 37 _ _ _ rfl V (by decide) (by decide) (fin V main_v9) (fin V main_call0_v0) HEq.rfl HEq.rfl
theorem e39 (V : Valuation τ sig (Elt F)) : fin V main_v10 = (broadcastInDim S4096x1x2 ![0, 2] bcast_S4096x2_S4096x1x2_0_2 : (⟨S4096x2, .f32⟩ : BufTy).Contents (Elt F) → (⟨S4096x1x2, .f32⟩ : BufTy).Contents (Elt F)) (fin V main_v8 : (⟨S4096x2, .f32⟩ : BufTy).Contents (Elt F)) :=
  read_unary ops_writes 38 _ _ _ _ _ rfl V (by decide) (by decide)
theorem e40 (V : Valuation τ sig (Elt F)) : fin V main_v11 = (broadcastInDim S4096x4096x2 ![0, 1, 2] bcast_S4096x1x2_S4096x4096x2_0_1_2 : (⟨S4096x1x2, .f32⟩ : BufTy).Contents (Elt F) → (⟨S4096x4096x2, .f32⟩ : BufTy).Contents (Elt F)) (fin V main_v10 : (⟨S4096x1x2, .f32⟩ : BufTy).Contents (Elt F)) :=
  read_unary ops_writes 39 _ _ _ _ _ rfl V (by decide) (by decide)
theorem e41 (V : Valuation τ sig (Elt F)) : fin V main_v12 = (subf : (⟨S4096x4096x2, .f32⟩ : BufTy).Contents (Elt F) → (⟨S4096x4096x2, .f32⟩ : BufTy).Contents (Elt F) → (⟨S4096x4096x2, .f32⟩ : BufTy).Contents (Elt F)) (fin V main_arg0 : (⟨S4096x4096x2, .f32⟩ : BufTy).Contents (Elt F)) (fin V main_v11 : (⟨S4096x4096x2, .f32⟩ : BufTy).Contents (Elt F)) :=
  read_binary ops_writes 40 _ _ _ _ _ _ _ rfl V (by decide) (by decide) (by decide)
theorem e42 (V : Valuation τ sig (Elt F)) : fin V main_call1_v0 = (mulf : (⟨S4096x4096x2, .f32⟩ : BufTy).Contents (Elt F) → (⟨S4096x4096x2, .f32⟩ : BufTy).Contents (Elt F) → (⟨S4096x4096x2, .f32⟩ : BufTy).Contents (Elt F)) (fin V main_v12 : (⟨S4096x4096x2, .f32⟩ : BufTy).Contents (Elt F)) (fin V main_v12 : (⟨S4096x4096x2, .f32⟩ : BufTy).Contents (Elt F)) :=
  read_binaryT ops_writes 41 _ _ _ _ rfl V (by decide) (by decide) (by decide) (fin V main_call1_v0) (fin V main_v12) (fin V main_v12) HEq.rfl HEq.rfl HEq.rfl
theorem e43 (V : Valuation τ sig (Elt F)) : fin V main_call1_cst = ((constant S_ .f32 0x00000000#32) : (⟨S_, .f32⟩ : BufTy).Contents (Elt F)) :=
  read_nullaryT ops_writes 42 _ _ rfl V (by decide) (fin V main_call1_cst) HEq.rfl
theorem e44 (V : Valuation τ sig (Elt F)) : fin V main_call1_v1 = ((fun x v => Host.reduceAdd x v reducesTo_S4096x4096x2_S4096x4096_d2 h_S_) : (⟨S4096x4096x2, .f32⟩ : BufTy).Contents (Elt F) → (⟨S_, .f32⟩ : BufTy).Contents (Elt F) → (⟨S4096x4096, .f32⟩ : BufTy).Contents (Elt F)) (fin V main_call1_v0 : (⟨S4096x4096x2, .f32⟩ : BufTy).Contents (Elt F)) (fin V main_call1_cst : (⟨S_, .f32⟩ : BufTy).Contents (Elt F)) :=
  read_binaryT ops_writes 43 _ _ _ _ rfl V (by decide) (by decide) (by decide) (fin V main_call1_v1) (fin V main_call1_v0) (fin V main_call1_cst) HEq.rfl HEq.rfl HEq.rfl
theorem e45 (V : Valuation τ sig (Elt F)) : fin V main_v13 = (Host.sqrt : (⟨S4096x4096, .f32⟩ : BufTy).Contents (Elt F) → (⟨S4096x4096, .f32⟩ : BufTy).Contents (Elt F)) (fin V main_call1_v1 : (⟨S4096x4096, .f32⟩ : BufTy).Contents (Elt F)) :=
  read_unaryT ops_writes 44 _ _ _ rfl V (by decide) (by decide) (fin V main_v13) (fin V main_call1_v1) HEq.rfl HEq.rfl
theorem e46 (V : Valuation τ sig (Elt F)) : fin V main_cst_4 = ((constant S_ .f32 0x00000000#32) : (⟨S_, .f32⟩ : BufTy).Contents (Elt F)) :=
  read_nullary ops_writes 45 _ _ _ rfl V (by decide)
theorem e47 (V : Valuation τ sig (Elt F)) : fin V main_v14 = ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)) (fin V main_v13 : (⟨S4096x4096, .f32⟩ : BufTy).Contents (Elt F)) (fin V main_cst_4 : (⟨S_, .f32⟩ : BufTy).Contents (Elt F)) :=
  read_binary ops_writes 46 _ _ _ _ _ _ _ rfl V (by decide) (by decide) (by decide)
theorem e48 (V : Valuation τ sig (Elt F)) : fin V main_cst_5 = ((constant S_ .f32 0x45800000#32) : (⟨S_, .f32⟩ : BufTy).Contents (Elt F)) :=
  read_nullary ops_writes 47 _ _ _ rfl V (by decide)
theorem e49 (V : Valuation τ sig (Elt F)) : fin V main_v15 = (broadcastInDim S4096 ![] bcast_S_S4096 : (⟨S_, .f32⟩ : BufTy).Contents (Elt F) → (⟨S4096, .f32⟩ : BufTy).Contents (Elt F)) (fin V main_cst_5 : (⟨S_, .f32⟩ : BufTy).Contents (Elt F)) :=
  read_unary ops_writes 48 _ _ _ _ _ rfl V (by decide) (by decide)
theorem e50 (V : Valuation τ sig (Elt F)) : fin V main_v16 = (Host.divf : (⟨S4096, .f32⟩ : BufTy).Contents (Elt F) → (⟨S4096, .f32⟩ : BufTy).Contents (Elt F) → (⟨S4096, .f32⟩ : BufTy).Contents (Elt F)) (fin V main_v14 : (⟨S4096, .f32⟩ : BufTy).Contents (Elt F)) (fin V main_v15 : (⟨S4096, .f32⟩ : BufTy).Contents (Elt F)) :=
  read_binary ops_writes 49 _ _ _ _ _ _ _ rfl V (by decide) (by decide) (by decide)
theorem e51 (V : Valuation τ sig (Elt F)) : fin V main_c_6 = ((constantI S_ 32 0#32) : (⟨S_, .i32⟩ : BufTy).Contents (Elt F)) :=
  read_nullary ops_writes 50 _ _ _ rfl V (by decide)
theorem e52 (V : Valuation τ sig (Elt F)) : fin V main_call2_call0_cst = ((constant S_ .f32 0x00000000#32) : (⟨S_, .f32⟩ : BufTy).Contents (Elt F)) :=
  read_nullaryT ops_writes 51 _ _ rfl V (by decide) (fin V main_call2_call0_cst) HEq.rfl
theorem e53 (V : Valuation τ sig (Elt F)) : fin V main_call2_call0_v0 = ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)) (fin V main_v13 : (⟨S4096x4096, .f32⟩ : BufTy).Contents (Elt F)) (fin V main_call2_call0_cst : (⟨S_, .f32⟩ : BufTy).Contents (Elt F)) :=
  read_binaryT ops_writes 52 _ _ _ _ rfl V (by decide) (by decide) (by decide) (fin V main_call2_call0_v0) (fin V main_v13) (fin V main_call2_call0_cst) HEq.rfl HEq.rfl HEq.rfl
theorem e54 (V : Valuation τ sig (Elt F)) : fin V main_call2_call0_v1 = ((broadcastInDim S4096x1 ![0] bcast_S4096_S4096x1_0) : (⟨S4096, .f32⟩ : BufTy).Contents (Elt F) → (⟨S4096x1, .f32⟩ : BufTy).Contents (Elt F)) (fin V main_call2_call0_v0 : (⟨S4096, .f32⟩ : BufTy).Contents (Elt F)) :=
  read_unaryT ops_writes 53 _ _ _ rfl V (by decide) (by decide) (fin V main_call2_call0_v1) (fin V main_call2_call0_v0) HEq.rfl HEq.rfl
theorem e55 (V : Valuation τ sig (Elt F)) : fin V main_call2_call0_cst_0 = ((constant S_ .f32 0x45800000#32) : (⟨S_, .f32⟩ : BufTy).Contents (Elt F)) :=
  read_nullaryT ops_writes 54 _ _ rfl V (by decide) (fin V main_call2_call0_cst_0) HEq.rfl
theorem e56 (V : Valuation τ sig (Elt F)) : fin V main_call2_call0_v2 = ((broadcastInDim S4096x1 ![] bcast_S_S4096x1) : (⟨S_, .f32⟩ : BufTy).Contents (Elt F) → (⟨S4096x1, .f32⟩ : BufTy).Contents (Elt F)) (fin V main_call2_call0_cst_0 : (⟨S_, .f32⟩ : BufTy).Contents (Elt F)) :=
  read_unaryT ops_writes 55 _ _ _ rfl V (by decide) (by decide) (fin V main_call2_call0_v2) (fin V main_call2_call0_cst_0) HEq.rfl HEq.rfl
theorem e57 (V : Valuation τ sig (Elt F)) : fin V main_call2_call0_v3 = (Host.divf : (⟨S4096x1, .f32⟩ : BufTy).Contents (Elt F) → (⟨S4096x1, .f32⟩ : BufTy).Contents (Elt F) → (⟨S4096x1, .f32⟩ : BufTy).Contents (Elt F)) (fin V main_call2_call0_v1 : (⟨S4096x1, .f32⟩ : BufTy).Contents (Elt F)) (fin V main_call2_call0_v2 : (⟨S4096x1, .f32⟩ : BufTy).Contents (Elt F)) :=
  read_binaryT ops_writes 56 _ _ _ _ rfl V (by decide) (by decide) (by decide) (fin V main_call2_call0_v3) (fin V main_call2_call0_v1) (fin V main_call2_call0_v2) HEq.rfl HEq.rfl HEq.rfl
theorem e58 (V : Valuation τ sig (Elt F)) : fin V main_call2_call0_v4 = ((broadcastInDim S4096x4096 ![0, 1] bcast_S4096x1_S4096x4096_0_1) : (⟨S4096x1, .f32⟩ : BufTy).Contents (Elt F) → (⟨S4096x4096, .f32⟩ : BufTy).Contents (Elt F)) (fin V main_call2_call0_v3 : (⟨S4096x1, .f32⟩ : BufTy).Contents (Elt F)) :=
  read_unaryT ops_writes 57 _ _ _ rfl V (by decide) (by decide) (fin V main_call2_call0_v4) (fin V main_call2_call0_v3) HEq.rfl HEq.rfl
theorem e59 (V : Valuation τ sig (Elt F)) : fin V main_call2_call0_v5 = (subf : (⟨S4096x4096, .f32⟩ : BufTy).Contents (Elt F) → (⟨S4096x4096, .f32⟩ : BufTy).Contents (Elt F) → (⟨S4096x4096, .f32⟩ : BufTy).Contents (Elt F)) (fin V main_v13 : (⟨S4096x4096, .f32⟩ : BufTy).Contents (Elt F)) (fin V main_call2_call0_v4 : (⟨S4096x4096, .f32⟩ : BufTy).Contents (Elt F)) :=
  read_binaryT ops_writes 58 _ _ _ _ rfl V (by decide) (by decide) (by decide) (fin V main_call2_call0_v5) (fin V main_v13) (fin V main_call2_call0_v4) HEq.rfl HEq.rfl HEq.rfl
theorem e60 (V : Valuation τ sig (Elt F)) : fin V main_call2_call0_v6 = (mulf : (⟨S4096x4096, .f32⟩ : BufTy).Contents (Elt F) → (⟨S4096x4096, .f32⟩ : BufTy).Contents (Elt F) → (⟨S4096x4096, .f32⟩ : BufTy).Contents (Elt F)) (fin V main_call2_call0_v5 : (⟨S4096x4096, .f32⟩ : BufTy).Contents (Elt F)) (fin V main_call2_call0_v5 : (⟨S4096x4096, .f32⟩ : BufTy).Contents (Elt F)) :=
  read_binaryT ops_writes 59 _ _ _ _ rfl V (by decide) (by decide) (by decide) (fin V main_call2_call0_v6) (fin V main_call2_call0_v5) (fin V main_call2_call0_v5) HEq.rfl HEq.rfl HEq.rfl
theorem e61 (V : Valuation τ sig (Elt F)) : fin V main_call2_call0_v7 = ((sitofp .f32) : (⟨S_, .i32⟩ : BufTy).Contents (Elt F) → (⟨S_, .f32⟩ : BufTy).Contents (Elt F)) (fin V main_c_6 : (⟨S_, .i32⟩ : BufTy).Contents (Elt F)) :=
  read_unaryT ops_writes 60 _ _ _ rfl V (by decide) (by decide) (fin V main_call2_call0_v7) (fin V main_c_6) HEq.rfl HEq.rfl
theorem e62 (V : Valuation τ sig (Elt F)) : fin V main_call2_call0_cst_1 = ((constant S_ .f32 0x45800000#32) : (⟨S_, .f32⟩ : BufTy).Contents (Elt F)) :=
  read_nullaryT ops_writes 61 _ _ rfl V (by decide) (fin V main_call2_call0_cst_1) HEq.rfl
theorem e63 (V : Valuation τ sig (Elt F)) : fin V main_call2_call0_v8 = (subf : (⟨S_, .f32⟩ : BufTy).Contents (Elt F) → (⟨S_, .f32⟩ : BufTy).Contents (Elt F) → (⟨S_, .f32⟩ : BufTy).Contents (Elt F)) (fin V main_call2_call0_cst_1 : (⟨S_, .f32⟩ : BufTy).Contents (Elt F)) (fin V main_call2_call0_v7 : (⟨S_, .f32⟩ : BufTy).Contents (Elt F)) :=
  read_binaryT ops_writes 62 _ _ _ _ rfl V (by decide) (by decide) (by decide) (fin V main_call2_call0_v8) (fin V main_call2_call0_cst_1) (fin V main_call2_call0_v7) HEq.rfl HEq.rfl HEq.rfl
theorem e64 (V : Valuation τ sig (Elt F)) : fin V main_call2_call0_cst_2 = ((constant S_ .f32 0x00000000#32) : (⟨S_, .f32⟩ : BufTy).Contents (Elt F)) :=
  read_nullaryT ops_writes 63 _ _ rfl V (by decide) (fin V main_call2_call0_cst_2) HEq.rfl
theorem e65 (V : Valuation τ sig (Elt F)) : fin V main_call2_call0_v9 = ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)) (fin V main_call2_call0_v6 : (⟨S4096x4096, .f32⟩ : BufTy).Contents (Elt F)) (fin V main_call2_call0_cst_2 : (⟨S_, .f32⟩ : BufTy).Contents (Elt F)) :=
  read_binaryT ops_writes 64 _ _ _ _ rfl V (by decide) (by decide) (by decide) (fin V main_call2_call0_v9) (fin V main_call2_call0_v6) (fin V main_call2_call0_cst_2) HEq.rfl HEq.rfl HEq.rfl
theorem e66 (V : Valuation τ sig (Elt F)) : fin V main_call2_call0_v10 = ((broadcastInDim S4096 ![] bcast_S_S4096) : (⟨S_, .f32⟩ : BufTy).Contents (Elt F) → (⟨S4096, .f32⟩ : BufTy).Contents (Elt F)) (fin V main_call2_call0_v8 : (⟨S_, .f32⟩ : BufTy).Contents (Elt F)) :=
  read_unaryT ops_writes 65 _ _ _ rfl V (by decide) (by decide) (fin V main_call2_call0_v10) (fin V main_call2_call0_v8) HEq.rfl HEq.rfl
theorem e67 (V : Valuation τ sig (Elt F)) : fin V main_call2_call0_v11 = (Host.divf : (⟨S4096, .f32⟩ : BufTy).Contents (Elt F) → (⟨S4096, .f32⟩ : BufTy).Contents (Elt F) → (⟨S4096, .f32⟩ : BufTy).Contents (Elt F)) (fin V main_call2_call0_v9 : (⟨S4096, .f32⟩ : BufTy).Contents (Elt F)) (fin V main_call2_call0_v10 : (⟨S4096, .f32⟩ : BufTy).Contents (Elt F)) :=
  read_binaryT ops_writes 66 _ _ _ _ rfl V (by decide) (by decide) (by decide) (fin V main_call2_call0_v11) (fin V main_call2_call0_v9) (fin V main_call2_call0_v10) HEq.rfl HEq.rfl HEq.rfl
theorem e68 (V : Valuation τ sig (Elt F)) : fin V main_call2_call0_cst_3 = ((constant S_ .f32 0x00000000#32) : (⟨S_, .f32⟩ : BufTy).Contents (Elt F)) :=
  read_nullaryT ops_writes 67 _ _ rfl V (by decide) (fin V main_call2_call0_cst_3) HEq.rfl
theorem e69 (V : Valuation τ sig (Elt F)) : fin V main_call2_call0_v12 = ((cmpf .ogt) : (⟨S_, .f32⟩ : BufTy).Contents (Elt F) → (⟨S_, .f32⟩ : BufTy).Contents (Elt F) → (⟨S_, .i1⟩ : BufTy).Contents (Elt F)) (fin V main_call2_call0_v8 : (⟨S_, .f32⟩ : BufTy).Contents (Elt F)) (fin V main_call2_call0_cst_3 : (⟨S_, .f32⟩ : BufTy).Contents (Elt F)) :=
  read_binaryT ops_writes 68 _ _ _ _ rfl V (by decide) (by decide) (by decide) (fin V main_call2_call0_v12) (fin V main_call2_call0_v8) (fin V main_call2_call0_cst_3) HEq.rfl HEq.rfl HEq.rfl
theorem e70 (V : Valuation τ sig (Elt F)) : fin V main_call2_call0_cst_4 = ((constant S_ .f32 0x7FC00000#32) : (⟨S_, .f32⟩ : BufTy).Contents (Elt F)) :=
  read_nullaryT ops_writes 69 _ _ rfl V (by decide) (fin V main_call2_call0_cst_4) HEq.rfl
theorem e71 (V : Valuation τ sig (Elt F)) : fin V main_call2_call0_call0_v0 = (id : (⟨S_, .f32⟩ : BufTy).Contents (Elt F) → (⟨S_, .f32⟩ : BufTy).Contents (Elt F)) (fin V main_call2_call0_cst_4 : (⟨S_, .f32⟩ : BufTy).Contents (Elt F)) :=
  read_unaryT ops_writes 70 _ _ _ rfl V (by decide) (by decide) (fin V main_call2_call0_call0_v0) (fin V main_call2_call0_cst_4) HEq.rfl HEq.rfl
theorem e72 (V : Valuation τ sig (Elt F)) : fin V main_call2_call0_call0_v1 = ((broadcastInDim S4096 ![] bcast_S_S4096) : (⟨S_, .f32⟩ : BufTy).Contents (Elt F) → (⟨S4096, .f32⟩ : BufTy).Contents (Elt F)) (fin V main_call2_call0_call0_v0 : (⟨S_, .f32⟩ : BufTy).Contents (Elt F)) :=
  read_unaryT ops_writes 71 _ _ _ rfl V (by decide) (by decide) (fin V main_call2_call0_call0_v1) (fin V main_call2_call0_call0_v0) HEq.rfl HEq.rfl
theorem e73 (V : Valuation τ sig (Elt F)) : fin V main_call2_v0 = ((fun p a b => select (broadcastInDim S4096 ![] bcast_S_S4096 p) a b) : (⟨S_, .i1⟩ : BufTy).Contents (Elt F) → (⟨S4096, .f32⟩ : BufTy).Contents (Elt F) → (⟨S4096, .f32⟩ : BufTy).Contents (Elt F) → (⟨S4096, .f32⟩ : BufTy).Contents (Elt F)) (fin V main_call2_call0_v12 : (⟨S_, .i1⟩ : BufTy).Contents (Elt F)) (fin V main_call2_call0_v11 : (⟨S4096, .f32⟩ : BufTy).Contents (Elt F)) (fin V main_call2_call0_call0_v1 : (⟨S4096, .f32⟩ : BufTy).Contents (Elt F)) :=
  read_ternaryT ops_writes 72 _ _ _ _ _ rfl V (by decide) (by decide) (by decide) (by decide) (fin V main_call2_v0) (fin V main_call2_call0_v12) (fin V main_call2_call0_v11) (fin V main_call2_call0_call0_v1) HEq.rfl HEq.rfl HEq.rfl HEq.rfl
theorem e74 (V : Valuation τ sig (Elt F)) : fin V main_v17 = (Host.sqrt : (⟨S4096, .f32⟩ : BufTy).Contents (Elt F) → (⟨S4096, .f32⟩ : BufTy).Contents (Elt F)) (fin V main_call2_v0 : (⟨S4096, .f32⟩ : BufTy).Contents (Elt F)) :=
  read_unaryT ops_writes 73 _ _ _ rfl V (by decide) (by decide) (fin V main_v17) (fin V main_call2_v0) HEq.rfl HEq.rfl
theorem e75 (V : Valuation τ sig (Elt F)) : fin V main_v18 = (broadcastInDim S4096x1 ![0] bcast_S4096_S4096x1_0 : (⟨S4096, .f32⟩ : BufTy).Contents (Elt F) → (⟨S4096x1, .f32⟩ : BufTy).Contents (Elt F)) (fin V main_v16 : (⟨S4096, .f32⟩ : BufTy).Contents (Elt F)) :=
  read_unary ops_writes 74 _ _ _ _ _ rfl V (by decide) (by decide)
theorem e76 (V : Valuation τ sig (Elt F)) : fin V main_v19 = (broadcastInDim S4096x1 ![0] bcast_S4096_S4096x1_0 : (⟨S4096, .f32⟩ : BufTy).Contents (Elt F) → (⟨S4096x1, .f32⟩ : BufTy).Contents (Elt F)) (fin V main_v17 : (⟨S4096, .f32⟩ : BufTy).Contents (Elt F)) :=
  read_unary ops_writes 75 _ _ _ _ _ rfl V (by decide) (by decide)
theorem e77 (V : Valuation τ sig (Elt F)) : fin V main_v20 = (concatenate S4096x10 1 [⟨S4096x2, (fin V main_v4 : (⟨S4096x2, .f32⟩ : BufTy).Contents (Elt F))⟩, ⟨S4096x2, (fin V main_v5 : (⟨S4096x2, .f32⟩ : BufTy).Contents (Elt F))⟩, ⟨S4096x2, (fin V main_v8 : (⟨S4096x2, .f32⟩ : BufTy).Contents (Elt F))⟩, ⟨S4096x2, (fin V main_v9 : (⟨S4096x2, .f32⟩ : BufTy).Contents (Elt F))⟩, ⟨S4096x1, (fin V main_v18 : (⟨S4096x1, .f32⟩ : BufTy).Contents (Elt F))⟩, ⟨S4096x1, (fin V main_v19 : (⟨S4096x1, .f32⟩ : BufTy).Contents (Elt F))⟩] concatenates_S4096x2_S4096x2_S4096x2_S4096x2_S4096x1_S4096x1_S4096x10_d1 : (⟨S4096x10, .f32⟩ : BufTy).Contents (Elt F)) :=
  read_nary ops_writes 76 _ _ _ _ _ rfl V (by decide) (by decide)
theorem e78 (V : Valuation τ sig (Elt F)) : fin V main_v21 = ((fun l r => Host.dotGeneral dot_S4096x10_S10x64_S4096x64_1_0_0_1_n_n none l r) : (⟨S4096x10, .f32⟩ : BufTy).Contents (Elt F) → (⟨S10x64, .f32⟩ : BufTy).Contents (Elt F) → (⟨S4096x64, .f32⟩ : BufTy).Contents (Elt F)) (fin V main_v20 : (⟨S4096x10, .f32⟩ : BufTy).Contents (Elt F)) (fin V main_arg1 : (⟨S10x64, .f32⟩ : BufTy).Contents (Elt F)) :=
  read_binary ops_writes 77 _ _ _ _ _ _ _ rfl V (by decide) (by decide) (by decide)
theorem e79 (V : Valuation τ sig (Elt F)) : fin V main_v22 = (broadcastInDim S1x64 ![1] bcast_S64_S1x64_1 : (⟨S64, .f32⟩ : BufTy).Contents (Elt F) → (⟨S1x64, .f32⟩ : BufTy).Contents (Elt F)) (fin V main_arg2 : (⟨S64, .f32⟩ : BufTy).Contents (Elt F)) :=
  read_unary ops_writes 78 _ _ _ _ _ rfl V (by decide) (by decide)
theorem e80 (V : Valuation τ sig (Elt F)) : fin V main_v23 = (broadcastInDim S4096x64 ![0, 1] bcast_S1x64_S4096x64_0_1 : (⟨S1x64, .f32⟩ : BufTy).Contents (Elt F) → (⟨S4096x64, .f32⟩ : BufTy).Contents (Elt F)) (fin V main_v22 : (⟨S1x64, .f32⟩ : BufTy).Contents (Elt F)) :=
  read_unary ops_writes 79 _ _ _ _ _ rfl V (by decide) (by decide)
theorem e81 (V : Valuation τ sig (Elt F)) : fin V main_v24 = (addf : (⟨S4096x64, .f32⟩ : BufTy).Contents (Elt F) → (⟨S4096x64, .f32⟩ : BufTy).Contents (Elt F) → (⟨S4096x64, .f32⟩ : BufTy).Contents (Elt F)) (fin V main_v21 : (⟨S4096x64, .f32⟩ : BufTy).Contents (Elt F)) (fin V main_v23 : (⟨S4096x64, .f32⟩ : BufTy).Contents (Elt F)) :=
  read_binary ops_writes 80 _ _ _ _ _ _ _ rfl V (by decide) (by decide) (by decide)
theorem e82 (V : Valuation τ sig (Elt F)) : fin V main_call3_cst = ((constant S_ .f32 0x00000000#32) : (⟨S_, .f32⟩ : BufTy).Contents (Elt F)) :=
  read_nullaryT ops_writes 81 _ _ rfl V (by decide) (fin V main_call3_cst) HEq.rfl
theorem e83 (V : Valuation τ sig (Elt F)) : fin V main_call3_v0 = ((broadcastInDim S4096x64 ![] bcast_S_S4096x64) : (⟨S_, .f32⟩ : BufTy).Contents (Elt F) → (⟨S4096x64, .f32⟩ : BufTy).Contents (Elt F)) (fin V main_call3_cst : (⟨S_, .f32⟩ : BufTy).Contents (Elt F)) :=
  read_unaryT ops_writes 82 _ _ _ rfl V (by decide) (by decide) (fin V main_call3_v0) (fin V main_call3_cst) HEq.rfl HEq.rfl
theorem e84 (V : Valuation τ sig (Elt F)) : fin V main_v25 = (maximumf : (⟨S4096x64, .f32⟩ : BufTy).Contents (Elt F) → (⟨S4096x64, .f32⟩ : BufTy).Contents (Elt F) → (⟨S4096x64, .f32⟩ : BufTy).Contents (Elt F)) (fin V main_v24 : (⟨S4096x64, .f32⟩ : BufTy).Contents (Elt F)) (fin V main_call3_v0 : (⟨S4096x64, .f32⟩ : BufTy).Contents (Elt F)) :=
  read_binaryT ops_writes 83 _ _ _ _ rfl V (by decide) (by decide) (by decide) (fin V main_v25) (fin V main_v24) (fin V main_call3_v0) HEq.rfl HEq.rfl HEq.rfl
theorem e85 (V : Valuation τ sig (Elt F)) : fin V main_v26 = ((fun l r => Host.dotGeneral dot_S4096x64_S64x32_S4096x32_1_0_0_1_n_n none l r) : (⟨S4096x64, .f32⟩ : BufTy).Contents (Elt F) → (⟨S64x32, .f32⟩ : BufTy).Contents (Elt F) → (⟨S4096x32, .f32⟩ : BufTy).Contents (Elt F)) (fin V main_v25 : (⟨S4096x64, .f32⟩ : BufTy).Contents (Elt F)) (fin V main_arg3 : (⟨S64x32, .f32⟩ : BufTy).Contents (Elt F)) :=
  read_binary ops_writes 84 _ _ _ _ _ _ _ rfl V (by decide) (by decide) (by decide)
theorem e86 (V : Valuation τ sig (Elt F)) : fin V main_v27 = (broadcastInDim S1x32 ![1] bcast_S32_S1x32_1 : (⟨S32, .f32⟩ : BufTy).Contents (Elt F) → (⟨S1x32, .f32⟩ : BufTy).Contents (Elt F)) (fin V main_arg4 : (⟨S32, .f32⟩ : BufTy).Contents (Elt F)) :=
  read_unary ops_writes 85 _ _ _ _ _ rfl V (by decide) (by decide)
theorem e87 (V : Valuation τ sig (Elt F)) : fin V main_v28 = (broadcastInDim S4096x32 ![0, 1] bcast_S1x32_S4096x32_0_1 : (⟨S1x32, .f32⟩ : BufTy).Contents (Elt F) → (⟨S4096x32, .f32⟩ : BufTy).Contents (Elt F)) (fin V main_v27 : (⟨S1x32, .f32⟩ : BufTy).Contents (Elt F)) :=
  read_unary ops_writes 86 _ _ _ _ _ rfl V (by decide) (by decide)
theorem e88 (V : Valuation τ sig (Elt F)) : fin V main_v29 = (addf : (⟨S4096x32, .f32⟩ : BufTy).Contents (Elt F) → (⟨S4096x32, .f32⟩ : BufTy).Contents (Elt F) → (⟨S4096x32, .f32⟩ : BufTy).Contents (Elt F)) (fin V main_v26 : (⟨S4096x32, .f32⟩ : BufTy).Contents (Elt F)) (fin V main_v28 : (⟨S4096x32, .f32⟩ : BufTy).Contents (Elt F)) :=
  read_binary ops_writes 87 _ _ _ _ _ _ _ rfl V (by decide) (by decide) (by decide)
theorem e89 (V : Valuation τ sig (Elt F)) : fin V main_call4_cst = ((constant S_ .f32 0x00000000#32) : (⟨S_, .f32⟩ : BufTy).Contents (Elt F)) :=
  read_nullaryT ops_writes 88 _ _ rfl V (by decide) (fin V main_call4_cst) HEq.rfl
theorem e90 (V : Valuation τ sig (Elt F)) : fin V main_call4_v0 = ((broadcastInDim S4096x32 ![] bcast_S_S4096x32) : (⟨S_, .f32⟩ : BufTy).Contents (Elt F) → (⟨S4096x32, .f32⟩ : BufTy).Contents (Elt F)) (fin V main_call4_cst : (⟨S_, .f32⟩ : BufTy).Contents (Elt F)) :=
  read_unaryT ops_writes 89 _ _ _ rfl V (by decide) (by decide) (fin V main_call4_v0) (fin V main_call4_cst) HEq.rfl HEq.rfl
theorem e91 (V : Valuation τ sig (Elt F)) : fin V main_v30 = (maximumf : (⟨S4096x32, .f32⟩ : BufTy).Contents (Elt F) → (⟨S4096x32, .f32⟩ : BufTy).Contents (Elt F) → (⟨S4096x32, .f32⟩ : BufTy).Contents (Elt F)) (fin V main_v29 : (⟨S4096x32, .f32⟩ : BufTy).Contents (Elt F)) (fin V main_call4_v0 : (⟨S4096x32, .f32⟩ : BufTy).Contents (Elt F)) :=
  read_binaryT ops_writes 90 _ _ _ _ rfl V (by decide) (by decide) (by decide) (fin V main_v30) (fin V main_v29) (fin V main_call4_v0) HEq.rfl HEq.rfl HEq.rfl

/-- An argument buffer is written by no operation: the line leaves it as it was. -/
theorem arg0_eq (V : Valuation τ sig (Elt F)) : fin V main_arg0 = V (Proc.devRef .tc main_arg0) :=
  after_of_not_mem_writesOnly ops_writes V main_arg0 (by decide)
theorem arg1_eq (V : Valuation τ sig (Elt F)) : fin V main_arg1 = V (Proc.devRef .tc main_arg1) :=
  after_of_not_mem_writesOnly ops_writes V main_arg1 (by decide)
theorem arg2_eq (V : Valuation τ sig (Elt F)) : fin V main_arg2 = V (Proc.devRef .tc main_arg2) :=
  after_of_not_mem_writesOnly ops_writes V main_arg2 (by decide)
theorem arg3_eq (V : Valuation τ sig (Elt F)) : fin V main_arg3 = V (Proc.devRef .tc main_arg3) :=
  after_of_not_mem_writesOnly ops_writes V main_arg3 (by decide)
theorem arg4_eq (V : Valuation τ sig (Elt F)) : fin V main_arg4 = V (Proc.devRef .tc main_arg4) :=
  after_of_not_mem_writesOnly ops_writes V main_arg4 (by decide)

end Cert.ReferenceIdeal.RefRun

end
-- ==== Proof.RefRun.lean ====
/-
  The reference program's run: what its result buffer holds at the end, as the stage-by-stage value of its arguments.

  The operation-by-operation equations of the final contents are composed along the program: the bounding box's centre
  and size, the centroid, the per-axis standard deviation (through the variance routine's own sum, deviations, divisor
  and selection), the distances to the centroid, their mean and standard deviation, the ten columns side by side, and the
  two dense layers. The pieces of the side-by-side array are replaced through a congruence statement of their own, since
  the evidence that the pieces fit the joined shape is stated over the list that holds them. The run itself is the
  library's statement for a straight line of host operations: every weakly fair execution terminates with every buffer
  at what the line leaves there.
-/
import proofs.«118876_j5540507811898_2_alg».proof.Proof.RefRunRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Six pieces joined along an axis: equal pieces give equal joined arrays. -/
theorem concat6_congr {α : Type} (t : Shape) (a : Fin t.rank) (s0 s1 s2 s3 s4 s5 : Shape)
    (h : Shape.Concatenates [s0, s1, s2, s3, s4, s5] t a)
    {x0 y0 : s0.Idx → α} {x1 y1 : s1.Idx → α} {x2 y2 : s2.Idx → α} {x3 y3 : s3.Idx → α} {x4 y4 : s4.Idx → α} {x5 y5 : s5.Idx → α}
    (e0 : x0 = y0) (e1 : x1 = y1) (e2 : x2 = y2) (e3 : x3 = y3) (e4 : x4 = y4) (e5 : x5 = y5) :
    concatenate t a [⟨s0, x0⟩, ⟨s1, x1⟩, ⟨s2, x2⟩, ⟨s3, x3⟩, ⟨s4, x4⟩, ⟨s5, x5⟩] h
      = concatenate t a [⟨s0, y0⟩, ⟨s1, y1⟩, ⟨s2, y2⟩, ⟨s3, y3⟩, ⟨s4, y4⟩, ⟨s5, y5⟩] h := by
  subst e0 e1 e2 e3 e4 e5; rfl

/-- The least value per sample and coordinate. -/
theorem min_eq (V : Valuation τ sig (Elt F)) : fin V main_v0 = RefVal.vMin (V (Proc.devRef .tc main_arg0)) := by
  simp only [e2, e1, arg0_eq] <;> rfl

/-- The greatest value per sample and coordinate. -/
theorem max_eq (V : Valuation τ sig (Elt F)) : fin V main_v1 = RefVal.vMax (V (Proc.devRef .tc main_arg0)) := by
  simp only [e4, e3, arg0_eq] <;> rfl

/-- The bounding box's centre. -/
theorem center_eq (V : Valuation τ sig (Elt F)) : fin V main_v4 = RefVal.vCenter (V (Proc.devRef .tc main_arg0)) := by
  simp only [e8, e7, e6, e5, min_eq, max_eq] <;> rfl

/-- The bounding box's size. -/
theorem size_eq (V : Valuation τ sig (Elt F)) : fin V main_v5 = RefVal.vSize (V (Proc.devRef .tc main_arg0)) := by
  simp only [e9, min_eq, max_eq] <;> rfl

/-- The sum over the points. -/
theorem sum_eq (V : Valuation τ sig (Elt F)) : fin V main_v6 = RefVal.vSum (V (Proc.devRef .tc main_arg0)) := by
  simp only [e11, e10, arg0_eq] <;> rfl

/-- The centroid. -/
theorem mean_eq (V : Valuation τ sig (Elt F)) : fin V main_v8 = RefVal.vMean (V (Proc.devRef .tc main_arg0)) := by
  simp only [e14, e13, e12, sum_eq] <;> rfl

/-- The first variance's divisor. -/
theorem count_eq (V : Valuation τ sig (Elt F)) : fin V main_call0_call0_v8 = RefVal.vCount (F := F) := by
  simp only [e27, e26, e25, e15] <;> rfl

/-- Whether the first variance's divisor is positive. -/
theorem countPos_eq (V : Valuation τ sig (Elt F)) : fin V main_call0_call0_v12 = RefVal.vCountPos (F := F) := by
  simp only [e33, e32, count_eq] <;> rfl

/-- The sum over the points, as the first variance computes it again. -/
theorem sum'_eq (V : Valuation τ sig (Elt F)) : fin V main_call0_call0_v0 = RefVal.vSum (V (Proc.devRef .tc main_arg0)) := by
  simp only [e17, e16, arg0_eq] <;> rfl

/-- The deviations from the mean inside the first variance. -/
theorem dev_eq (V : Valuation τ sig (Elt F)) : fin V main_call0_call0_v5 = RefVal.vDev (V (Proc.devRef .tc main_arg0)) := by
  simp only [e23, e22, e21, e20, e19, e18, sum'_eq, arg0_eq] <;> rfl

/-- The variance per sample and coordinate. -/
theorem var_eq (V : Valuation τ sig (Elt F)) : fin V main_call0_v0 = RefVal.vVar (V (Proc.devRef .tc main_arg0)) := by
  simp only [e37, e36, e35, e34, e31, e30, e29, e28, e24, dev_eq, count_eq, countPos_eq] <;> rfl

/-- The standard deviation per sample and coordinate. -/
theorem std_eq (V : Valuation τ sig (Elt F)) : fin V main_v9 = RefVal.vStd (V (Proc.devRef .tc main_arg0)) := by
  simp only [e38, var_eq] <;> rfl

/-- Each point less its sample's centroid. -/
theorem diff_eq (V : Valuation τ sig (Elt F)) : fin V main_v12 = RefVal.vDiff (V (Proc.devRef .tc main_arg0)) := by
  simp only [e41, e40, e39, mean_eq, arg0_eq] <;> rfl

/-- Each point's distance to its sample's centroid. -/
theorem dist_eq (V : Valuation τ sig (Elt F)) : fin V main_v13 = RefVal.vDist (V (Proc.devRef .tc main_arg0)) := by
  simp only [e45, e44, e43, e42, diff_eq] <;> rfl

/-- The mean distance per sample. -/
theorem rmean_eq (V : Valuation τ sig (Elt F)) : fin V main_v16 = RefVal.rMean (RefVal.vDist (V (Proc.devRef .tc main_arg0))) := by
  simp only [e50, e49, e48, e47, e46, dist_eq] <;> rfl

/-- The second variance's divisor. -/
theorem count2_eq (V : Valuation τ sig (Elt F)) : fin V main_call2_call0_v8 = RefVal.vCount (F := F) := by
  simp only [e63, e62, e61, e51] <;> rfl

/-- Whether the second variance's divisor is positive. -/
theorem countPos2_eq (V : Valuation τ sig (Elt F)) : fin V main_call2_call0_v12 = RefVal.vCountPos (F := F) := by
  simp only [e69, e68, count2_eq] <;> rfl

/-- The deviations from the mean distance inside the second variance. -/
theorem rdev_eq (V : Valuation τ sig (Elt F)) : fin V main_call2_call0_v5 = RefVal.rDev (RefVal.vDist (V (Proc.devRef .tc main_arg0))) := by
  simp only [e59, e58, e57, e56, e55, e54, e53, e52, dist_eq] <;> rfl

/-- The variance of the distances per sample. -/
theorem rvar_eq (V : Valuation τ sig (Elt F)) : fin V main_call2_v0 = RefVal.rVar (RefVal.vDist (V (Proc.devRef .tc main_arg0))) := by
  simp only [e73, e72, e71, e70, e67, e66, e65, e64, e60, rdev_eq, count2_eq, countPos2_eq] <;> rfl

/-- The mean distance as a column. -/
theorem col8_eq (V : Valuation τ sig (Elt F)) : fin V main_v18 = broadcastInDim S4096x1 ![0] bcast_S4096_S4096x1_0 (RefVal.rMean (RefVal.vDist (V (Proc.devRef .tc main_arg0)))) := by
  simp only [e75, rmean_eq] <;> rfl

/-- The distances' standard deviation as a column. -/
theorem col9_eq (V : Valuation τ sig (Elt F)) : fin V main_v19 = broadcastInDim S4096x1 ![0] bcast_S4096_S4096x1_0 (Host.sqrt (RefVal.rVar (RefVal.vDist (V (Proc.devRef .tc main_arg0))))) := by
  simp only [e76, e74, rvar_eq] <;> rfl

/-- The ten numbers of every sample, side by side. -/
theorem geo_eq (V : Valuation τ sig (Elt F)) : fin V main_v20 = RefVal.vGeo (V (Proc.devRef .tc main_arg0)) :=
  (e77 V).trans (concat6_congr _ _ _ _ _ _ _ _ _ (center_eq V) (size_eq V) (mean_eq V) (std_eq V) (col8_eq V) (col9_eq V))

/-- The first dense layer. -/
theorem hidden_eq (V : Valuation τ sig (Elt F)) : fin V main_v25 = RefVal.vHidden (RefVal.vGeo (V (Proc.devRef .tc main_arg0))) (V (Proc.devRef .tc main_arg1)) (V (Proc.devRef .tc main_arg2)) := by
  simp only [e84, e83, e82, e81, e80, e79, e78, geo_eq, arg1_eq, arg2_eq] <;> rfl

/-- The result. -/
theorem out_eq (V : Valuation τ sig (Elt F)) : fin V main_v30 = RefVal.vOut (V (Proc.devRef .tc main_arg0)) (V (Proc.devRef .tc main_arg1)) (V (Proc.devRef .tc main_arg2)) (V (Proc.devRef .tc main_arg3)) (V (Proc.devRef .tc main_arg4)) := by
  simp only [e91, e90, e89, e88, e87, e86, e85, hidden_eq, arg3_eq, arg4_eq] <;> rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., nullary_bufs_sub .., binary_bufs_sub .., binary_bufs_sub .., nullary_bufs_sub ..,
    unary_bufs_sub .., binary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., unary_bufs_sub .., binary_bufs_sub .., binary_bufs_sub ..,
    nullary_bufs_sub .., binary_bufs_sub .., unary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., unary_bufs_sub .., nary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub ..⟩

/-- On every device, for any float values, from any memory with zero counters: every weakly fair execution of the
    reference terminates with its result buffer at the stage-by-stage value of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30)
          = RefVal.vOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v30).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_seq scopedRefs_eq scopedSems_eq defs main (fun _ => ops) main_eq (fun _ => ops_sub) m ρ)

end Cert.ReferenceIdeal.RefRun

end
-- ==== Proof.LibRegionBlockSpread.lean ====
/-
  Keep-dimension columns and rows spread by the host over a matrix, read at an index.

  After a reduction along the rows of an `[a, b]` array the host keeps the result as an `[a, 1]` column and spreads it
  back over the `b` columns, both with `broadcast_in_dim`; a bias is an `[1, b]` row spread over the `a` rows.  Read at
  `(p, q)`, each of these is the value of the row `p`, or of the column `q`, alone:

    * an `[a]` array spread in dimension 0 to an `[a, 1]` column reads at `(p, z)` the array at `p`;
    * an `[a, 1]` column spread in dimensions (0, 1) over `[a, b]` reads at `(p, q)` the column at `(p, 0)`;
    * a `[1, b]` row spread in dimensions (0, 1) over `[a, b]` reads at `(p, q)` the row at `(0, q)`.

  The square root, which a kernel and the host apply entry by entry, is read at an index by definition.
-/
import Idealize.ShloMosaic.PureOps.Ideal
import Idealize.ShloMosaic.Lib.ValueIdx
import Idealize.ShloMosaic.Lib.Pipeline.Value

noncomputable section

namespace Idealize.ShloMosaic.KeepDims

open Idealize.ShloMosaic Idealize.ShloMosaic.ValueIdx

/-! ## The square root at an index -/

section Pointwise
variable {s : Shape} {φ : FTy}

/-- A kernel's square root at an index is the square root of the entry. -/
theorem sqrt_apply (a : FVec Ideal s φ) (i : s.Idx) : sqrt a i = Ideal.sqrt (a i) := rfl
/-- The host's square root at an index is the same function of the entry. -/
theorem hostSqrt_apply (a : FVec Ideal s φ) (i : s.Idx) : Host.sqrt a i = Ideal.sqrt (a i) := rfl

end Pointwise

/-! ## Columns and rows spread over a matrix -/

section Layout
variable {α : Type}

/-- An `[a]` array spread in dimension 0 to an `[a, 1]` column reads, at `(p, z)`, the array at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) :=
  broadcastInDim_apply ![0] h x (ix2 p z) (ix1 p) fun ax => by
    match ax with
    | ⟨0, _⟩ =>
      show p.val = if a = 1 then 0 else p.val
      split
      · have := p.isLt; omega
      · rfl

/-- An `[a, 1]` column spread in dimensions (0, 1) over `[a, b]` reads, at `(p, q)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply ![0, 1] h x (ix2 p q) (ix2 p (0 : Fin 1)) fun ax => by
    match ax with
    | ⟨0, _⟩ =>
      show p.val = if a = 1 then 0 else p.val
      split
      · have := p.isLt; omega
      · rfl
    | ⟨1, _⟩ => rfl

/-- A `[1, b]` row spread in dimensions (0, 1) over `[a, b]` reads, at `(p, q)`, the row at `(0, q)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply ![0, 1] h x (ix2 p q) (ix2 (0 : Fin 1) q) fun ax => by
    match ax with
    | ⟨0, _⟩ => rfl
    | ⟨1, _⟩ =>
      show q.val = if b = 1 then 0 else q.val
      split
      · have := q.isLt; omega
      · rfl

end Layout

end Idealize.ShloMosaic.KeepDims

end
-- ==== Proof.LibHostRank3.lean ====
/-
  The host's reductions and keep-dimension spreads of a rank-3 array read at an index, and division by 4096.

  General lemmas at the ideal values (a float an extended real); no program's terms appear. They rest on the
  library alone (its single-axis reading of a host reduce as a fold or a sum, its `broadcast_in_dim` read at an
  index, its division at a real divisor that is not zero) and on Mathlib.

  REDUCTIONS. A reduction of an `[a, b, c]` array over its middle axis leaves one value per pair `(p, e)`; the source
  indices that reduce to it are `(p, k, e)` for `k : Fin b` (`lift_mid`). Over its last axis it leaves one value per
  pair `(p, k)`, from the source indices `(p, k, e)` for `e : Fin c` (`lift_last`). So, read at an index,

    * the host's `reduce` with a minimum body over the middle axis is the fold of `min` from the initial value over
      `k ↦ x (p, k, e)` (`hostReduce_minimumf_mid`), and with a maximum body the fold of `max`
      (`hostReduce_maximumf_mid`);
    * the host's float sum over the middle axis is the initial value plus `∑ k, x (p, k, e)` (`hostReduceAdd_mid`),
      and over the last axis the initial value plus `∑ e, x (p, k, e)` (`hostReduceAdd_last`).

  SPREADS. An `[a, c]` array spread in dimensions (0, 2) to `[a, 1, c]` reads at `(p, z, e)` the array at `(p, e)`
  (`broadcastInDim_ac_a1c_apply`); an `[a, 1, c]` array spread in dimensions (0, 1, 2) over `[a, b, c]` reads at
  `(p, k, e)` the array at `(p, 0, e)` (`broadcastInDim_a1c_abc_apply`). Together they are what a sum that keeps its
  reduced middle axis, spread back over that axis, reads at an index.

  THE DIVISOR 4096. The f32 word `0x45800000` denotes the real 4096 (sign 0, exponent 139 = 127 + 12, significand 0:
  `ofBits_4096`), so a quotient by it is the product with the real 1/4096 for EVERY extended real dividend, the
  infinities included (`div_4096`). The count a variance routine divides by, "4096 less the integer 0 read as a
  float", is 4096 (`count_eq`), and the comparison "4096 is above the float word zero" is the bit 1
  (`count_pos_bit`), so a select on that bit keeps its first branch.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.HostRank3

open Idealize.ShloMosaic Idealize.ShloMosaic.ValueIdx

/-! ## The source index over a reduced index -/

/-- Over `(p, e)`, with coordinate `k` on the reduced middle axis, the source index is `(p, k, e)`. -/
theorem lift_mid {a b c : ℕ} (h : (⟨3, ![a, b, c]⟩ : Shape).Reduces [1] ⟨2, ![a, c]⟩) (p : Fin a) (e : Fin c)
    (k : Fin b) : h.lift (ix2 p e) k = ix3 p k e := by
  funext d
  apply Fin.ext
  refine (h.lift_val (ix2 p e) k d).trans ?_
  match d with
  | ⟨0, _⟩ => rfl
  | ⟨1, _⟩ => rfl
  | ⟨2, _⟩ => rfl

/-- Over `(p, k)`, with coordinate `e` on the reduced last axis, the source index is `(p, k, e)`. -/
theorem lift_last {a b c : ℕ} (h : (⟨3, ![a, b, c]⟩ : Shape).Reduces [2] ⟨2, ![a, b]⟩) (p : Fin a) (k : Fin b)
    (e : Fin c) : h.lift (ix2 p k) e = ix3 p k e := by
  funext d
  apply Fin.ext
  refine (h.lift_val (ix2 p k) e d).trans ?_
  match d with
  | ⟨0, _⟩ => rfl
  | ⟨1, _⟩ => rfl
  | ⟨2, _⟩ => rfl

/-! ## The host's reductions over the middle and the last axis -/

/-- The host's `reduce` with a minimum body over the middle axis, at `(p, e)`. -/
theorem hostReduce_minimumf_mid {a b c : ℕ} {φ : FTy} {u : Shape} (x : FVec Ideal ⟨3, ![a, b, c]⟩ φ)
    (init : u.Idx → Ideal φ) (h' : (⟨3, ![a, b, c]⟩ : Shape).ReducesTo [1] ⟨2, ![a, c]⟩)
    (h : (⟨3, ![a, b, c]⟩ : Shape).Reduces [1] ⟨2, ![a, c]⟩) (hu : 0 < u.numel) (p : Fin a) (e : Fin c) :
    Host.reduce (FloatOps.minimumf (F := Ideal) (φ := φ)) x init h' hu (ix2 p e)
      = (Finset.univ : Finset (Fin b)).fold min (init (Shape.Idx.first hu)) (fun k => x (ix3 p k e)) := by
  refine (Host.reduce_eq_fold_single (FloatOps.minimumf (F := Ideal) (φ := φ)) x init h' h hu (ix2 p e)).trans ?_
  exact congrArg (fun f => (Finset.univ : Finset (Fin b)).fold min (init (Shape.Idx.first hu)) f)
    (funext fun k => congrArg x (lift_mid h p e k))

/-- The host's `reduce` with a maximum body over the middle axis, at `(p, e)`. -/
theorem hostReduce_maximumf_mid {a b c : ℕ} {φ : FTy} {u : Shape} (x : FVec Ideal ⟨3, ![a, b, c]⟩ φ)
    (init : u.Idx → Ideal φ) (h' : (⟨3, ![a, b, c]⟩ : Shape).ReducesTo [1] ⟨2, ![a, c]⟩)
    (h : (⟨3, ![a, b, c]⟩ : Shape).Reduces [1] ⟨2, ![a, c]⟩) (hu : 0 < u.numel) (p : Fin a) (e : Fin c) :
    Host.reduce (FloatOps.maximumf (F := Ideal) (φ := φ)) x init h' hu (ix2 p e)
      = (Finset.univ : Finset (Fin b)).fold max (init (Shape.Idx.first hu)) (fun k => x (ix3 p k e)) := by
  refine (Host.reduce_eq_fold_single (FloatOps.maximumf (F := Ideal) (φ := φ)) x init h' h hu (ix2 p e)).trans ?_
  exact congrArg (fun f => (Finset.univ : Finset (Fin b)).fold max (init (Shape.Idx.first hu)) f)
    (funext fun k => congrArg x (lift_mid h p e k))

/-- The host's float sum over the middle axis, at `(p, e)`. -/
theorem hostReduceAdd_mid {a b c : ℕ} {φ : FTy} {u : Shape} (x : FVec Ideal ⟨3, ![a, b, c]⟩ φ)
    (init : u.Idx → Ideal φ) (h' : (⟨3, ![a, b, c]⟩ : Shape).ReducesTo [1] ⟨2, ![a, c]⟩)
    (h : (⟨3, ![a, b, c]⟩ : Shape).Reduces [1] ⟨2, ![a, c]⟩) (hu : 0 < u.numel) (p : Fin a) (e : Fin c) :
    Host.reduceAdd x init h' hu (ix2 p e) = init (Shape.Idx.first hu) + ∑ k : Fin b, x (ix3 p k e) := by
  rw [hostReduceAdd_apply]
  refine (Ideal.hostReduceAdd_single h' h x (init (Shape.Idx.first hu)) (ix2 p e)).trans ?_
  exact congrArg _ (Finset.sum_congr rfl fun k _ => congrArg x (lift_mid h p e k))

/-- The host's float sum over the last axis, at `(p, k)`. -/
theorem hostReduceAdd_last {a b c : ℕ} {φ : FTy} {u : Shape} (x : FVec Ideal ⟨3, ![a, b, c]⟩ φ)
    (init : u.Idx → Ideal φ) (h' : (⟨3, ![a, b, c]⟩ : Shape).ReducesTo [2] ⟨2, ![a, b]⟩)
    (h : (⟨3, ![a, b, c]⟩ : Shape).Reduces [2] ⟨2, ![a, b]⟩) (hu : 0 < u.numel) (p : Fin a) (k : Fin b) :
    Host.reduceAdd x init h' hu (ix2 p k) = init (Shape.Idx.first hu) + ∑ e : Fin c, x (ix3 p k e) := by
  rw [hostReduceAdd_apply]
  refine (Ideal.hostReduceAdd_single h' h x (init (Shape.Idx.first hu)) (ix2 p k)).trans ?_
  exact congrArg _ (Finset.sum_congr rfl fun e _ => congrArg x (lift_last h p k e))

/-! ## Spreads that keep the reduced axis as a unit axis -/

section Layout
variable {α : Type}

/-- An `[a, c]` array spread in dimensions (0, 2) to `[a, 1, c]` reads, at `(p, z, e)`, the array at `(p, e)`. -/
theorem broadcastInDim_ac_a1c_apply {a c : ℕ} (x : (⟨2, ![a, c]⟩ : Shape).Idx → α)
    (h : (⟨2, ![a, c]⟩ : Shape).BroadcastsInDim ⟨3, ![a, 1, c]⟩ ![0, 2]) (p : Fin a) (z : Fin 1) (e : Fin c) :
    broadcastInDim ⟨3, ![a, 1, c]⟩ ![0, 2] h x (ix3 p z e) = x (ix2 p e) :=
  broadcastInDim_apply ![0, 2] h x (ix3 p z e) (ix2 p e) fun ax => by
    match ax with
    | ⟨0, _⟩ =>
      show p.val = if a = 1 then 0 else p.val
      split
      · have := p.isLt; omega
      · rfl
    | ⟨1, _⟩ =>
      show e.val = if c = 1 then 0 else e.val
      split
      · have := e.isLt; omega
      · rfl

/-- An `[a, 1, c]` array spread in dimensions (0, 1, 2) over `[a, b, c]` reads, at `(p, k, e)`, the array at
    `(p, 0, e)`. -/
theorem broadcastInDim_a1c_abc_apply {a b c : ℕ} (x : (⟨3, ![a, 1, c]⟩ : Shape).Idx → α)
    (h : (⟨3, ![a, 1, c]⟩ : Shape).BroadcastsInDim ⟨3, ![a, b, c]⟩ ![0, 1, 2]) (p : Fin a) (k : Fin b) (e : Fin c) :
    broadcastInDim ⟨3, ![a, b, c]⟩ ![0, 1, 2] h x (ix3 p k e) = x (ix3 p (0 : Fin 1) e) :=
  broadcastInDim_apply ![0, 1, 2] h x (ix3 p k e) (ix3 p (0 : Fin 1) e) fun ax => by
    match ax with
    | ⟨0, _⟩ =>
      show p.val = if a = 1 then 0 else p.val
      split
      · have := p.isLt; omega
      · rfl
    | ⟨1, _⟩ => rfl
    | ⟨2, _⟩ =>
      show e.val = if c = 1 then 0 else e.val
      split
      · have := e.isLt; omega
      · rfl

end Layout

/-! ## The divisor -/

/-- The word `0x45800000` denotes the real 4096. -/
theorem ofBits_4096 : Ideal.ofBits .f32 0x45800000#32 = ((4096 : ℝ) : EReal) := by
  simp [Ideal.ofBits, Ideal.ieee, -EReal.coe_mul]; norm_num

/-- A quotient by 4096 is the product with the real 1/4096, for every extended real. -/
theorem div_4096 (s : EReal) : Ideal.div s (Ideal.ofBits .f32 0x45800000#32) = s * ((1 / 4096 : ℝ) : EReal) := by
  rw [ofBits_4096]
  exact Ideal.div_coe (by norm_num : (4096 : ℝ) ≠ 0) s

/-- 4096 less the integer word 0 read as a float is 4096. -/
theorem count_eq : Ideal.ofBits .f32 0x45800000#32 - (((0#32 : BitVec 32).toInt : ℝ) : EReal) = ((4096 : ℝ) : EReal) := by
  rw [ofBits_4096]
  simp

/-- 4096 is above the float word zero, so the comparison's bit is 1. -/
theorem count_pos_bit : Ideal.cmp .ogt ((4096 : ℝ) : EReal) (Ideal.ofBits .f32 0x00000000#32) = 1#1 := by
  rw [Ideal.ofBits_zero_f32]
  unfold Ideal.cmp
  have h : (0 : EReal) < ((4096 : ℝ) : EReal) := by exact_mod_cast (by norm_num : (0 : ℝ) < 4096)
  simp [h]

end Idealize.ShloMosaic.HostRank3

end
-- ==== Proof.RefReadMoments.lean ====
/-
  The reference's moments read at an index.

  Row `p` of the points array has two columns of 4096 entries, `k ↦ P (p, k, e)` for `e = 0, 1`. Read at `(p, e)`,
  the reference's bounding-box ends are the folds of `min` and `max` over that column, its centroid is the column's
  sum times 1/4096, and its variance routine — which divides the sum of the squared deviations from the mean by
  "4096 less 0" wherever that divisor is positive — gives the two-pass variance, since 4096 − 0 = 4096 > 0 and the
  select keeps its first branch everywhere. The distance of point `k` to the centroid is the square root of the sum,
  over the two columns, of the squared differences; and the same mean and variance routines over the rows of a square
  array give the row's mean and two-pass variance.
-/
import proofs.«118876_j5540507811898_2_alg».proof.Proof.RefVal
import proofs.«118876_j5540507811898_2_alg».proof.Proof.Spec
import proofs.«118876_j5540507811898_2_alg».proof.Proof.LibRowReduce
import proofs.«118876_j5540507811898_2_alg».proof.Proof.LibRegionBlockSpread
import proofs.«118876_j5540507811898_2_alg».proof.Proof.LibHostRank3

noncomputable section

namespace Cert.ReferenceIdeal.RefRead

open Cert.ReferenceIdeal Cert.ReferenceIdeal.Gen Idealize.ShloMosaic Idealize.ShloMosaic.ValueIdx
open Idealize.ShloMosaic.HostRank3
open Cert

/-! ## The shape facts that name the inserted index -/

theorem reduces_mid : S4096x4096x2.Reduces [1] S4096x2 := by decide
theorem reduces_last : S4096x4096x2.Reduces [2] S4096x4096 := by decide
theorem reduces_row : S4096x4096.Reduces [1] S4096 := by decide

/-! ## The bounding box -/

/-- The least value of column `e` of row `p`. -/
theorem vMin_apply (P : FVec Ideal S4096x4096x2 .f32) (p : Fin 4096) (e : Fin 2) :
    RefVal.vMin (F := Ideal) P (ix2 p e) = GeoSpec.rowMin (fun k => P (ix3 p k e)) := by
  unfold RefVal.vMin GeoSpec.rowMin
  refine (hostReduce_minimumf_mid P _ reducesTo_S4096x4096x2_S4096x2_d1 reduces_mid h_S_ p e).trans ?_
  rfl

/-- The greatest value of column `e` of row `p`. -/
theorem vMax_apply (P : FVec Ideal S4096x4096x2 .f32) (p : Fin 4096) (e : Fin 2) :
    RefVal.vMax (F := Ideal) P (ix2 p e) = GeoSpec.rowMax (fun k => P (ix3 p k e)) := by
  unfold RefVal.vMax GeoSpec.rowMax
  refine (hostReduce_maximumf_mid P _ reducesTo_S4096x4096x2_S4096x2_d1 reduces_mid h_S_ p e).trans ?_
  rfl

/-- The box's centre: the sum of the two ends times the word of one half. -/
theorem vCenter_apply (P : FVec Ideal S4096x4096x2 .f32) (p : Fin 4096) (e : Fin 2) :
    RefVal.vCenter (F := Ideal) P (ix2 p e)
      = (GeoSpec.rowMin (fun k => P (ix3 p k e)) + GeoSpec.rowMax (fun k => P (ix3 p k e))) * GeoSpec.half := by
  unfold RefVal.vCenter GeoSpec.half
  rw [mulf_apply, addf_apply, vMin_apply, vMax_apply, broadcastInDim_scalar_apply, constant_apply]

/-- The box's size: the greatest less the least. -/
theorem vSize_apply (P : FVec Ideal S4096x4096x2 .f32) (p : Fin 4096) (e : Fin 2) :
    RefVal.vSize (F := Ideal) P (ix2 p e)
      = GeoSpec.rowMax (fun k => P (ix3 p k e)) - GeoSpec.rowMin (fun k => P (ix3 p k e)) := by
  unfold RefVal.vSize
  rw [subf_apply, vMin_apply, vMax_apply]

/-! ## The centroid -/

/-- The sum of column `e` of row `p`. -/
theorem vSum_apply (P : FVec Ideal S4096x4096x2 .f32) (p : Fin 4096) (e : Fin 2) :
    RefVal.vSum (F := Ideal) P (ix2 p e) = ∑ k : Fin 4096, P (ix3 p k e) := by
  unfold RefVal.vSum
  rw [hostReduceAdd_mid P _ reducesTo_S4096x4096x2_S4096x2_d1 reduces_mid h_S_ p e, constant_apply,
    Ideal.ofBits_zero_f32, zero_add]

/-- The mean of column `e` of row `p`. -/
theorem vMean_apply (P : FVec Ideal S4096x4096x2 .f32) (p : Fin 4096) (e : Fin 2) :
    RefVal.vMean (F := Ideal) P (ix2 p e) = GeoSpec.mean (fun k => P (ix3 p k e)) := by
  unfold RefVal.vMean GeoSpec.mean GeoSpec.scale
  rw [hostDivf_apply, vSum_apply, broadcastInDim_scalar_apply, constant_apply, div_4096]

/-! ## The variance routine's divisor -/

/-- The divisor is 4096. -/
theorem vCount_apply (i : S_.Idx) : RefVal.vCount (F := Ideal) i = ((4096 : ℝ) : EReal) := by
  unfold RefVal.vCount
  rw [subf_apply, constant_apply, sitofp_apply]
  exact count_eq

/-- The divisor is positive: the comparison's bit is 1. -/
theorem vCountPos_apply (i : S_.Idx) : RefVal.vCountPos (F := Ideal) i = 1#1 := by
  unfold RefVal.vCountPos
  rw [cmpf_apply, vCount_apply, constant_apply]
  exact count_pos_bit

/-! ## The variance and the standard deviation of a column -/

/-- The deviation of entry `k` of column `e` of row `p` from the column's mean. -/
theorem vDev_apply (P : FVec Ideal S4096x4096x2 .f32) (p : Fin 4096) (k : Fin 4096) (e : Fin 2) :
    RefVal.vDev (F := Ideal) P (ix3 p k e) = P (ix3 p k e) - GeoSpec.mean (fun k => P (ix3 p k e)) := by
  unfold RefVal.vDev GeoSpec.mean GeoSpec.scale
  rw [subf_apply, broadcastInDim_a1c_abc_apply, hostDivf_apply, broadcastInDim_ac_a1c_apply, vSum_apply,
    broadcastInDim_scalar_apply, constant_apply, div_4096]

/-- The variance of column `e` of row `p`, in two passes. -/
theorem vVar_apply (P : FVec Ideal S4096x4096x2 .f32) (p : Fin 4096) (e : Fin 2) :
    RefVal.vVar (F := Ideal) P (ix2 p e) = GeoSpec.varTwoPass (fun k => P (ix3 p k e)) := by
  unfold RefVal.vVar GeoSpec.varTwoPass GeoSpec.scale
  rw [select_apply, broadcastInDim_scalar_apply (α := BitVec 1), vCountPos_apply, select_one, hostDivf_apply,
    hostReduceAdd_mid _ _ reducesTo_S4096x4096x2_S4096x2_d1 reduces_mid h_S_ p e, constant_apply,
    Ideal.ofBits_zero_f32, zero_add, broadcastInDim_scalar_apply, vCount_apply,
    Ideal.div_coe (by norm_num : (4096 : ℝ) ≠ 0)]
  refine congrArg (· * ((1 / 4096 : ℝ) : EReal)) ?_
  exact Finset.sum_congr rfl fun k _ => by rw [mulf_apply, vDev_apply]

/-- The standard deviation of column `e` of row `p`. -/
theorem vStd_apply (P : FVec Ideal S4096x4096x2 .f32) (p : Fin 4096) (e : Fin 2) :
    RefVal.vStd (F := Ideal) P (ix2 p e) = Ideal.sqrt (GeoSpec.varTwoPass (fun k => P (ix3 p k e))) := by
  unfold RefVal.vStd
  rw [KeepDims.hostSqrt_apply, vVar_apply]

/-! ## The distances to the centroid -/

/-- Entry `k` of column `e` of row `p` less the column's mean. -/
theorem vDiff_apply (P : FVec Ideal S4096x4096x2 .f32) (p : Fin 4096) (k : Fin 4096) (e : Fin 2) :
    RefVal.vDiff (F := Ideal) P (ix3 p k e) = P (ix3 p k e) - GeoSpec.mean (fun k => P (ix3 p k e)) := by
  unfold RefVal.vDiff
  rw [subf_apply, broadcastInDim_a1c_abc_apply, broadcastInDim_ac_a1c_apply, vMean_apply]

/-- The distance of point `k` of row `p` to the row's centroid. -/
theorem vDist_apply (P : FVec Ideal S4096x4096x2 .f32) (p : Fin 4096) (k : Fin 4096) :
    RefVal.vDist (F := Ideal) P (ix2 p k)
      = GeoSpec.dist (fun k => P (ix3 p k 0)) (fun k => P (ix3 p k 1)) k := by
  unfold RefVal.vDist GeoSpec.dist GeoSpec.dist2
  rw [KeepDims.hostSqrt_apply,
    hostReduceAdd_last _ _ reducesTo_S4096x4096x2_S4096x4096_d2 reduces_last h_S_ p k, constant_apply,
    Ideal.ofBits_zero_f32, zero_add, Fin.sum_univ_two, mulf_apply, mulf_apply, vDiff_apply, vDiff_apply]

/-! ## The same routines over the rows of a square array -/

/-- The sum of row `p`. -/
theorem rSum_apply (D : FVec Ideal S4096x4096 .f32) (p : Fin 4096) :
    RefVal.rSum (F := Ideal) D (ix1 p) = ∑ k : Fin 4096, D (ix2 p k) := by
  unfold RefVal.rSum
  rw [RowReduce.hostReduceAdd_row D _ reducesTo_S4096x4096_S4096_d1 reduces_row h_S_ p, constant_apply,
    Ideal.ofBits_zero_f32, zero_add]

/-- The mean of row `p`. -/
theorem rMean_apply (D : FVec Ideal S4096x4096 .f32) (p : Fin 4096) :
    RefVal.rMean (F := Ideal) D (ix1 p) = GeoSpec.mean (fun k => D (ix2 p k)) := by
  unfold RefVal.rMean GeoSpec.mean GeoSpec.scale
  rw [hostDivf_apply, rSum_apply, broadcastInDim_scalar_apply, constant_apply, div_4096]

/-- The deviation of entry `k` of row `p` from the row's mean. -/
theorem rDev_apply (D : FVec Ideal S4096x4096 .f32) (p : Fin 4096) (k : Fin 4096) :
    RefVal.rDev (F := Ideal) D (ix2 p k) = D (ix2 p k) - GeoSpec.mean (fun k => D (ix2 p k)) := by
  unfold RefVal.rDev GeoSpec.mean GeoSpec.scale
  rw [subf_apply, KeepDims.broadcastInDim_a1_ab_apply, hostDivf_apply, KeepDims.broadcastInDim_a_a1_apply,
    rSum_apply, broadcastInDim_scalar_apply, constant_apply, div_4096]

/-- The variance of row `p`, in two passes. -/
theorem rVar_apply (D : FVec Ideal S4096x4096 .f32) (p : Fin 4096) :
    RefVal.rVar (F := Ideal) D (ix1 p) = GeoSpec.varTwoPass (fun k => D (ix2 p k)) := by
  unfold RefVal.rVar GeoSpec.varTwoPass GeoSpec.scale
  rw [select_apply, broadcastInDim_scalar_apply (α := BitVec 1), vCountPos_apply, select_one, hostDivf_apply,
    RowReduce.hostReduceAdd_row _ _ reducesTo_S4096x4096_S4096_d1 reduces_row h_S_ p, constant_apply,
    Ideal.ofBits_zero_f32, zero_add, broadcastInDim_scalar_apply, vCount_apply,
    Ideal.div_coe (by norm_num : (4096 : ℝ) ≠ 0)]
  refine congrArg (· * ((1 / 4096 : ℝ) : EReal)) ?_
  exact Finset.sum_congr rfl fun k _ => by rw [mulf_apply, rDev_apply]

end Cert.ReferenceIdeal.RefRead

end
-- ==== Proof.RefReadFeatures.lean ====
/-
  The ten numbers of a row, read at an index.

  The reference lays six arrays side by side along the second axis: four of width 2 (the box's centre, the box's
  size, the centroid, the standard deviation: one column per coordinate) and two of width 1 (the mean and the
  standard deviation of the distances to the centroid). Column `j` of the result is therefore column `j mod 2` of
  piece `j / 2` for `j < 8`, and the one column of the fifth and of the sixth piece for `j = 8, 9`. With each piece
  read at its index this is the list of ten numbers of the row, variances taken in two passes.
-/
import proofs.«118876_j5540507811898_2_alg».proof.Proof.RefReadMoments

noncomputable section

namespace Cert.ReferenceIdeal.RefRead

open Cert.ReferenceIdeal Cert.ReferenceIdeal.Gen Idealize.ShloMosaic Idealize.ShloMosaic.ValueIdx
open Cert

section Concat
variable {α : Type}

/-- A concatenation of matrices with `m` rows along the second axis, read at `(p, j)`: piece `k`, of width `w`, at
    `(p, c)`, when the widths before piece `k` add up to `pre` and `pre + c = j`. -/
theorem concat_cols_apply {m n w : ℕ} (xs : List ((s : Shape) × (s.Idx → α)))
    (h : Shape.Concatenates (xs.map (·.1)) ⟨2, ![m, n]⟩ 1)
    (k : ℕ) (hk : k < xs.length) (x₁ : (⟨2, ![m, w]⟩ : Shape).Idx → α) (hxk : xs[k] = ⟨⟨2, ![m, w]⟩, x₁⟩)
    (pre : ℕ)
    (hpre : (((xs.take k).map (·.1)).map fun s =>
      if h : s.rank = (⟨2, ![m, n]⟩ : Shape).rank then s.size ((1 : Fin (⟨2, ![m, n]⟩ : Shape).rank).cast h.symm) else 0).sum = pre)
    (p : Fin m) (c : Fin w) (j : Fin n) (hj : pre + c.val = j.val) :
    concatenate ⟨2, ![m, n]⟩ 1 xs h (ix2 p j) = x₁ (ix2 p c) :=
  concatenate_apply_piece 1 xs h (ix2 p j) k hk ⟨2, ![m, w]⟩ x₁ hxk rfl pre hpre (ix2 p c)
    (fun b hb => by
      match b with
      | ⟨0, _⟩ => rfl
      | ⟨1, _⟩ => exact absurd rfl hb)
    hj

/-- Four matrices of width 2 and two of width 1 side by side, read at `(p, j)`. -/
theorem concat6_apply {m : ℕ} (A B C D : (⟨2, ![m, 2]⟩ : Shape).Idx → α) (E G : (⟨2, ![m, 1]⟩ : Shape).Idx → α)
    (h : Shape.Concatenates
      (([⟨⟨2, ![m, 2]⟩, A⟩, ⟨⟨2, ![m, 2]⟩, B⟩, ⟨⟨2, ![m, 2]⟩, C⟩, ⟨⟨2, ![m, 2]⟩, D⟩, ⟨⟨2, ![m, 1]⟩, E⟩,
        ⟨⟨2, ![m, 1]⟩, G⟩] : List ((s : Shape) × (s.Idx → α))).map (·.1)) ⟨2, ![m, 10]⟩ 1)
    (p : Fin m) (j : Fin 10) :
    concatenate ⟨2, ![m, 10]⟩ 1
        [⟨⟨2, ![m, 2]⟩, A⟩, ⟨⟨2, ![m, 2]⟩, B⟩, ⟨⟨2, ![m, 2]⟩, C⟩, ⟨⟨2, ![m, 2]⟩, D⟩, ⟨⟨2, ![m, 1]⟩, E⟩,
          ⟨⟨2, ![m, 1]⟩, G⟩] h (ix2 p j)
      = ![A (ix2 p 0), A (ix2 p 1), B (ix2 p 0), B (ix2 p 1), C (ix2 p 0), C (ix2 p 1), D (ix2 p 0), D (ix2 p 1),
          E (ix2 p 0), G (ix2 p 0)] j := by
  match j with
  | ⟨0, _⟩ => exact concat_cols_apply _ h 0 (by simp) A rfl 0 rfl p 0 _ rfl
  | ⟨1, _⟩ => exact concat_cols_apply _ h 0 (by simp) A rfl 0 rfl p 1 _ rfl
  | ⟨2, _⟩ => exact concat_cols_apply _ h 1 (by simp) B rfl 2 rfl p 0 _ rfl
  | ⟨3, _⟩ => exact concat_cols_apply _ h 1 (by simp) B rfl 2 rfl p 1 _ rfl
  | ⟨4, _⟩ => exact concat_cols_apply _ h 2 (by simp) C rfl 4 rfl p 0 _ rfl
  | ⟨5, _⟩ => exact concat_cols_apply _ h 2 (by simp) C rfl 4 rfl p 1 _ rfl
  | ⟨6, _⟩ => exact concat_cols_apply _ h 3 (by simp) D rfl 6 rfl p 0 _ rfl
  | ⟨7, _⟩ => exact concat_cols_apply _ h 3 (by simp) D rfl 6 rfl p 1 _ rfl
  | ⟨8, _⟩ => exact concat_cols_apply _ h 4 (by simp) E rfl 8 rfl p 0 _ rfl
  | ⟨9, _⟩ => exact concat_cols_apply _ h 5 (by simp) G rfl 9 rfl p 0 _ rfl

end Concat

/-- The reference's ten numbers of row `p`: the list of the specification, variances in two passes. -/
theorem vGeo_apply (P : FVec Ideal S4096x4096x2 .f32) (p : Fin 4096) (j : Fin 10) :
    RefVal.vGeo (F := Ideal) P (ix2 p j)
      = GeoSpec.featTwoPass (fun k => P (ix3 p k 0)) (fun k => P (ix3 p k 1)) j := by
  unfold RefVal.vGeo
  refine (concat6_apply _ _ _ _ _ _ _ p j).trans ?_
  refine congrFun ?_ j
  have hd : (fun k => RefVal.vDist (F := Ideal) P (ix2 p k))
      = GeoSpec.dist (fun k => P (ix3 p k 0)) (fun k => P (ix3 p k 1)) := funext (vDist_apply P p)
  rw [vCenter_apply, vCenter_apply, vSize_apply, vSize_apply, vMean_apply, vMean_apply, vStd_apply, vStd_apply,
    KeepDims.broadcastInDim_a_a1_apply, KeepDims.broadcastInDim_a_a1_apply, rMean_apply, KeepDims.hostSqrt_apply,
    rVar_apply, hd]
  rfl

end Cert.ReferenceIdeal.RefRead

end
-- ==== Proof.RefReadDense.lean ====
/-
  The reference's two dense layers and its result, read at an index.

  Each layer is a plain matrix product (contract the left operand's second axis with the right operand's first),
  plus a bias row spread over the 4096 samples, kept above the word of zero: at `(p, q)` it is
  `max (∑ k, x (p, k) · w (k, q) + b q) 0`. Applied to the ten numbers of row `p`, and then to the 64 hidden units,
  this is the specification's `head` of the row's ten numbers.
-/
import proofs.«118876_j5540507811898_2_alg».proof.Proof.LibPlainDot
import proofs.«118876_j5540507811898_2_alg».proof.Proof.LibDense
import proofs.«118876_j5540507811898_2_alg».proof.Proof.RefReadFeatures

noncomputable section

namespace Cert.ReferenceIdeal.RefRead

open Cert.ReferenceIdeal Cert.ReferenceIdeal.Gen Idealize.ShloMosaic Idealize.ShloMosaic.ValueIdx
open Cert

/-- The first dense layer at sample `p` and hidden unit `k`. -/
theorem vHidden_apply (G : FVec Ideal S4096x10 .f32) (W1 : FVec Ideal S10x64 .f32) (B1 : FVec Ideal S64 .f32)
    (p : Fin 4096) (k : Fin 64) :
    RefVal.vHidden (F := Ideal) G W1 B1 (ix2 p k)
      = max ((∑ j : Fin 10, G (ix2 p j) * W1 (ix2 j k)) + B1 (ix1 k)) GeoSpec.zeroW := by
  unfold RefVal.vHidden GeoSpec.zeroW
  rw [maximumf_apply, addf_apply, DenseLayer.inDimRow_apply, broadcastInDim_scalar_apply, constant_apply]
  refine congrArg (fun s => max (s + B1 (ix1 k)) (Ideal.ofBits .f32 0x00000000#32)) ?_
  exact PlainDot.dotGeneral_apply _ rfl none .single G W1 p k

/-- The second dense layer at sample `p` and output unit `q`. -/
theorem vHead_apply (H : FVec Ideal S4096x64 .f32) (W2 : FVec Ideal S64x32 .f32) (B2 : FVec Ideal S32 .f32)
    (p : Fin 4096) (q : Fin 32) :
    RefVal.vHead (F := Ideal) H W2 B2 (ix2 p q)
      = max ((∑ k : Fin 64, H (ix2 p k) * W2 (ix2 k q)) + B2 (ix1 q)) GeoSpec.zeroW := by
  unfold RefVal.vHead GeoSpec.zeroW
  rw [maximumf_apply, addf_apply, DenseLayer.inDimRow_apply, broadcastInDim_scalar_apply, constant_apply]
  refine congrArg (fun s => max (s + B2 (ix1 q)) (Ideal.ofBits .f32 0x00000000#32)) ?_
  exact PlainDot.dotGeneral_apply _ rfl none .single H W2 p q

end Cert.ReferenceIdeal.RefRead

end
-- ==== Proof.RefRead.lean ====
/-
  The reference's result read at an index, at the ideal values.

  At sample `p` and output unit `q` the reference's result is the specification's second dense layer of the ten
  numbers of row `p` of the points array — abscissas `k ↦ P (p, k, 0)`, ordinates `k ↦ P (p, k, 1)` — with the
  variances taken in two passes. Every step is a law of the extended reals: no entry is assumed finite.
-/
import proofs.«118876_j5540507811898_2_alg».proof.Proof.RefReadDense

noncomputable section

namespace Cert.ReferenceIdeal.RefRead

open Cert.ReferenceIdeal Cert.ReferenceIdeal.Gen Idealize.ShloMosaic
open Cert

/-- The reference's result at `(p, q)`. -/
theorem vOut_apply (P : FVec Ideal S4096x4096x2 .f32) (W1 : FVec Ideal S10x64 .f32) (B1 : FVec Ideal S64 .f32) (W2 : FVec Ideal S64x32 .f32) (B2 : FVec Ideal S32 .f32) (p : Fin 4096) (q : Fin 32) :
    RefVal.vOut (F := Ideal) P W1 B1 W2 B2 (ValueIdx.ix2 p q)
      = GeoSpec.head (GeoSpec.featTwoPass (fun k => P (ValueIdx.ix3 p k 0)) (fun k => P (ValueIdx.ix3 p k 1)))
          (fun j k => W1 (ValueIdx.ix2 j k)) (fun k => B1 (ValueIdx.ix1 k)) (fun k u => W2 (ValueIdx.ix2 k u)) (fun u => B2 (ValueIdx.ix1 u)) q := by
  unfold RefVal.vOut GeoSpec.head
  rw [vHead_apply]
  refine congrArg (fun s => max (s + B2 (ValueIdx.ix1 q)) GeoSpec.zeroW) ?_
  refine Finset.sum_congr rfl fun k _ => ?_
  refine congrArg (· * W2 (ValueIdx.ix2 k q)) ?_
  unfold GeoSpec.hidden
  rw [vHidden_apply]
  refine congrArg (fun s => max (s + B1 (ValueIdx.ix1 k)) GeoSpec.zeroW) ?_
  exact Finset.sum_congr rfl fun j _ => by rw [vGeo_apply]

end Cert.ReferenceIdeal.RefRead

end
-- ==== Proof.LibMoments.lean ====
/-
  The two spellings of a batch's variance.

  For a finite family of REAL numbers `x i` (i ranging over `N` indices, `N > 0`) with mean `m = (∑ x) / N`:

    (∑ (x i - m)²) / N  =  (∑ (x i)²) / N  -  m²        (the mean of the squared deviations is the mean of the squares
                                                         less the square of the mean),

  and the left side is nonnegative, so taking the maximum of the right side with `0` changes nothing. The identity
  distributes a product over a sum and cancels `N`, so it is a law of the reals, not of the extended reals: it is
  stated first over `ℝ`, then for real numbers READ as extended reals (sums, products, differences and the division
  by `N` spelt as the product with the real `1 / N`, all taken in `EReal`), which is the form two programs' values
  take once every entry is known to be finite.
-/
import Mathlib.Data.EReal.Inv
import Mathlib.Algebra.BigOperators.Field
import Mathlib.Tactic

namespace LibMoments

open Finset

variable {ι : Type*} [Fintype ι]

/-- A finite sum of reals, read in the extended reals term by term, is the real sum read there. -/
theorem coe_sum (f : ι → ℝ) : ((∑ i, f i : ℝ) : EReal) = ∑ i, (f i : EReal) := by
  classical
  refine Finset.induction_on (Finset.univ : Finset ι) (by simp) ?_
  intro a s ha ih
  rw [Finset.sum_insert ha, Finset.sum_insert ha, EReal.coe_add, ih]

/-- Over the reals: the sum of the squared deviations from the mean is the sum of the squares less `N · m²`. -/
theorem sum_sq_dev (x : ι → ℝ) (N m : ℝ) (hN : N = (Fintype.card ι : ℝ)) (hm : ∑ j, x j = N * m) :
    ∑ i, (x i - m) * (x i - m) = ∑ i, x i * x i - N * (m * m) := by
  have h : ∀ i, (x i - m) * (x i - m) = x i * x i - 2 * m * x i + m * m := fun i => by ring
  simp only [h, Finset.sum_add_distrib, Finset.sum_sub_distrib, ← Finset.mul_sum, Finset.sum_const,
    Finset.card_univ, nsmul_eq_mul, hm, ← hN]
  ring

/-- Over the reals: the mean of the squared deviations is the mean of the squares less the square of the mean. -/
theorem mean_sq_dev (x : ι → ℝ) (N : ℝ) (hN : N = (Fintype.card ι : ℝ)) (hpos : 0 < N) :
    (∑ i, (x i - (∑ j, x j) * (1 / N)) * (x i - (∑ j, x j) * (1 / N))) * (1 / N)
      = (∑ i, x i * x i) * (1 / N) - ((∑ j, x j) * (1 / N)) * ((∑ j, x j) * (1 / N)) := by
  have h0 : N ≠ 0 := ne_of_gt hpos
  have hm : ∑ j, x j = N * ((∑ j, x j) * (1 / N)) := by field_simp
  rw [sum_sq_dev x N _ hN hm]
  field_simp

/-- Over the reals: the mean of the squared deviations is nonnegative. -/
theorem mean_sq_dev_nonneg (x : ι → ℝ) (N m : ℝ) (hpos : 0 < N) :
    0 ≤ (∑ i, (x i - m) * (x i - m)) * (1 / N) :=
  mul_nonneg (Finset.sum_nonneg fun i _ => mul_self_nonneg _) (by positivity)

/-- The law for real numbers read as extended reals: with `M` the mean, the maximum of `0` and "mean of the squares
    less the square of the mean" is the mean of the squared deviations. Every operation is the extended reals' own;
    the division by `N` is the product with the real `1 / N`. -/
theorem variance_forms (x : ι → ℝ) (N : ℝ) (hN : N = (Fintype.card ι : ℝ)) (hpos : 0 < N) :
    max ((∑ i, (x i : EReal) * (x i : EReal)) * ((1 / N : ℝ) : EReal)
          - ((∑ j, (x j : EReal)) * ((1 / N : ℝ) : EReal)) * ((∑ j, (x j : EReal)) * ((1 / N : ℝ) : EReal))) 0
      = (∑ i, ((x i : EReal) - (∑ j, (x j : EReal)) * ((1 / N : ℝ) : EReal))
              * ((x i : EReal) - (∑ j, (x j : EReal)) * ((1 / N : ℝ) : EReal))) * ((1 / N : ℝ) : EReal) := by
  -- every term is the reading of a real number: move the reading outermost on both sides
  have hM : (∑ j, (x j : EReal)) * ((1 / N : ℝ) : EReal) = (((∑ j, x j) * (1 / N) : ℝ) : EReal) := by
    rw [← coe_sum, ← EReal.coe_mul]
  have hS2 : (∑ i, (x i : EReal) * (x i : EReal)) = ((∑ i, x i * x i : ℝ) : EReal) := by
    rw [coe_sum]; exact Finset.sum_congr rfl fun i _ => (EReal.coe_mul _ _).symm
  have hD : (∑ i, ((x i : EReal) - (((∑ j, x j) * (1 / N) : ℝ) : EReal)) * ((x i : EReal) - (((∑ j, x j) * (1 / N) : ℝ) : EReal)))
      = ((∑ i, (x i - (∑ j, x j) * (1 / N)) * (x i - (∑ j, x j) * (1 / N)) : ℝ) : EReal) := by
    rw [coe_sum]; exact Finset.sum_congr rfl fun i _ => by rw [← EReal.coe_sub, ← EReal.coe_mul]
  rw [hM, hS2, hD, ← EReal.coe_mul, ← EReal.coe_mul, ← EReal.coe_mul, ← EReal.coe_sub, ← mean_sq_dev x N hN hpos]
  exact max_eq_left (by exact_mod_cast mean_sq_dev_nonneg x N _ hpos)

end LibMoments
-- ==== Proof.FeatBridge.lean ====
/-
  The two spellings of the ten numbers of a row agree on rows of real numbers.

  Seven of the ten entries are spelt the same way in both lists. The standard deviations on the two axes differ
  only in the variance under the square root, and for a row of real numbers the variance in one pass (the mean of
  the squares less the square of the mean, kept above 0) is the variance in two passes (the mean of the squared
  deviations from the mean). The last entry is the standard deviation of the distances to the centroid. For real
  rows the centroid is real, each squared distance is a real number that is not negative, so each distance is the
  real square root of it and its square gives the squared distance back; the sum of the squared distances is then the
  sum of the squares of the distances, and the one-pass variance of the distances is their two-pass variance, the
  distances being real.
-/
import proofs.«118876_j5540507811898_2_alg».proof.Proof.Spec
import proofs.«118876_j5540507811898_2_alg».proof.Proof.LibMoments

noncomputable section

namespace Cert.GeoSpec

open Idealize.ShloMosaic

/-! ## Means and variances of a real row -/

/-- The mean of a row of real numbers is a real number. -/
theorem mean_real {x : Fin 4096 → EReal} (hx : ∀ k, ∃ r : ℝ, x k = r) : ∃ r : ℝ, mean x = r := by
  choose x' hx' using hx
  refine ⟨(∑ k, x' k) * (1 / 4096), ?_⟩
  unfold mean scale
  simp only [hx']
  rw [← LibMoments.coe_sum, ← EReal.coe_mul]

/-- For a row of real numbers the variance in one pass is the variance in two passes. -/
theorem varOnePass_eq_varTwoPass {x : Fin 4096 → EReal} (hx : ∀ k, ∃ r : ℝ, x k = r) :
    varOnePass x = varTwoPass x := by
  choose x' hx' using hx
  unfold varOnePass varTwoPass mean scale
  simp only [hx']
  exact LibMoments.variance_forms x' 4096 (by simp) (by norm_num)

/-! ## The distances of a real row's points to its centroid -/

/-- For real rows the squared distance of point `k` to the centroid is a real number that is not negative. -/
theorem dist2_real_nonneg {x y : Fin 4096 → EReal} (hx : ∀ k, ∃ r : ℝ, x k = r) (hy : ∀ k, ∃ r : ℝ, y k = r)
    (k : Fin 4096) : ∃ r : ℝ, 0 ≤ r ∧ dist2 x y k = r := by
  obtain ⟨mx, hmx⟩ := mean_real hx
  obtain ⟨my, hmy⟩ := mean_real hy
  obtain ⟨a, ha⟩ := hx k
  obtain ⟨b, hb⟩ := hy k
  refine ⟨(a - mx) * (a - mx) + (b - my) * (b - my), add_nonneg (mul_self_nonneg _) (mul_self_nonneg _), ?_⟩
  unfold dist2
  rw [ha, hb, hmx, hmy, ← EReal.coe_sub, ← EReal.coe_sub, ← EReal.coe_mul, ← EReal.coe_mul, ← EReal.coe_add]

/-- For real rows the distance of point `k` to the centroid is a real number. -/
theorem dist_real {x y : Fin 4096 → EReal} (hx : ∀ k, ∃ r : ℝ, x k = r) (hy : ∀ k, ∃ r : ℝ, y k = r)
    (k : Fin 4096) : ∃ r : ℝ, dist x y k = r := by
  obtain ⟨s, hs0, hs⟩ := dist2_real_nonneg hx hy k
  refine ⟨Real.sqrt s, ?_⟩
  unfold dist
  rw [hs, Ideal.sqrt_coe, if_neg (not_lt.mpr hs0)]

/-- For real rows the square of the distance is the squared distance. -/
theorem dist_mul_self {x y : Fin 4096 → EReal} (hx : ∀ k, ∃ r : ℝ, x k = r) (hy : ∀ k, ∃ r : ℝ, y k = r)
    (k : Fin 4096) : dist x y k * dist x y k = dist2 x y k := by
  obtain ⟨s, hs0, hs⟩ := dist2_real_nonneg hx hy k
  unfold dist
  rw [hs, Ideal.sqrt_coe, if_neg (not_lt.mpr hs0), ← EReal.coe_mul, Real.mul_self_sqrt hs0]

/-- For real rows the variance of the distances taken from the sum of the squared distances is their variance in
    two passes. -/
theorem distVar_eq {x y : Fin 4096 → EReal} (hx : ∀ k, ∃ r : ℝ, x k = r) (hy : ∀ k, ∃ r : ℝ, y k = r) :
    max ((∑ k, dist2 x y k) * scale - mean (dist x y) * mean (dist x y)) 0 = varTwoPass (dist x y) := by
  rw [← varOnePass_eq_varTwoPass (dist_real hx hy)]
  unfold varOnePass
  rw [Finset.sum_congr rfl fun k _ => (dist_mul_self hx hy k).symm]

/-! ## The ten numbers -/

/-- On rows of real numbers the two lists of ten numbers are one list. -/
theorem feat_eq (x y : Fin 4096 → EReal) (hx : ∀ k, ∃ r : ℝ, x k = r) (hy : ∀ k, ∃ r : ℝ, y k = r) :
    GeoSpec.featOnePass x y = GeoSpec.featTwoPass x y := by
  unfold featOnePass featTwoPass
  rw [varOnePass_eq_varTwoPass hx, varOnePass_eq_varTwoPass hy, distVar_eq hx hy]

end Cert.GeoSpec

end
-- ==== Proof.Bridge.lean ====
/-
  The two results are one function of the arguments.

  At (sample p, unit q) the reference's result is the two dense layers of the row's ten numbers with the variances
  taken in two passes, the kernel's the same with the variances in one pass. When every coordinate of every point is a
  real number the two spellings of each variance agree, so the two results agree at every index.
-/
import proofs.«118876_j5540507811898_2_alg».proof.Proof.RefRead
import proofs.«118876_j5540507811898_2_alg».proof.Proof.FeatBridge
import proofs.«118876_j5540507811898_2_alg».proof.Proof.KerFinal

noncomputable section

namespace Cert.Bridge

open Idealize.ShloMosaic Idealize.ShloMosaic.ValueIdx Cert.GeoSpec

/-- For real points the reference's result is the kernel's, as whole arrays. -/
theorem result_eq (P : FVec Ideal ⟨3, ![4096, 4096, 2]⟩ .f32) (W1 : FVec Ideal ⟨2, ![10, 64]⟩ .f32)
    (B1 : FVec Ideal ⟨1, ![64]⟩ .f32) (W2 : FVec Ideal ⟨2, ![64, 32]⟩ .f32) (B2 : FVec Ideal ⟨1, ![32]⟩ .f32)
    (hP : ∀ i, ∃ r : ℝ, P i = r) :
    Cert.ReferenceIdeal.RefVal.vOut (F := Ideal) P W1 B1 W2 B2 = Cert.KernelIdeal.KerFinal.kerOut P W1 B1 W2 B2 := by
  funext i
  obtain ⟨p, q, rfl⟩ : ∃ (p : Fin 4096) (q : Fin 32), i = ix2 p q := ⟨i 0, i 1, eq_ix2 i⟩
  rw [Cert.ReferenceIdeal.RefRead.vOut_apply]
  show _ = head (featOnePass (fun k => P (ix3 p k 0)) (fun k => P (ix3 p k 1))) (fun j k => W1 (ix2 j k))
      (fun k => B1 (ix1 k)) (fun k u => W2 (ix2 k u)) (fun u => B2 (ix1 u)) q
  rw [feat_eq _ _ (fun k => hP _) (fun k => hP _)]

end Cert.Bridge

end
-- ==== Proof.LibFiniteAll.lean ====
/-
  `all (|a| < +inf)` at the ideal values: every entry of `a` is a real number.

  At the ideal values an entry of a float array is an extended real, `|a|` is `max a (-a)` and the f32 word
  `0x7F800000` is `+inf`.  So `|a| < +inf` excludes exactly the two infinities, and what is left is a real number.
  A reduction by `and` from `true` over all axes is `true` only if every entry is, which gives the statement for a
  whole array of any shape (`all_real`), in the form a precondition "every float input is finite" prints it: the
  comparison of `abs a` against the scalar `0x7F800000` broadcast to `a`'s shape, reduced to a rank-0 result.
-/
import Idealize.ShloMosaic.PureOps.Ideal
import Idealize.ShloMosaic.Lib.ReduceAll
import Idealize.ShloMosaic.Lib.ValueIdx
import Idealize.ShloMosaic.Lib.Pipeline.Value

noncomputable section

namespace Idealize.ShloMosaic.FiniteAll

open Idealize.ShloMosaic

/-- The word `0x7F800000` denotes `+inf`. -/
theorem inf_word : Ideal.ofBits .f32 0x7F800000#32 = ⊤ := by
  simp [Ideal.ofBits, Ideal.ieee]

/-- An extended real whose absolute value is below `+inf` is a real number. -/
theorem real_of_abs_lt_inf (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | coe r => exact ⟨r, rfl⟩
  | top => simp [Ideal.cmp] at h

/-- A rank-0 array has one index. -/
instance subsingleton_idx0 : Subsingleton (⟨0, ![]⟩ : Shape).Idx := ⟨fun _ _ => funext fun d => d.elim0⟩

/-- One array: if `all (|a| < +inf)` is `true` then every entry of `a` is a real number. -/
theorem all_real {s : Shape} {axes : List (Fin s.rank)} (a : FVec Ideal s .f32)
    (bc : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
          (cmpf .olt (Host.absf a) (broadcastInDim s ![] bc (constant ⟨0, ![]⟩ .f32 0x7F800000#32)))
          init hr hu ValueIdx.ix0 = 1#1)
    (i : s.Idx) : ∃ r : ℝ, a i = r := by
  have h := Host.reduce_andi_all _ init hr hu ValueIdx.ix0 e i
  refine real_of_abs_lt_inf (a i) ?_
  have hb : broadcastInDim s ![] bc (constant (F := Ideal) ⟨0, ![]⟩ .f32 0x7F800000#32) i
      = Ideal.ofBits .f32 0x7F800000#32 :=
    broadcastInDim_apply _ bc _ i ValueIdx.ix0 (fun a => a.elim0)
  rw [← hb]
  exact h

end Idealize.ShloMosaic.FiniteAll

end
-- ==== Proof.FiniteInputs.lean ====
/-
  Under the precondition every entry of the five argument arrays is a real number.

  The precondition is the conjunction of five tests, one per argument array, points first: "every entry's absolute
  value is below plus infinity", taken as a reduction by `and` from `true` over all axes of the entrywise
  comparison. A conjunction of bits is 1 only if both are; a reduction by `and` is 1 only if every entry is; and an
  extended real whose absolute value is below plus infinity is neither infinity, so it is a real number.
-/
import proofs.«118876_j5540507811898_2_alg».proof.Defs
import proofs.«118876_j5540507811898_2_alg».proof.Proof.Gen.Pre_finite_inputs
import proofs.«118876_j5540507811898_2_alg».proof.Proof.LibFiniteAll

noncomputable section

namespace Cert.FiniteInputs

open Idealize.ShloMosaic Idealize.SL.Sem

/-- If the precondition's function of five arrays is all ones, every entry of each of the five is a real number. -/
theorem args_real [hP : Cert.Pre_finite_inputs.Facts]
    (a0 : FVec Ideal Cert.Pre_finite_inputs.S4096x4096x2 .f32) (a1 : FVec Ideal Cert.Pre_finite_inputs.S10x64 .f32)
    (a2 : FVec Ideal Cert.Pre_finite_inputs.S64 .f32) (a3 : FVec Ideal Cert.Pre_finite_inputs.S64x32 .f32)
    (a4 : FVec Ideal Cert.Pre_finite_inputs.S32 .f32)
    (h : Cert.Pre_finite_inputs.fn (F := Ideal) a0 a1 a2 a3 a4 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) := by
  have h0 := congrFun h ValueIdx.ix0
  dsimp only [Cert.Pre_finite_inputs.fn, Cert.Pre_finite_inputs.fn_part1] at h0
  obtain ⟨h0123, h4⟩ := IntOp.andi_eq_one.mp h0
  obtain ⟨h012, h3⟩ := IntOp.andi_eq_one.mp h0123
  obtain ⟨h01, h2⟩ := IntOp.andi_eq_one.mp h012
  obtain ⟨h0', h1⟩ := IntOp.andi_eq_one.mp h01
  exact ⟨FiniteAll.all_real a0 _ _ _ _ h0', FiniteAll.all_real a1 _ _ _ _ h1, FiniteAll.all_real a2 _ _ _ _ h2,
    FiniteAll.all_real a3 _ _ _ _ h3, FiniteAll.all_real a4 _ _ _ _ h4⟩

/-- Under the precondition every entry of the points array is a real number, on every device. -/
theorem points_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S4096x4096x2.Idx) :
    ∃ r : ℝ, @Eq EReal (m ((c.tc : Thread Cert.KernelIdeal.nD Cert.KernelIdeal.τ).loc Cert.KernelIdeal.main_arg0) i) (r : EReal) :=
  (args_real _ _ _ _ _ (hpre c)).1 i

/-- Under the precondition the entries of column `e` of row `p` of the points array are real numbers. -/
theorem points_row_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (p : Fin 4096) (e : Fin 2) (k : Fin 4096) :
    ∃ r : ℝ, @Eq EReal (m ((c.tc : Thread Cert.KernelIdeal.nD Cert.KernelIdeal.τ).loc Cert.KernelIdeal.main_arg0) (ValueIdx.ix3 p k e)) (r : EReal) :=
  points_real m hpre c (ValueIdx.ix3 p k e)

/-- Under the precondition every entry of the first layer's weights is a real number. -/
theorem w1_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S10x64.Idx) :
    ∃ r : ℝ, @Eq EReal (m ((c.tc : Thread Cert.KernelIdeal.nD Cert.KernelIdeal.τ).loc Cert.KernelIdeal.main_arg1) i) (r : EReal) :=
  (args_real _ _ _ _ _ (hpre c)).2.1 i

/-- Under the precondition every entry of the first layer's bias is a real number. -/
theorem b1_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S64.Idx) :
    ∃ r : ℝ, @Eq EReal (m ((c.tc : Thread Cert.KernelIdeal.nD Cert.KernelIdeal.τ).loc Cert.KernelIdeal.main_arg2) i) (r : EReal) :=
  (args_real _ _ _ _ _ (hpre c)).2.2.1 i

/-- Under the precondition every entry of the second layer's weights is a real number. -/
theorem w2_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S64x32.Idx) :
    ∃ r : ℝ, @Eq EReal (m ((c.tc : Thread Cert.KernelIdeal.nD Cert.KernelIdeal.τ).loc Cert.KernelIdeal.main_arg3) i) (r : EReal) :=
  (args_real _ _ _ _ _ (hpre c)).2.2.2.1 i

/-- Under the precondition every entry of the second layer's bias is a real number. -/
theorem b2_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S32.Idx) :
    ∃ r : ℝ, @Eq EReal (m ((c.tc : Thread Cert.KernelIdeal.nD Cert.KernelIdeal.τ).loc Cert.KernelIdeal.main_arg4) i) (r : EReal) :=
  (args_real _ _ _ _ _ (hpre c)).2.2.2.2 i

end Cert.FiniteInputs

end
-- ==== Proof.lean ====
/-
  The certificate: the kernel and the reference compute one function of the points and the weights.

  Both programs take, per sample, ten numbers of its 4096 points — the bounding box's centre and size on each axis,
  the centroid, the standard deviation on each axis, and the mean and standard deviation of the distances to the
  centroid — and pass them through two dense layers, each followed by the maximum with 0. The kernel does so sixteen
  samples-blocks of 256 at a time and takes each variance in one pass (the mean of the squares less the square of the
  mean, kept above 0); the reference takes it in two passes (the mean of the squared deviations). Under the
  precondition every coordinate is a real number, for which the two variances are one number; everything else the
  two programs compute is the same term of the extended reals, so no further finiteness is needed. The kernel's
  product with the word of 2⁻¹² and the reference's quotient by 4096 are the same operation on every extended real.

  The kernel's frames and its run block by block are the generated ones; the reference's run, the value of each
  side index by index and the law joining them are in the modules imported here.
-/
import proofs.«118876_j5540507811898_2_alg».proof.Defs
import proofs.«118876_j5540507811898_2_alg».proof.Proof.Gen.Kernel
import proofs.«118876_j5540507811898_2_alg».proof.Proof.Gen.Kernel.Frame
import proofs.«118876_j5540507811898_2_alg».proof.Proof.Gen.KernelIdeal
import proofs.«118876_j5540507811898_2_alg».proof.Proof.Gen.KernelIdeal.Frame
import proofs.«118876_j5540507811898_2_alg».proof.Proof.Gen.KernelIdeal.Value
import proofs.«118876_j5540507811898_2_alg».proof.Proof.Gen.ReferenceIdeal
import proofs.«118876_j5540507811898_2_alg».proof.Proof.Gen.Pre_finite_inputs
import proofs.«118876_j5540507811898_2_alg».proof.Proof.KerFinal
import proofs.«118876_j5540507811898_2_alg».proof.Proof.RefRun
import proofs.«118876_j5540507811898_2_alg».proof.Proof.Bridge
import proofs.«118876_j5540507811898_2_alg».proof.Proof.FiniteInputs

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- No operation of the kernel was rewritten for the ideal reading. -/
theorem preserves : Cert.preserves_Kernel_KernelIdeal := trivial

/-- From memories agreeing on the arguments both programs end at one array: the kernel's function of the arguments,
    which the reference's equals because the points are real numbers. -/
theorem algebraic : Cert.algebraic_KernelIdeal_ReferenceIdeal := by
  intro m ρ m' ρ' hpre hagree
  refine ⟨_, Cert.KernelIdeal.KerFinal.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2]
  exact Cert.Bridge.result_eq _ _ _ _ _ (Cert.FiniteInputs.points_real m hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
